-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S1024 : Shape := ⟨1, ![1024]⟩
abbrev S128x64 : Shape := ⟨2, ![128, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128 .f32) (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg15
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S512x128 .f32) (main_arg12 : FVec F S128 .f32) (main_arg13 : FVec F S128x128 .f32) (main_arg14 : FVec F S128 .f32) (main_arg15 : FVec F S128x1 .f32) (main_arg16 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x128 .f32 := Host.absf main_arg11
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S512x128 .f32) (main_arg12 : FVec F S128 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S64x256 .f32) (main_arg6 : FVec F S256 .f32) (main_arg7 : FVec F S256x256 .f32) (main_arg8 : FVec F S256 .f32) (main_arg9 : FVec F S256x256 .f32) (main_arg10 : FVec F S256 .f32) (main_arg11 : FVec F S512x128 .f32) (main_arg12 : FVec F S128 .f32) (main_arg13 : FVec F S128x128 .f32) (main_arg14 : FVec F S128 .f32) (main_arg15 : FVec F S128x1 .f32) (main_arg16 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1024x128 .f32) (main_arg1 : FVec F S1024x1024 .f32) (main_arg2 : FVec F S1024 .f32) (main_arg3 : FVec F S128x64 .f32) (main_arg4 : FVec F S64 .f32) (main_arg5 : FVec F S64x256 .f32) (main_arg6 : FVec F S256 .f32) (main_arg7 : FVec F S256x256 .f32) (main_arg8 : FVec F S256 .f32) (main_arg9 : FVec F S256x256 .f32) (main_arg10 : FVec F S256 .f32) (main_arg11 : FVec F S512x128 .f32) (main_arg12 : FVec F S128 .f32) (main_arg13 : FVec F S128x128 .f32) (main_arg14 : FVec F S128 .f32) (main_arg15 : FVec F S128x1 .f32) (main_arg16 : FVec F S1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1024x128 : Shape := ⟨2, ![1024, 128]⟩
abbrev S1024x1024 : Shape := ⟨2, ![1024, 1024]⟩
abbrev S1024 : Shape := ⟨1, ![1024]⟩
abbrev S128x64 : Shape := ⟨2, ![128, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1024x1 : Shape := ⟨2, ![1024, 1]⟩
abbrev S1x64 : Shape := ⟨2, ![1, 64]⟩
abbrev S1x256 : Shape := ⟨2, ![1, 256]⟩
abbrev S256x128 : Shape := ⟨2, ![256, 128]⟩
abbrev S1x128 : Shape := ⟨2, ![1, 128]⟩
abbrev S1x1 : Shape := ⟨2, ![1, 1]⟩
abbrev S1024x64 : Shape := ⟨2, ![1024, 64]⟩
abbrev S1024x256 : Shape := ⟨2, ![1024, 256]⟩
abbrev S1x1024 : Shape := ⟨2, ![1, 1024]⟩

abbrev nBuf : Space → Nat
  | .hbm => 28
  | .vmem => 19
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S1024, .f32⟩
  | .hbm, ⟨3, _⟩ => ⟨S128x64, .f32⟩
  | .hbm, ⟨4, _⟩ => ⟨S64, .f32⟩
  | .hbm, ⟨5, _⟩ => ⟨S64x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S512x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S1024x1, .f32⟩
  | .hbm, ⟨18, _⟩ => ⟨S1x64, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S256x128, .f32⟩
  | .hbm, ⟨23, _⟩ => ⟨S256x128, .f32⟩
  | .hbm, ⟨24, _⟩ => ⟨S1x128, .f32⟩
  | .hbm, ⟨25, _⟩ => ⟨S1x128, .f32⟩
  | .hbm, ⟨26, _⟩ => ⟨S1x1, .f32⟩
  | .hbm, ⟨27, _⟩ => ⟨S1024x1, .f32⟩
  | .local _ .vmem, ⟨0, _⟩ => ⟨S1024x128, .f32⟩
  | .local _ .vmem, ⟨1, _⟩ => ⟨S1024x1024, .f32⟩
  | .local _ .vmem, ⟨2, _⟩ => ⟨S1024x1, .f32⟩
  | .local _ .vmem, ⟨3, _⟩ => ⟨S128x64, .f32⟩
  | .local _ .vmem, ⟨4, _⟩ => ⟨S1x64, .f32⟩
  | .local _ .vmem, ⟨5, _⟩ => ⟨S64x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S1024x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

class Facts₀ : Prop where
  shapeCasts_S1024_S1024x1 : S1024.ShapeCasts S1024x1
  shapeCasts_S64_S1x64 : S64.ShapeCasts S1x64
  shapeCasts_S256_S1x256 : S256.ShapeCasts S1x256
  slices_S512x128_S256x128_0_0 : S512x128.Slices ![0, 0] S256x128
  slices_S512x128_S256x128_256_0 : S512x128.Slices ![256, 0] S256x128
  shapeCasts_S128_S1x128 : S128.ShapeCasts S1x128
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1x1024_S1024x1 : S1x1024.ShapeCasts S1024x1
  bitsLt_bf16_f32 : FTy.bits .bf16 < FTy.bits .f32
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  dot_S1024x128_S128x64_S1024x64_1_0_0_1_n_n_wf : DotDims.WF S1024x128 S128x64 S1024x64 [1] [0] [0] [1] [] []
  dot_S1024x64_S64x256_S1024x256_1_0_0_1_n_n_wf : DotDims.WF S1024x64 S64x256 S1024x256 [1] [0] [0] [1] [] []
  dot_S1024x1024_S1024x256_S1024x256_0_0_1_1_n_n_wf : DotDims.WF S1024x1024 S1024x256 S1024x256 [0] [0] [1] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v3) false false (stage0_8 0) (sem0_8 0) (Memref.isWhole_whole _) (hstage0_8 0)

abbrev win0_9 : Pipeline.Window sig grid0 :=
  Pipeline.Window.whole (Memref.whole main_arg9) false false (stage0_9 0) (sem0_9 0) (Memref.isWhole_whole _) (hstage0_9 0)

abbrev win0_10 : Pipeline.Window sig grid0 :=
  Pipeline.Window.whole (Memref.whole main_v4) false false (stage0_10 0) (sem0_10 0) (Memref.isWhole_whole _) (hstage0_10 0)

abbrev win0_11 : Pipeline.Window sig grid0 :=
  Pipeline.Window.whole (Memref.whole main_v5) false false (stage0_11 0) (sem0_11 0) (Memref.isWhole_whole _) (hstage0_11 0)

abbrev win0_12 : Pipeline.Window sig grid0 :=
  Pipeline.Window.whole (Memref.whole main_v6) false false (stage0_12 0) (sem0_12 0) (Memref.isWhole_whole _) (hstage0_12 0)

abbrev win0_13 : Pipeline.Window sig grid0 :=
  Pipeline.Window.whole (Memref.whole main_v7) false false (stage0_13 0) (sem0_13 0) (Memref.isWhole_whole _) (hstage0_13 0)

abbrev win0_14 : Pipeline.Window sig grid0 :=
  Pipeline.Window.whole (Memref.whole main_arg13) false false (stage0_14 0) (sem0_14 0) (Memref.isWhole_whole _) (hstage0_14 0)

abbrev win0_15 : Pipeline.Window sig grid0 :=
  Pipeline.Window.whole (Memref.whole main_v8) false false (stage0_15 0) (sem0_15 0) (Memref.isWhole_whole _) (hstage0_15 0)

abbrev win0_16 : Pipeline.Window sig grid0 :=
  Pipeline.Window.whole (Memref.whole main_arg15) false false (stage0_16 0) (sem0_16 0) (Memref.isWhole_whole _) (hstage0_16 0)

abbrev win0_17 : Pipeline.Window sig grid0 :=
  Pipeline.Window.whole (Memref.whole main_v9) false false (stage0_17 0) (sem0_17 0) (Memref.isWhole_whole _) (hstage0_17 0)

abbrev win0_18 : Pipeline.Window sig grid0 :=
  Pipeline.Window.whole (Memref.whole main_v10) true false (stage0_18 0) (sem0_18 0) (Memref.isWhole_whole _) (hstage0_18 0)

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S1024 : Shape := ⟨1, ![1024]⟩
abbrev S128x64 : Shape := ⟨2, ![128, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1024x64 : Shape := ⟨2, ![1024, 64]⟩
abbrev S1x64 : Shape := ⟨2, ![1, 64]⟩
abbrev S_ : Shape := ⟨0, ![]⟩
abbrev S1024x256 : Shape := ⟨2, ![1024, 256]⟩
abbrev S1x256 : Shape := ⟨2, ![1, 256]⟩
abbrev S1048576 : Shape := ⟨1, ![1048576]⟩
abbrev S1x1024 : Shape := ⟨2, ![1, 1024]⟩
abbrev S1048576x1 : Shape := ⟨2, ![1048576, 1]⟩
abbrev S1x1 : Shape := ⟨2, ![1, 1]⟩
abbrev S1048576x256 : Shape := ⟨2, ![1048576, 256]⟩
abbrev S1024x512 : Shape := ⟨2, ![1024, 512]⟩
abbrev S1x128 : Shape := ⟨2, ![1, 128]⟩
abbrev S1024x1 : Shape := ⟨2, ![1024, 1]⟩

abbrev nBuf : Space → Nat
  | .hbm => 168
  | .vmem => 0
  | .smem => 0
  | _ => 0

abbrev hbmTy0_0 (i : Nat) : BufTy := match i % 128 with
  | 0 => ⟨S1024x128, .f32⟩
  | 1 => ⟨S1024x1024, .f32⟩
  | 2 => ⟨S1024, .f32⟩
  | 3 => ⟨S128x64, .f32⟩
  | 4 => ⟨S64, .f32⟩
  | 5 => ⟨S64x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S512x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S1024x64, .f32⟩
  | 18 => ⟨S1x64, .f32⟩
  | 19 => ⟨S1024x64, .f32⟩
  | 20 => ⟨S1024x64, .f32⟩
  | 21 => ⟨S_, .f32⟩
  | 22 => ⟨S1024x64, .f32⟩
  | 23 => ⟨S1024x64, .f32⟩
  | 24 => ⟨S1024x256, .f32⟩
  | 25 => ⟨S1x256, .f32⟩
  | 26 => ⟨S1024x256, .f32⟩
  | 27 => ⟨S1024x256, .f32⟩
  | 28 => ⟨S_, .f32⟩
  | 29 => ⟨S1024x256, .f32⟩
  | 30 => ⟨S1024x256, .f32⟩
  | 31 => ⟨S1024, .i32⟩
  | 32 => ⟨S1024x1024, .i32⟩
  | 33 => ⟨S1048576, .i32⟩
  | 34 => ⟨S1024, .i32⟩
  | 35 => ⟨S1x1024, .i32⟩
  | 36 => ⟨S1024x1024, .i32⟩
  | 37 => ⟨S1048576, .i32⟩
  | 38 => ⟨S1048576, .f32⟩
  | 39 => ⟨S_, .f32⟩
  | 40 => ⟨S1024, .f32⟩
  | 41 => ⟨S1048576x1, .i32⟩
  | 42 => ⟨S1024, .f32⟩
  | 43 => ⟨S_, .f32⟩
  | 44 => ⟨S1024, .f32⟩
  | 45 => ⟨S1024, .i1⟩
  | 46 => ⟨S_, .f32⟩
  | 47 => ⟨S1024, .f32⟩
  | 48 => ⟨S1024, .f32⟩
  | 49 => ⟨S_, .f32⟩
  | 50 => ⟨S_, .f32⟩
  | 51 => ⟨S1024, .f32⟩
  | 52 => ⟨S1024, .f32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576, .f32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S1048576, .f32⟩
  | 71 => ⟨S1048576, .f32⟩
  | 72 => ⟨S1048576, .f32⟩
  | 73 => ⟨S1048576x1, .f32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1, .i32⟩
  | 83 => ⟨S_, .i32⟩
  | 84 => ⟨S1048576x1, .i32⟩
  | 85 => ⟨S1048576x1, .i1⟩
  | 86 => ⟨S1x1, .i32⟩
  | 87 => ⟨S1048576x1, .i32⟩
  | 88 => ⟨S1048576x1, .i1⟩
  | 89 => ⟨S1048576x1, .i1⟩
  | 90 => ⟨S_, .i1⟩
  | 91 => ⟨S1048576, .i1⟩
  | 92 => ⟨S1048576x256, .f32⟩
  | 93 => ⟨S1048576x256, .i1⟩
  | 94 => ⟨S_, .f32⟩
  | 95 => ⟨S1048576x256, .f32⟩
  | 96 => ⟨S1048576x256, .f32⟩
  | 97 => ⟨S1048576x256, .f32⟩
  | 98 => ⟨S1048576x256, .f32⟩
  | 99 => ⟨S_, .f32⟩
  | 100 => ⟨S1024x256, .f32⟩
  | 101 => ⟨S1048576x1, .i32⟩
  | 102 => ⟨S1024x256, .f32⟩
  | 103 => ⟨S1048576x1, .f32⟩
  | 104 => ⟨S_, .i32⟩
  | 105 => ⟨S1048576, .i32⟩
  | 106 => ⟨S1048576, .i1⟩
  | 107 => ⟨S_, .i32⟩
  | 108 => ⟨S1048576, .i32⟩
  | 109 => ⟨S1048576, .i32⟩
  | 110 => ⟨S1048576, .i32⟩
  | 111 => ⟨S1048576x1, .i32⟩
  | 112 => ⟨S1, .i32⟩
  | 113 => ⟨S_, .i32⟩
  | 114 => ⟨S1048576x1, .i32⟩
  | 115 => ⟨S1048576x1, .i1⟩
  | 116 => ⟨S1x1, .i32⟩
  | 117 => ⟨S1048576x1, .i32⟩
  | 118 => ⟨S1048576x1, .i1⟩
  | 119 => ⟨S1048576x1, .i1⟩
  | 120 => ⟨S_, .i1⟩
  | 121 => ⟨S1048576, .i1⟩
  | 122 => ⟨S1048576x256, .f32⟩
  | 123 => ⟨S1048576x256, .i1⟩
  | 124 => ⟨S_, .f32⟩
  | 125 => ⟨S1048576x256, .f32⟩
  | 126 => ⟨S1048576x256, .f32⟩
  | 127 => ⟨S1048576x256, .f32⟩
  | _ => ⟨S1024x128, .f32⟩

abbrev hbmTy0_1 (i : Nat) : BufTy := match i % 128 with
  | 0 => ⟨S1048576x256, .f32⟩
  | 1 => ⟨S_, .f32⟩
  | 2 => ⟨S1024x256, .f32⟩
  | 3 => ⟨S1048576x1, .i32⟩
  | 4 => ⟨S1024x256, .f32⟩
  | 5 => ⟨S1024x256, .f32⟩
  | 6 => ⟨S1x256, .f32⟩
  | 7 => ⟨S1024x256, .f32⟩
  | 8 => ⟨S1024x256, .f32⟩
  | 9 => ⟨S_, .f32⟩
  | 10 => ⟨S1024x256, .f32⟩
  | 11 => ⟨S1024x256, .f32⟩
  | 12 => ⟨S1024x256, .f32⟩
  | 13 => ⟨S1x256, .f32⟩
  | 14 => ⟨S1024x256, .f32⟩
  | 15 => ⟨S1024x256, .f32⟩
  | 16 => ⟨S_, .f32⟩
  | 17 => ⟨S1024x256, .f32⟩
  | 18 => ⟨S1024x256, .f32⟩
  | 19 => ⟨S1024x512, .f32⟩
  | 20 => ⟨S1024x128, .f32⟩
  | 21 => ⟨S1x128, .f32⟩
  | 22 => ⟨S1024x128, .f32⟩
  | 23 => ⟨S1024x128, .f32⟩
  | 24 => ⟨S_, .f32⟩
  | 25 => ⟨S1024x128, .f32⟩
  | 26 => ⟨S1024x128, .f32⟩
  | 27 => ⟨S1024x128, .f32⟩
  | 28 => ⟨S1x128, .f32⟩
  | 29 => ⟨S1024x128, .f32⟩
  | 30 => ⟨S1024x128, .f32⟩
  | 31 => ⟨S_, .f32⟩
  | 32 => ⟨S1024x128, .f32⟩
  | 33 => ⟨S1024x128, .f32⟩
  | 34 => ⟨S1024x1, .f32⟩
  | 35 => ⟨S1x1, .f32⟩
  | 36 => ⟨S1024x1, .f32⟩
  | 37 => ⟨S1024x1, .f32⟩
  | 38 => ⟨S1024x1, .f32⟩
  | 39 => ⟨S1024x1, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_v25 : Ref sig .tc := ⟨.hbm, 52, rfl⟩
abbrev main_c : Ref sig .tc := ⟨.hbm, 53, rfl⟩
abbrev main_v26 : Ref sig .tc := ⟨.hbm, 54, rfl⟩
abbrev main_v27 : Ref sig .tc := ⟨.hbm, 55, rfl⟩
abbrev main_c_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_6 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_call4_cst : Ref sig .tc := ⟨.hbm, 124, rfl⟩
abbrev main_call4_v15 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_7 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_call5_cst : Ref sig .tc := ⟨.hbm, 137, rfl⟩
abbrev main_call5_v0 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_call6_cst : Ref sig .tc := ⟨.hbm, 144, rfl⟩
abbrev main_call6_v0 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_call7_cst : Ref sig .tc := ⟨.hbm, 152, rfl⟩
abbrev main_call7_v0 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_call8_cst : Ref sig .tc := ⟨.hbm, 159, rfl⟩
abbrev main_call8_v0 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S_S1024 : S_.BroadcastsInDim S1024 (![] : Fin 0 → Fin S1024.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x256_0 : S1048576.BroadcastsInDim S1048576x256 (![0] : Fin 1 → Fin S1048576x256.rank)
  bcast_S_S1048576x256 : S_.BroadcastsInDim S1048576x256 (![] : Fin 0 → Fin S1048576x256.rank)
  bcast_S1048576x1_S1048576x256_0_1 : S1048576x1.BroadcastsInDim S1048576x256 (![0, 1] : Fin 2 → Fin S1048576x256.rank)
  concatenates_S1024x256_S1024x256_S1024x512_d1 : Shape.Concatenates [S1024x256, S1024x256] S1024x512 1
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1x1_S1024x1_0_1 : S1x1.BroadcastsInDim S1024x1 (![0, 1] : Fin 2 → Fin S1024x1.rank)
  shapeCasts_S1024_S1024x1 : S1024.ShapeCasts S1024x1
  dot_S1024x128_S128x64_S1024x64_1_0_0_1_n_n_wf : DotDims.WF S1024x128 S128x64 S1024x64 [1] [0] [0] [1] [] []
  dot_S1024x64_S64x256_S1024x256_1_0_0_1_n_n_wf : DotDims.WF S1024x64 S64x256 S1024x256 [1] [0] [0] [1] [] []
  scatter_S1024_S1048576x1_S1048576_n_0_0_1_wf : ScatterDims.WF S1024 S1048576x1 S1048576 [] [0] [0] 1
  gather_S1024_S1048576x1_S1048576_n_0_n_n_0_1_1_wf : GatherDims.WF S1024 S1048576x1 S1048576 [] [0] [] [0] [] 1 ![1]
  gather_S1024x256_S1048576x1_S1048576x256_1_0_n_n_0_1_1256_wf : GatherDims.WF S1024x256 S1048576x1 S1048576x256 [1] [0] [] [0] [] 1 ![1, 256]
  scatter_S1024x256_S1048576x1_S1048576x256_1_0_0_1_wf : ScatterDims.WF S1024x256 S1048576x1 S1048576x256 [1] [0] [0] 1
  dot_S1024x256_S256x256_S1024x256_1_0_0_1_n_n_wf : DotDims.WF S1024x256 S256x256 S1024x256 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024_S1048576x1_S1048576_n_0_n_n_0_1_1 : GatherDims S1024 S1048576x1 S1048576 where
  offsetDims := []
  collapsedSliceDims := [0]
  operandBatchingDims := []
  startIndicesBatchingDims := []
  startIndexMap := [0]
  indexVectorDim := 1
  sliceSizes := ![1]
  wf := gather_S1024_S1048576x1_S1048576_n_0_n_n_0_1_1_wf
def gather_S1024x256_S1048576x1_S1048576x256_1_0_n_n_0_1_1256 : GatherDims S1024x256 S1048576x1 S1048576x256 where
  offsetDims := [1]
  collapsedSliceDims := [0]
  operandBatchingDims := []
  startIndicesBatchingDims := []
  startIndexMap := [0]
  indexVectorDim := 1
  sliceSizes := ![1, 256]
  wf := gather_S1024x256_S1048576x1_S1048576x256_1_0_n_n_0_1_1256_wf
def scatter_S1024x256_S1048576x1_S1048576x256_1_0_0_1 : ScatterDims S1024x256 S1048576x1 S1048576x256 where
  updateWindowDims := [1]
  insertedWindowDims := [0]
  scatterDimsToOperandDims := [0]
  indexVectorDim := 1
  wf := scatter_S1024x256_S1048576x1_S1048576x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.Spec.lean ====
import Idealize.ShloMosaic.PureOps.Ideal
import Idealize.ShloMosaic.Lib.ValueIdx

/-!
# A two-hop normalised graph convolution between an encoder and a value head, as index formulas

The model reads node features `a0 : [1024, 128]`, a dense weighted adjacency `a1 : [1024, 1024]` and a
per-node mask `a2 : [1024]`.  An encoder of two dense layers with `max(·, 0)` gives `x : [1024, 256]`.
The column sums of the adjacency give the degrees, `dinv n = 1/√(deg n)` where `deg n > 0` and `0`
elsewhere.  One propagation hop sends `h` to `h'[n, f] = Σ_i A[i, n] · dinv i · dinv n · h[i, f]`; it is
written here in two arrangements, the factor `dinv n` outside the sum (`hopK`) or inside every summand
(`hopR`).  After two hops come two dense layers, a dense layer on the concatenation `[x_graph, x]`
(its sum over 512 split at 256), one more dense layer, a linear read-out to one column, and the mask.

On the extended reals the two arrangements of the hop agree when the entries are finite reals; that law
is proved separately, over these definitions.
-/

noncomputable section

open scoped BigOperators

namespace Cert.Gcn

open Idealize.ShloMosaic Idealize.ShloMosaic.ValueIdx

/-- The seventeen argument arrays, in the order of the programs' parameters. -/
structure Args where
  a0 : FVec Ideal ⟨2, ![1024, 128]⟩ .f32
  a1 : FVec Ideal ⟨2, ![1024, 1024]⟩ .f32
  a2 : FVec Ideal ⟨1, ![1024]⟩ .f32
  a3 : FVec Ideal ⟨2, ![128, 64]⟩ .f32
  a4 : FVec Ideal ⟨1, ![64]⟩ .f32
  a5 : FVec Ideal ⟨2, ![64, 256]⟩ .f32
  a6 : FVec Ideal ⟨1, ![256]⟩ .f32
  a7 : FVec Ideal ⟨2, ![256, 256]⟩ .f32
  a8 : FVec Ideal ⟨1, ![256]⟩ .f32
  a9 : FVec Ideal ⟨2, ![256, 256]⟩ .f32
  a10 : FVec Ideal ⟨1, ![256]⟩ .f32
  a11 : FVec Ideal ⟨2, ![512, 128]⟩ .f32
  a12 : FVec Ideal ⟨1, ![128]⟩ .f32
  a13 : FVec Ideal ⟨2, ![128, 128]⟩ .f32
  a14 : FVec Ideal ⟨1, ![128]⟩ .f32
  a15 : FVec Ideal ⟨2, ![128, 1]⟩ .f32
  a16 : FVec Ideal ⟨1, ![1]⟩ .f32

/-- A dense layer followed by `max(·, 0)`: `max (Σ_k a[p, k] · w[k, q] + b[q]) 0`. -/
def dense {M K N : Nat} (a : Fin M → Fin K → EReal) (w : FVec Ideal ⟨2, ![K, N]⟩ .f32)
    (b : FVec Ideal ⟨1, ![N]⟩ .f32) : Fin M → Fin N → EReal :=
  fun p q => max ((∑ k : Fin K, a p k * w (ix2 k q)) + b (ix1 q)) 0

/-- Row `k < 256` of the upper half of a `[512, ·]` matrix. -/
def lo (k : Fin 256) : Fin 512 := ⟨k.val, by omega⟩
/-- Row `256 + k` of a `[512, ·]` matrix: row `k` of its lower half. -/
def hi (k : Fin 256) : Fin 512 := ⟨256 + k.val, by omega⟩

variable (A : Args)

/-- The encoder's output `x : [1024, 256]`. -/
def enc : Fin 1024 → Fin 256 → EReal :=
  dense (dense (fun p k => A.a0 (ix2 p k)) A.a3 A.a4) A.a5 A.a6

/-- The degree of node `n`: the sum of column `n` of the adjacency. -/
def deg (n : Fin 1024) : EReal := ∑ i : Fin 1024, A.a1 (ix2 i n)

/-- The degree weight: `1/√(deg n)` where the degree is positive, `0` elsewhere. -/
def dinv (n : Fin 1024) : EReal :=
  Scalar.select (Ideal.cmp .ogt (deg A n) 0) (Ideal.rsqrt (deg A n)) 0

/-- One hop, the target's weight outside the sum: `dinv n · Σ_i A[i, n] · (dinv i · h[i, f])`. -/
def hopK (h : Fin 1024 → Fin 256 → EReal) : Fin 1024 → Fin 256 → EReal :=
  fun n f => dinv A n * ∑ i : Fin 1024, A.a1 (ix2 i n) * (dinv A i * h i f)

/-- One hop, both weights on every edge: `Σ_i (A[i, n] · (dinv i · dinv n)) · h[i, f]`. -/
def hopR (h : Fin 1024 → Fin 256 → EReal) : Fin 1024 → Fin 256 → EReal :=
  fun n f => ∑ i : Fin 1024, (A.a1 (ix2 i n) * (dinv A i * dinv A n)) * h i f

/-- Everything after the two hops, as a function of the propagated features `h2` and the encoder's `x`. -/
def head (h2 x : Fin 1024 → Fin 256 → EReal) : Fin 1024 → EReal :=
  let g1 := dense h2 A.a7 A.a8
  let xg := dense g1 A.a9 A.a10
  let p1 : Fin 1024 → Fin 128 → EReal := fun p q =>
    max (((∑ k : Fin 256, xg p k * A.a11 (ix2 (lo k) q)) + (∑ k : Fin 256, x p k * A.a11 (ix2 (hi k) q)))
      + A.a12 (ix1 q)) 0
  let p2 := dense p1 A.a13 A.a14
  fun p => ((∑ k : Fin 128, p2 p k * A.a15 (ix2 k (0 : Fin 1))) + A.a16 (ix1 (0 : Fin 1))) * A.a2 (ix1 p)

/-- The model with the hop's target weight outside the sum. -/
def specK : Fin 1024 → EReal := head A (hopK A (hopK A (enc A))) (enc A)

/-- The model with both weights on every edge. -/
def specR : Fin 1024 → EReal := head A (hopR A (hopR A (enc A))) (enc A)

/-- The result array `[1024, 1]` of a per-node value. -/
def asColumn (v : Fin 1024 → EReal) : FVec Ideal ⟨2, ![1024, 1]⟩ .f32 := fun i => v (i 0)

/-- Every entry of every argument array is a finite real. -/
structure Args.Finite : Prop where
  h0 : ∀ i, ∃ r : ℝ, A.a0 i = (r : EReal)
  h1 : ∀ i, ∃ r : ℝ, A.a1 i = (r : EReal)
  h2 : ∀ i, ∃ r : ℝ, A.a2 i = (r : EReal)
  h3 : ∀ i, ∃ r : ℝ, A.a3 i = (r : EReal)
  h4 : ∀ i, ∃ r : ℝ, A.a4 i = (r : EReal)
  h5 : ∀ i, ∃ r : ℝ, A.a5 i = (r : EReal)
  h6 : ∀ i, ∃ r : ℝ, A.a6 i = (r : EReal)
  h7 : ∀ i, ∃ r : ℝ, A.a7 i = (r : EReal)
  h8 : ∀ i, ∃ r : ℝ, A.a8 i = (r : EReal)
  h9 : ∀ i, ∃ r : ℝ, A.a9 i = (r : EReal)
  h10 : ∀ i, ∃ r : ℝ, A.a10 i = (r : EReal)
  h11 : ∀ i, ∃ r : ℝ, A.a11 i = (r : EReal)
  h12 : ∀ i, ∃ r : ℝ, A.a12 i = (r : EReal)
  h13 : ∀ i, ∃ r : ℝ, A.a13 i = (r : EReal)
  h14 : ∀ i, ∃ r : ℝ, A.a14 i = (r : EReal)
  h15 : ∀ i, ∃ r : ℝ, A.a15 i = (r : EReal)
  h16 : ∀ i, ∃ r : ℝ, A.a16 i = (r : EReal)

end Cert.Gcn

end
-- ==== Proof.LibSegmentScale.lean ====
import Mathlib.Data.EReal.Inv
import Mathlib.Algebra.BigOperators.Ring.Finset
import Mathlib.Tactic.Ring

/-!
# Scaling a segment sum of finite reals, on the extended reals

On the extended reals multiplication does not distribute over addition at the infinities, but it
does over finite sums of finite reals.  This module states, over abstract finite index types, the
one algebraic law that a normalised graph convolution needs: scaling every summand of a segment
sum by the two end-point weights is the same as scaling the summands by the source weight only and
the whole sum by the target weight, because every summand of the segment of `n` has target `n`.
It also records that such sums, with a finite bias added, are again finite reals.
-/

namespace LibSegmentScale

open Finset

/-- The coercion of the reals into the extended reals commutes with finite sums:
`((∑ i ∈ s, f i : ℝ) : EReal) = ∑ i ∈ s, (f i : EReal)`. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of finite reals is the coercion of the real sum of products. -/
theorem sum_coe_mul_coe {ι : Type*} (s : Finset ι) (f g : ι → ℝ) :
    ∑ i ∈ s, ((f i : EReal) * (g i : EReal)) = ((∑ i ∈ s, f i * g i : ℝ) : EReal) := by
  rw [coe_finset_sum]
  exact Finset.sum_congr rfl (fun i _ => (EReal.coe_mul _ _).symm)

/-- **Segment scaling law, over any finite set of summands.**  If every `e ∈ s` has target
`tgt e = n`, then
`dinv n * (0 + ∑ e ∈ s, a e * dinv (src e)) = 0 + ∑ e ∈ s, a e * (dinv (src e) * dinv (tgt e))`
in the extended reals, all of `a` and `dinv` being finite reals. -/
theorem scale_sum_eq {E Nn : Type*} (s : Finset E) (src tgt : E → Nn) (n : Nn)
    (a : E → ℝ) (dinv : Nn → ℝ) (htgt : ∀ e ∈ s, tgt e = n) :
    ((dinv n : ℝ) : EReal) * (0 + ∑ e ∈ s, ((a e : EReal) * ((dinv (src e) : ℝ) : EReal)))
      = 0 + ∑ e ∈ s, (a e : EReal) * (((dinv (src e) : ℝ) : EReal) * ((dinv (tgt e) : ℝ) : EReal)) := by
  have hL : ∑ e ∈ s, ((a e : EReal) * ((dinv (src e) : ℝ) : EReal))
      = ((∑ e ∈ s, a e * dinv (src e) : ℝ) : EReal) := sum_coe_mul_coe s a (fun e => dinv (src e))
  have hR : ∑ e ∈ s, (a e : EReal) * (((dinv (src e) : ℝ) : EReal) * ((dinv (tgt e) : ℝ) : EReal))
      = ((∑ e ∈ s, a e * (dinv (src e) * dinv n) : ℝ) : EReal) := by
    rw [coe_finset_sum]
    refine Finset.sum_congr rfl (fun e he => ?_)
    rw [htgt e he, ← EReal.coe_mul, ← EReal.coe_mul]
  rw [hL, hR, zero_add, zero_add, ← EReal.coe_mul, Finset.mul_sum]
  congr 1
  exact Finset.sum_congr rfl (fun e _ => by ring)

/-- **Segment scaling law, in the form of a scatter-add.**  For finite types `E` of edge slots and
`Nn` of nodes, `dst e : Option Nn` the row an edge is accumulated into (`none`: dropped), and
`tgt e = n` whenever `dst e = some n`:
`dinv n * (0 + ∑_{e : dst e = some n} a e * dinv (src e))
   = 0 + ∑_{e : dst e = some n} a e * (dinv (src e) * dinv (tgt e))`. -/
theorem segment_scale {E Nn : Type*} [Fintype E] (dst : E → Option Nn) (src tgt : E → Nn) (n : Nn)
    [DecidablePred fun e => dst e = some n]
    (a : E → ℝ) (dinv : Nn → ℝ) (htgt : ∀ e, dst e = some n → tgt e = n) :
    ((dinv n : ℝ) : EReal)
        * (0 + ∑ e ∈ Finset.univ.filter (fun e => dst e = some n),
            ((a e : EReal) * ((dinv (src e) : ℝ) : EReal)))
      = 0 + ∑ e ∈ Finset.univ.filter (fun e => dst e = some n),
            (a e : EReal) * (((dinv (src e) : ℝ) : EReal) * ((dinv (tgt e) : ℝ) : EReal)) :=
  scale_sum_eq _ src tgt n a dinv (fun e he => htgt e (Finset.mem_filter.mp he).2)

/-- A finite sum of finite reals, added to `0` and to a finite real `b`, is a finite real. -/
theorem exists_real_sum_add {ι : Type*} (s : Finset ι) (f : ι → ℝ) (b : ℝ) :
    ∃ r : ℝ, (0 + ∑ i ∈ s, (f i : EReal)) + (b : EReal) = (r : EReal) :=
  ⟨∑ i ∈ s, f i + b, by rw [zero_add, ← coe_finset_sum, ← EReal.coe_add]⟩

/-- The value of one output entry in the summand-scaled form,
`(0 + ∑ e ∈ s, a e * (c e * d e)) + b` with all of `a c d b` finite reals, is a finite real. -/
theorem exists_real_sum_mul_mul_add {ι : Type*} (s : Finset ι) (a c d : ι → ℝ) (b : ℝ) :
    ∃ r : ℝ, (0 + ∑ i ∈ s, (a i : EReal) * ((c i : EReal) * (d i : EReal))) + (b : EReal)
      = (r : EReal) := by
  refine ⟨∑ i ∈ s, a i * (c i * d i) + b, ?_⟩
  rw [zero_add, EReal.coe_add, coe_finset_sum]
  simp only [EReal.coe_mul]

/-- The value of one output entry in the sum-scaled form,
`w * (0 + ∑ e ∈ s, a e * c e) + b` with all of `w a c b` finite reals, is a finite real. -/
theorem exists_real_mul_sum_mul_add {ι : Type*} (s : Finset ι) (w : ℝ) (a c : ι → ℝ) (b : ℝ) :
    ∃ r : ℝ, (w : EReal) * (0 + ∑ i ∈ s, (a i : EReal) * (c i : EReal)) + (b : EReal)
      = (r : EReal) :=
  ⟨w * ∑ i ∈ s, a i * c i + b, by
    rw [zero_add, sum_coe_mul_coe, ← EReal.coe_mul, ← EReal.coe_add]⟩

/-- The maximum of a finite real with zero is a finite real:
`max (r : EReal) 0 = ((max r 0 : ℝ) : EReal)`. -/
theorem max_coe_zero (r : ℝ) : max (r : EReal) 0 = ((max r 0 : ℝ) : EReal) :=
  (EReal.coe_strictMono.monotone.map_max (a := r) (b := 0)).symm

/-- The maximum of zero with a finite real is a finite real. -/
theorem max_zero_coe (r : ℝ) : max (0 : EReal) (r : EReal) = ((max 0 r : ℝ) : EReal) :=
  (EReal.coe_strictMono.monotone.map_max (a := 0) (b := r)).symm

end LibSegmentScale
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.LibRealEntries.lean ====
import Idealize.ShloMosaic.PureOps.Ideal.Laws
import Idealize.ShloMosaic.Lib.ValueIdx
import proofs.«106343_g48172353192219_fold_wed_c4_272_4_alg».proof.Proof.LibSegmentScale
import proofs.«106343_g48172353192219_fold_wed_c4_272_4_alg».proof.Proof.LibGatherScatterRead

/-!
# Arrays whose entries are finite reals

On the extended reals the algebraic laws of a normalised graph convolution need every entry to be
a finite real.  This module shows that the arrays such a computation builds stay finite: a degree
count (a scatter-add of finite updates into a finite operand), the degree weight
`where (deg > 0) (1 / √deg) 0`, a finite sum of products, and the maximum with zero.
-/

noncomputable section

open scoped BigOperators

namespace LibRealEntries

open Idealize.ShloMosaic Idealize.ShloMosaic.ValueIdx LibGatherScatterRead

/-- `where (d > 0) (1 / √d) 0` is a finite real for every finite real `d`: it is `(√d)⁻¹` when
`0 < d` and `0` otherwise. -/
theorem exists_real_select_rsqrt (d : ℝ) :
    ∃ r : ℝ, Scalar.select (Ideal.cmp .ogt (d : EReal) 0) (Ideal.rsqrt (d : EReal)) (0 : EReal)
      = (r : EReal) := by
  by_cases hd : 0 < d
  · refine ⟨(Real.sqrt d)⁻¹, ?_⟩
    have hlt : ((0 : EReal) < (d : EReal)) := by exact_mod_cast hd
    have hc : Ideal.cmp .ogt (d : EReal) 0 = 1#1 := by
      unfold Ideal.cmp
      simp [hlt]
    rw [hc, select_one, Ideal.rsqrt_coe, if_neg (not_lt.mpr hd.le), if_neg hd.ne']
  · refine ⟨0, ?_⟩
    have hlt : ¬ ((0 : EReal) < (d : EReal)) := fun h => hd (by exact_mod_cast h)
    have hc : Ideal.cmp .ogt (d : EReal) 0 = 0#1 := by
      unfold Ideal.cmp
      simp [hlt]
    rw [hc, select_zero]
    rfl

/-- A finite sum of products of finite reals is a finite real. -/
theorem exists_real_sum_mul {ι : Type*} (s : Finset ι) (a b : ι → ℝ) :
    ∃ r : ℝ, ∑ k ∈ s, (a k : EReal) * (b k : EReal) = (r : EReal) :=
  ⟨_, LibSegmentScale.sum_coe_mul_coe s a b⟩

/-- The maximum of a finite real with zero is a finite real. -/
theorem exists_real_max_zero (r : ℝ) : ∃ r' : ℝ, max (r : EReal) 0 = (r' : EReal) :=
  ⟨_, LibSegmentScale.max_coe_zero r⟩

section Arrays
variable {φ : FTy}

/-- **A degree count is finite**: a scatter-add of update entries that are finite reals into a
vector of finite reals has finite real entries. -/
theorem scatterAdd_flat_real {N M w : Nat}
    (d : ScatterDims ⟨1, ![N]⟩ ⟨2, ![M, 1]⟩ ⟨1, ![M]⟩)
    (hd : d.updateWindowDims = [] ∧ d.insertedWindowDims = [0]
      ∧ d.scatterDimsToOperandDims = [0] ∧ d.indexVectorDim = 1)
    (x : FVec Ideal ⟨1, ![N]⟩ φ) (idx : IVec ⟨2, ![M, 1]⟩ w) (upd : FVec Ideal ⟨1, ![M]⟩ φ)
    (hx : ∀ i, ∃ r : ℝ, x i = (r : EReal)) (hu : ∀ i, ∃ r : ℝ, upd i = (r : EReal))
    (i : (⟨1, ![N]⟩ : Shape).Idx) :
    ∃ r : ℝ, Host.scatterAdd (F := Ideal) d x idx upd i = (r : EReal) := by
  obtain ⟨d1, d2, d3, d4⟩ := hd
  choose xr hxr using hx
  choose ur hur using hu
  obtain ⟨n, rfl⟩ : ∃ n : Fin N, i = ix1 n := ⟨i 0, eq_ix1 i⟩
  rw [scatterAdd_flat_apply d d1 d2 d3 d4, hxr]
  simp only [hur]
  exact ⟨xr (ix1 n) + ∑ e ∈ Finset.univ.filter
      (fun e : Fin M => scatterRowOf? N (idx (ix2 e (0 : Fin 1))) = some n), ur (ix1 e),
    by rw [EReal.coe_add, LibSegmentScale.coe_finset_sum]⟩

/-- **The degree weight is finite**: for a degree array with finite real entries and two zero
arrays, `select (deg > zero₁) (rsqrt deg) zero₂` has finite real entries. -/
theorem select_rsqrt_real {s : Shape} (deg zero₁ zero₂ : FVec Ideal s φ)
    (hdeg : ∀ i, ∃ r : ℝ, deg i = (r : EReal)) (h₁ : ∀ i, zero₁ i = 0) (h₂ : ∀ i, zero₂ i = 0)
    (i : s.Idx) :
    ∃ r : ℝ, select (cmpf (F := Ideal) .ogt deg zero₁) (Host.rsqrt (F := Ideal) deg) zero₂ i
      = (r : EReal) := by
  obtain ⟨dr, hdr⟩ := hdeg i
  show ∃ r : ℝ, Scalar.select (Ideal.cmp .ogt (deg i) (zero₁ i)) (Ideal.rsqrt (deg i)) (zero₂ i)
    = (r : EReal)
  rw [h₁, h₂, hdr]
  exact exists_real_select_rsqrt dr

/-- **The maximum with a zero array is finite.** -/
theorem maximumf_zero_real {s : Shape} (x zero : FVec Ideal s φ)
    (hx : ∀ i, ∃ r : ℝ, x i = (r : EReal)) (hz : ∀ i, zero i = 0) (i : s.Idx) :
    ∃ r : ℝ, maximumf (F := Ideal) x zero i = (r : EReal) := by
  obtain ⟨xr, hxr⟩ := hx i
  rw [maximumf_apply, hz, hxr]
  exact exists_real_max_zero xr

end Arrays

end LibRealEntries

end
-- ==== Proof.Law.lean ====
import proofs.«106343_g48172353192219_fold_wed_c4_272_4_alg».proof.Proof.Spec
import proofs.«106343_g48172353192219_fold_wed_c4_272_4_alg».proof.Proof.LibSegmentScale
import proofs.«106343_g48172353192219_fold_wed_c4_272_4_alg».proof.Proof.LibRealEntries

/-!
# The two arrangements of a propagation hop agree on finite reals

`hopK` multiplies the sum over the sources by the target's weight; `hopR` puts both end-point weights on
every summand.  On the extended reals a factor moves across a finite sum only when everything is a
finite real.  Here: a dense layer, the degrees and the degree weights of finite real arrays are finite
reals; on finite reals the two hops are the same real number, by `d_n · Σ_i a_i (d_i h_i) =
Σ_i (a_i (d_i d_n)) h_i`; so the two models agree.
-/

noncomputable section

open scoped BigOperators

namespace Cert.Gcn

open Idealize.ShloMosaic Idealize.ShloMosaic.ValueIdx LibSegmentScale

/-- Every entry of a matrix given as a function of two coordinates is a finite real. -/
def IsReal2 {M N : Nat} (a : Fin M → Fin N → EReal) : Prop := ∀ p q, ∃ r : ℝ, a p q = (r : EReal)

/-- A dense layer with `max(·, 0)` of finite real inputs, weights and bias has finite real entries. -/
theorem dense_real {M K N : Nat} (a : Fin M → Fin K → EReal) (w : FVec Ideal ⟨2, ![K, N]⟩ .f32)
    (b : FVec Ideal ⟨1, ![N]⟩ .f32) (ha : IsReal2 a) (hw : ∀ i, ∃ r : ℝ, w i = (r : EReal))
    (hb : ∀ i, ∃ r : ℝ, b i = (r : EReal)) : IsReal2 (dense a w b) := by
  intro p q
  choose ar har using ha
  choose wr hwr using hw
  choose br hbr using hb
  refine ⟨max ((∑ k : Fin K, ar p k * wr (ix2 k q)) + br (ix1 q)) 0, ?_⟩
  unfold dense
  simp only [har, hwr, hbr]
  rw [sum_coe_mul_coe, ← EReal.coe_add, max_coe_zero]

variable (A : Args)

/-- The degrees of a finite real adjacency are finite reals. -/
theorem deg_real (hA : ∀ i, ∃ r : ℝ, A.a1 i = (r : EReal)) (n : Fin 1024) : ∃ r : ℝ, deg A n = (r : EReal) := by
  choose ar har using hA
  refine ⟨∑ i : Fin 1024, ar (ix2 i n), ?_⟩
  unfold deg
  simp only [har]
  exact (coe_finset_sum _ _).symm

/-- The degree weights of a finite real adjacency are finite reals. -/
theorem dinv_real (hA : ∀ i, ∃ r : ℝ, A.a1 i = (r : EReal)) (n : Fin 1024) : ∃ r : ℝ, dinv A n = (r : EReal) := by
  obtain ⟨d, hd⟩ := deg_real A hA n
  unfold dinv
  rw [hd]
  exact LibRealEntries.exists_real_select_rsqrt d

/-- A hop with both weights on every edge keeps finite real entries. -/
theorem hopR_real (hA : ∀ i, ∃ r : ℝ, A.a1 i = (r : EReal)) (h : Fin 1024 → Fin 256 → EReal) (hh : IsReal2 h) :
    IsReal2 (hopR A h) := by
  intro n f
  have hd := dinv_real A hA
  choose ar har using hA
  choose dr hdr using hd
  choose hr hhr using hh
  refine ⟨∑ i : Fin 1024, (ar (ix2 i n) * (dr i * dr n)) * hr i f, ?_⟩
  unfold hopR
  simp only [har, hdr, hhr, ← EReal.coe_mul]
  exact (coe_finset_sum _ _).symm

/-- **The hop law.**  On finite real adjacency and features the target's weight moves inside the sum:
`d_n · Σ_i a_i · (d_i · h_i) = Σ_i (a_i · (d_i · d_n)) · h_i`. -/
theorem hop_eq (hA : ∀ i, ∃ r : ℝ, A.a1 i = (r : EReal)) (h : Fin 1024 → Fin 256 → EReal) (hh : IsReal2 h) :
    hopK A h = hopR A h := by
  funext n f
  have hd := dinv_real A hA
  choose ar har using hA
  choose dr hdr using hd
  choose hr hhr using hh
  unfold hopK hopR
  simp only [har, hdr, hhr, ← EReal.coe_mul]
  rw [← coe_finset_sum, ← coe_finset_sum, ← EReal.coe_mul]
  congr 1
  rw [Finset.mul_sum]
  exact Finset.sum_congr rfl (fun i _ => by ring)

/-- The encoder's output has finite real entries when the features and the encoder's parameters do. -/
theorem enc_real (hf : A.Finite) : IsReal2 (enc A) :=
  dense_real _ _ _ (dense_real _ _ _ (fun _ _ => hf.h0 _) hf.h3 hf.h4) hf.h5 hf.h6

/-- **The two models agree on finite real arguments.** -/
theorem spec_eq (hf : A.Finite) : specK A = specR A := by
  have hx := enc_real A hf
  have e1 : hopK A (enc A) = hopR A (enc A) := hop_eq A hf.h1 _ hx
  have hr1 : IsReal2 (hopR A (enc A)) := hopR_real A hf.h1 _ hx
  unfold specK specR
  rw [e1, hop_eq A hf.h1 _ hr1]

end Cert.Gcn

end
-- ==== Proof.Consts.lean ====
import Idealize.ShloMosaic.PureOps.Ideal

/-!
# The two float patterns this certificate reads as numbers

`0x7F800000` is `+∞` (the bound in the precondition) and `0xBF000000` is `-1/2` (the exponent of the
reference's `deg ** -0.5`).  Both are unfolded here, once.
-/

noncomputable section

namespace Cert.Gcn.Consts

open Idealize.ShloMosaic

/-- The pattern `0x7F800000` is `+∞`. -/
theorem inf_f32 : Ideal.ofBits .f32 0x7F800000#32 = (⊤ : EReal) := by
  simp [Ideal.ofBits, Ideal.ieee]

/-- The pattern `0xBF000000` is `-1/2`. -/
theorem neg_half_f32 : Ideal.ofBits .f32 0xBF000000#32 = ((-(1/2) : ℝ) : EReal) := by
  simp [Ideal.ofBits, Ideal.ieee, -EReal.coe_mul, -EReal.coe_neg]; norm_num

end Cert.Gcn.Consts

end
-- ==== Proof.Finite.lean ====
import proofs.«106343_g48172353192219_fold_wed_c4_272_4_alg».proof.Pre_finite_inputs
import proofs.«106343_g48172353192219_fold_wed_c4_272_4_alg».proof.Proof.Spec
import proofs.«106343_g48172353192219_fold_wed_c4_272_4_alg».proof.Proof.Consts
import Idealize.ShloMosaic.Lib.ReduceAll
import Idealize.ShloMosaic.Lib.ValueIdx

/-!
# The precondition says every argument entry is a finite real

The precondition is the conjunction, over the seventeen argument arrays, of `all (|x| < +∞)`.  On the
extended reals `|x| = max x (-x)`, and `max x (-x) < ⊤` excludes both infinities, so each entry is the
coercion of a real number.
-/

noncomputable section

namespace Cert.Gcn.Fin

open Idealize.ShloMosaic Idealize.ShloMosaic.ValueIdx

instance : Subsingleton (⟨0, ![]⟩ : Shape).Idx := ⟨fun _ _ => funext fun d => d.elim0⟩

/-- An extended real whose magnitude is below `+∞` is a real number. -/
theorem real_of_abs_lt (x : EReal) (h : Ideal.cmp .olt (max x (-x)) (Ideal.ofBits .f32 0x7F800000#32) = 1#1) :
    ∃ r : ℝ, x = (r : EReal) := by
  rw [Cert.Gcn.Consts.inf_f32] at h
  have hlt : max x (-x) < ⊤ := by
    by_contra hn
    unfold Ideal.cmp at h
    simp [hn] at h
  induction x using EReal.rec with
  | bot => simp at hlt
  | coe r => exact ⟨r, rfl⟩
  | top => simp at hlt

/-- `all (|x| < +∞)` gives a real number at every index. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf (F := Ideal) .olt (Host.absf x)
          (broadcastInDim s ![] hb (constant (F := Ideal) ⟨0, ![]⟩ .f32 0x7F800000#32)))
        (constantI ⟨0, ![]⟩ 1 1#1) hr hu ix0 = 1#1)
    (i : s.Idx) : ∃ r : ℝ, x i = (r : EReal) :=
  real_of_abs_lt (x i) (Host.reduce_andi_all _ _ hr hu ix0 e i)

/-- A conjunction of two one-bit arrays that is 1 at an index has both conjuncts 1 there. -/
theorem both {s : Shape} (a b : IVec s 1) (i : s.Idx) (h : andi a b i = 1#1) : a i = 1#1 ∧ b i = 1#1 :=
  IntOp.andi_eq_one.1 h

open Cert.Pre_finite_inputs in
/-- **The precondition makes every entry of every argument a finite real.** -/
theorem finite_of_pre [Cert.Pre_finite_inputs.Facts]
    (a0 : FVec Ideal S1024x128 .f32) (a1 : FVec Ideal S1024x1024 .f32) (a2 : FVec Ideal S1024 .f32)
    (a3 : FVec Ideal S128x64 .f32) (a4 : FVec Ideal S64 .f32) (a5 : FVec Ideal S64x256 .f32)
    (a6 : FVec Ideal S256 .f32) (a7 : FVec Ideal S256x256 .f32) (a8 : FVec Ideal S256 .f32)
    (a9 : FVec Ideal S256x256 .f32) (a10 : FVec Ideal S256 .f32) (a11 : FVec Ideal S512x128 .f32)
    (a12 : FVec Ideal S128 .f32) (a13 : FVec Ideal S128x128 .f32) (a14 : FVec Ideal S128 .f32)
    (a15 : FVec Ideal S128x1 .f32) (a16 : FVec Ideal S1 .f32)
    (h : Cert.Pre_finite_inputs.fn (F := Ideal) a0 a1 a2 a3 a4 a5 a6 a7 a8 a9 a10 a11 a12 a13 a14 a15 a16
      = fun _ => 1#1) :
    (Cert.Gcn.Args.mk a0 a1 a2 a3 a4 a5 a6 a7 a8 a9 a10 a11 a12 a13 a14 a15 a16).Finite := by
  have h0 := congrFun h ix0
  dsimp only [fn, fn_part1, fn_part2, fn_part3, fn_part4] at h0
  obtain ⟨h0, e16⟩ := both _ _ _ h0
  obtain ⟨h0, e15⟩ := both _ _ _ h0
  obtain ⟨h0, e14⟩ := both _ _ _ h0
  obtain ⟨h0, e13⟩ := both _ _ _ h0
  obtain ⟨h0, e12⟩ := both _ _ _ h0
  obtain ⟨h0, e11⟩ := both _ _ _ h0
  obtain ⟨h0, e10⟩ := both _ _ _ h0
  obtain ⟨h0, e9⟩ := both _ _ _ h0
  obtain ⟨h0, e8⟩ := both _ _ _ h0
  obtain ⟨h0, e7⟩ := both _ _ _ h0
  obtain ⟨h0, e6⟩ := both _ _ _ h0
  obtain ⟨h0, e5⟩ := both _ _ _ h0
  obtain ⟨h0, e4⟩ := both _ _ _ h0
  obtain ⟨h0, e3⟩ := both _ _ _ h0
  obtain ⟨h0, e2⟩ := both _ _ _ h0
  obtain ⟨e0, e1⟩ := both _ _ _ h0
  exact ⟨entries_real a0 _ _ _ e0, entries_real a1 _ _ _ e1, entries_real a2 _ _ _ e2,
    entries_real a3 _ _ _ e3, entries_real a4 _ _ _ e4, entries_real a5 _ _ _ e5,
    entries_real a6 _ _ _ e6, entries_real a7 _ _ _ e7, entries_real a8 _ _ _ e8,
    entries_real a9 _ _ _ e9, entries_real a10 _ _ _ e10, entries_real a11 _ _ _ e11,
    entries_real a12 _ _ _ e12, entries_real a13 _ _ _ e13, entries_real a14 _ _ _ e14,
    entries_real a15 _ _ _ e15, entries_real a16 _ _ _ e16⟩

end Cert.Gcn.Fin

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.KOps.lean ====
import proofs.«106343_g48172353192219_fold_wed_c4_272_4_alg».proof.Proof.LibPlainDot
import proofs.«106343_g48172353192219_fold_wed_c4_272_4_alg».proof.Proof.LibRowLayout
import Idealize.ShloMosaic.Lib.ValueLayout

/-!
# The operations of a propagation hop, read at an index

Three readings that the encoder's plain products do not need.

* A product that contracts axis 0 of BOTH operands: for `a : [K, M]` and `b : [K, N]` the entry `(p, q)` of the
  result is `Σ_k a (k, p) · b (k, q)`, the product of the transpose of `a` with `b`.
* A sum over axis 0 of an `[a, b]` array: entry `j` is the sum of column `j`.
* A row `[1, a]` recast as a column `[a, 1]`: entry `(i, 0)` of the column is entry `(0, i)` of the row.

All three hold on the extended reals as they stand: nothing beyond `0 + x = x` is used.
-/

namespace Cert.KOps

open Idealize.ShloMosaic Idealize.ShloMosaic.ValueIdx Idealize.ShloMosaic.PlainDot

section Transposed

variable {M K N : Nat} (D : DotDims ⟨2, ![K, M]⟩ ⟨2, ![K, N]⟩ ⟨2, ![M, N]⟩)
  (hlc : D.lhsContracting = [0]) (hrc : D.rhsContracting = [0])
  (hln : D.lhsNonContracting = [1]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (k, p). -/
theorem lhsIdx_eq (p : Fin M) (q : Fin N) (k : Fin K) :
    D.lhsIdx (ix2 p q) ((contrEquiv1 D K hr hs).symm k) = ix2 k p := by
  funext a
  apply Fin.ext
  match a with
  | ⟨0, _⟩ => exact (D.lhsIdx_val_of_single hlc (ix2 p q) _).trans (contrEquiv1_symm_val D K hr hs k)
  | ⟨1, _⟩ => exact lhsIdx_val_nonContracting D hlb hln Nat.zero_lt_two (ix2 p q) _

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The accumulating product started from the all-zero block, contracting axis 0 of both operands, at entry (p, q):
    the sum over k of a (k, p) * b (k, q). -/
theorem matmulT_zero_apply {φ₁ φ₂ : FTy} (prec : Option ContractPrecision)
    (a : FVec Ideal ⟨2, ![K, M]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 k p) * b (ix2 k q) := by
  refine (Ideal.matmul_constant_zero_apply D prec a b (ix2 p q)).trans ?_
  rw [← Equiv.sum_comp (contrEquiv1 D K hr hs).symm]
  refine Finset.sum_congr rfl fun k _ => ?_
  rw [lhsIdx_eq D hlc hln hlb hr hs p q k, rhsIdx_eq D hrc hln hrn hlb hrb hr hs p q k]

end Transposed

/-- The index a sum over the first axis of `[a, b]` visits at column `j` and position `k` is `(k, j)`. -/
theorem lift_col {a b : ℕ} (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- A sum over the first axis of an `[a, b]` array of extended reals, read at column `j`: the sum of the column. -/
theorem multiReduction_col {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (lift_col h j k)

/-- A row `[1, a]` recast as a column `[a, 1]` reads, at `(i, u)`, the row at `(0, i)`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- The scalar zero of a payload is the extended real 0. -/
theorem scalar_zero : (Scalar.ofBits .f32 0x00000000#32 : Ideal .f32) = 0 := Ideal.ofBits_zero_f32

end Cert.KOps
-- ==== Proof.KDense.lean ====
import proofs.«106343_g48172353192219_fold_wed_c4_272_4_alg».proof.Proof.KOps
import proofs.«106343_g48172353192219_fold_wed_c4_272_4_alg».proof.Proof.Spec

/-!
# A dense layer of the kernel, read at an index

The kernel writes a dense layer as a product into the all-zero block, plus the bias row `[1, N]` repeated down the
rows, and then the maximum with the zero block. At entry `(p, q)` this is
`max (Σ_k a (p, k) · w (k, q) + b (0, q)) 0`: the specification's `dense`.
-/

noncomputable section

namespace Cert.KDense

open Idealize.ShloMosaic Idealize.ShloMosaic.ValueIdx

/-- Dimension numbers of an ordinary product of an M x K matrix with a K x N matrix. -/
structure IsPlain {M K N : Nat} (D : DotDims ⟨2, ![M, K]⟩ ⟨2, ![K, N]⟩ ⟨2, ![M, N]⟩) : Prop where
  hlc : D.lhsContracting = [1]
  hrc : D.rhsContracting = [0]
  hln : D.lhsNonContracting = [0]
  hrn : D.rhsNonContracting = [1]
  hlb : D.lhsBatch = []
  hrb : D.rhsBatch = []
  hr : D.contr.rank = 1
  hs : D.contr.size ⟨0, by omega⟩ = K

/-- The plain product into the zero block, at entry (p, q). -/
theorem IsPlain.matmul_apply {M K N : Nat} {D : DotDims ⟨2, ![M, K]⟩ ⟨2, ![K, N]⟩ ⟨2, ![M, N]⟩} (h : IsPlain D)
    (a : FVec Ideal ⟨2, ![M, K]⟩ .f32) (w : FVec Ideal ⟨2, ![K, N]⟩ .f32) (p : Fin M) (q : Fin N) :
    matmul D none a w (constant ⟨2, ![M, N]⟩ .f32 0x00000000#32) (ix2 p q) = ∑ k : Fin K, a (ix2 p k) * w (ix2 k q) :=
  PlainDot.matmul_zero_apply D h.hlc h.hrc h.hln h.hrn h.hlb h.hrb h.hr h.hs none a w p q

variable {M K N : Nat} (D : DotDims ⟨2, ![M, K]⟩ ⟨2, ![K, N]⟩ ⟨2, ![M, N]⟩)
  (hsc : (⟨2, ![1, N]⟩ : Shape).ShapeCasts ⟨2, ![1, N]⟩) (hbc : (⟨2, ![1, N]⟩ : Shape).Broadcasts ⟨2, ![M, N]⟩)

/-- A bias row `[1, N]` repeated down the rows, at entry (p, q): the row's entry q. -/
theorem biasRows_apply (b : FVec Ideal ⟨2, ![1, N]⟩ .f32) (p : Fin M) (q : Fin N) :
    broadcastTo ⟨2, ![M, N]⟩ (shapeCast ⟨2, ![1, N]⟩ b hsc) hbc (ix2 p q) = b (ix2 (0 : Fin 1) q) := by
  rw [broadcastTo_1b_ab_apply, shapeCast_self]

/-- The product plus the bias row, as the kernel writes it. -/
def affineV (a : FVec Ideal ⟨2, ![M, K]⟩ .f32) (w : FVec Ideal ⟨2, ![K, N]⟩ .f32) (b : FVec Ideal ⟨2, ![1, N]⟩ .f32) :
    FVec Ideal ⟨2, ![M, N]⟩ .f32 :=
  addf (matmul D none a w (constant ⟨2, ![M, N]⟩ .f32 0x00000000#32))
    (broadcastTo ⟨2, ![M, N]⟩ (shapeCast ⟨2, ![1, N]⟩ b hsc) hbc)

/-- The dense layer as the kernel writes it: the maximum of the product plus bias with the zero block. -/
def denseV (a : FVec Ideal ⟨2, ![M, K]⟩ .f32) (w : FVec Ideal ⟨2, ![K, N]⟩ .f32) (b : FVec Ideal ⟨2, ![1, N]⟩ .f32) :
    FVec Ideal ⟨2, ![M, N]⟩ .f32 :=
  maximumf (affineV D hsc hbc a w b) (broadcast ⟨2, ![M, N]⟩ (Scalar.ofBits .f32 0x00000000#32))

variable {D}

/-- The product plus the bias row at entry (p, q). -/
theorem affineV_apply (h : IsPlain D) (a : FVec Ideal ⟨2, ![M, K]⟩ .f32) (w : FVec Ideal ⟨2, ![K, N]⟩ .f32)
    (b : FVec Ideal ⟨2, ![1, N]⟩ .f32) (p : Fin M) (q : Fin N) :
    affineV D hsc hbc a w b (ix2 p q) = (∑ k : Fin K, a (ix2 p k) * w (ix2 k q)) + b (ix2 (0 : Fin 1) q) := by
  show matmul D none a w (constant ⟨2, ![M, N]⟩ .f32 0x00000000#32) (ix2 p q)
      + broadcastTo ⟨2, ![M, N]⟩ (shapeCast ⟨2, ![1, N]⟩ b hsc) hbc (ix2 p q) = _
  rw [h.matmul_apply, biasRows_apply]

/-- The kernel's dense layer at entry (p, q) is the specification's, when the operand reads `a'` entry by entry and
    the bias row reads the bias vector `B`. -/
theorem denseV_apply (h : IsPlain D) (a : FVec Ideal ⟨2, ![M, K]⟩ .f32) (w : FVec Ideal ⟨2, ![K, N]⟩ .f32)
    (b : FVec Ideal ⟨2, ![1, N]⟩ .f32) (a' : Fin M → Fin K → EReal) (B : FVec Ideal ⟨1, ![N]⟩ .f32)
    (ha : ∀ p k, a (ix2 p k) = a' p k) (hb : ∀ q, b (ix2 (0 : Fin 1) q) = B (ix1 q)) (p : Fin M) (q : Fin N) :
    denseV D hsc hbc a w b (ix2 p q) = Cert.Gcn.dense a' w B p q := by
  show max (affineV D hsc hbc a w b (ix2 p q)) (Scalar.ofBits .f32 0x00000000#32 : Ideal .f32) = _
  rw [affineV_apply hsc hbc h, KOps.scalar_zero, hb]
  unfold Cert.Gcn.dense
  simp only [ha]

end Cert.KDense

end
-- ==== Proof.KEnc.lean ====
import proofs.«106343_g48172353192219_fold_wed_c4_272_4_alg».proof.Proof.Gen.KernelIdeal.Skeleton
import proofs.«106343_g48172353192219_fold_wed_c4_272_4_alg».proof.Proof.KDense

/-!
# The encoder's payload at an index

The first payload of the kernel is two dense layers, one after the other, over the node features. With the bias rows
read as the bias vectors, its entry `(p, q)` is the specification's `enc`.
-/

noncomputable section

namespace Cert.KernelIdeal.KValue

open Cert.KernelIdeal Cert.KernelIdeal.Gen Idealize.ShloMosaic Idealize.ShloMosaic.ValueIdx Cert.KDense

/-- Each of the kernel's products but the hop's is an ordinary matrix product. -/
theorem plain_128_64 : IsPlain dot_S1024x128_S128x64_S1024x64_1_0_0_1_n_n := ⟨rfl, rfl, rfl, rfl, rfl, rfl, rfl, rfl⟩
theorem plain_64_256 : IsPlain dot_S1024x64_S64x256_S1024x256_1_0_0_1_n_n := ⟨rfl, rfl, rfl, rfl, rfl, rfl, rfl, rfl⟩
theorem plain_256_256 : IsPlain dot_S1024x256_S256x256_S1024x256_1_0_0_1_n_n := ⟨rfl, rfl, rfl, rfl, rfl, rfl, rfl, rfl⟩
theorem plain_256_128 : IsPlain dot_S1024x256_S256x128_S1024x128_1_0_0_1_n_n := ⟨rfl, rfl, rfl, rfl, rfl, rfl, rfl, rfl⟩
theorem plain_128_128 : IsPlain dot_S1024x128_S128x128_S1024x128_1_0_0_1_n_n := ⟨rfl, rfl, rfl, rfl, rfl, rfl, rfl, rfl⟩
theorem plain_128_1 : IsPlain dot_S1024x128_S128x1_S1024x1_1_0_0_1_n_n := ⟨rfl, rfl, rfl, rfl, rfl, rfl, rfl, rfl⟩

/-- The encoder's payload is two dense layers. -/
theorem pay2_eq (x0 : Vec Ideal S1024x128 .f32) (x3 : Vec Ideal S128x64 .f32) (x4 : Vec Ideal S1x64 .f32)
    (x5 : Vec Ideal S64x256 .f32) (x6 : Vec Ideal S1x256 .f32) :
    k0_pay2 (F := Ideal) x0 x3 x4 x5 x6
      = denseV dot_S1024x64_S64x256_S1024x256_1_0_0_1_n_n shapeCasts_S1x256_S1x256 broadcasts_S1x256_S1024x256
          (denseV dot_S1024x128_S128x64_S1024x64_1_0_0_1_n_n shapeCasts_S1x64_S1x64 broadcasts_S1x64_S1024x64 x0 x3 x4)
          x5 x6 := rfl

/-- The encoder's payload at `(p, q)` is the specification's encoder output there. -/
theorem enc_apply (A : Cert.Gcn.Args) (x0 : Vec Ideal S1024x128 .f32) (x3 : Vec Ideal S128x64 .f32)
    (x4 : Vec Ideal S1x64 .f32) (x5 : Vec Ideal S64x256 .f32) (x6 : Vec Ideal S1x256 .f32)
    (h0 : x0 = A.a0) (h3 : x3 = A.a3) (h4 : ∀ q : Fin 64, x4 (ix2 (0 : Fin 1) q) = A.a4 (ix1 q))
    (h5 : x5 = A.a5) (h6 : ∀ q : Fin 256, x6 (ix2 (0 : Fin 1) q) = A.a6 (ix1 q)) (p : Fin 1024) (q : Fin 256) :
    k0_pay2 (F := Ideal) x0 x3 x4 x5 x6 (ix2 p q) = Cert.Gcn.enc A p q := by
  subst h0 h3 h5
  rw [pay2_eq]
  unfold Cert.Gcn.enc
  refine denseV_apply _ _ plain_64_256 _ _ _ _ _ (fun p k => ?_) h6 p q
  exact denseV_apply _ _ plain_128_64 _ _ _ _ _ (fun p k => rfl) h4 p k

end Cert.KernelIdeal.KValue

end
-- ==== Proof.KHop.lean ====
import proofs.«106343_g48172353192219_fold_wed_c4_272_4_alg».proof.Proof.KEnc
import proofs.«106343_g48172353192219_fold_wed_c4_272_4_alg».proof.Proof.LibRowLayout
import Idealize.ShloMosaic.Lib.ValueLayout

/-!
# The two propagation hops of the kernel at an index

From the adjacency block the kernel takes the column sums (the degrees), turns each positive degree `g` into
`1/√g` and every other into `0`, and lays the result out as a column `d : [1024, 1]`. One hop sends `h` to
`d ⊙ (Aᵀ (d ⊙ h))`: at `(n, f)` this is `d n · Σ_i A (i, n) · (d i · h (i, f))`, the specification's `hopK`.
The roundings to the narrower float format on the way into the product are the identity on the extended reals.
-/

noncomputable section

namespace Cert.KernelIdeal.KValue

open Cert.KernelIdeal Cert.KernelIdeal.Gen Idealize.ShloMosaic Idealize.ShloMosaic.ValueIdx

/-- The degrees as a row `[1, 1024]`: the column sums of the adjacency block. -/
def degRowV (x1 : Vec Ideal S1024x1024 .f32) : FVec Ideal S1x1024 .f32 :=
  shapeCast S1x1024 (multiReduction .add [0] S1024 x1 0x00000000#32 reduces_S1024x1024_S1024 (.inl rfl) rfl) shapeCasts_S1024_S1x1024

/-- The degree weights as a column `[1024, 1]`. -/
def dcolV (x1 : Vec Ideal S1024x1024 .f32) : FVec Ideal S1024x1 .f32 :=
  shapeCast S1024x1
    (select (cmpf .ogt (degRowV x1) (broadcast S1x1024 (Scalar.ofBits .f32 0x00000000#32)))
      (rsqrt (degRowV x1)) (broadcast S1x1024 (Scalar.ofBits .f32 0x00000000#32)))
    shapeCasts_S1x1024_S1024x1

/-- One hop as the kernel writes it. -/
def hopV (x1 : Vec Ideal S1024x1024 .f32) (h : FVec Ideal S1024x256 .f32) : FVec Ideal S1024x256 .f32 :=
  mulf (broadcastTo S1024x256 (dcolV x1) broadcasts_S1024x1_S1024x256)
    (matmul dot_S1024x1024_S1024x256_S1024x256_0_0_1_1_n_n none (truncf .bf16 x1 bitsLt_bf16_f32)
      (truncf .bf16 (mulf (broadcastTo S1024x256 (dcolV x1) broadcasts_S1024x1_S1024x256) h) bitsLt_bf16_f32)
      (constant S1024x256 .f32 0x00000000#32))

/-- The second payload is two hops over the encoder's output. -/
theorem pay3_eq (x0 : Vec Ideal S1024x128 .f32) (x3 : Vec Ideal S128x64 .f32) (x4 : Vec Ideal S1x64 .f32)
    (x5 : Vec Ideal S64x256 .f32) (x6 : Vec Ideal S1x256 .f32) (x1 : Vec Ideal S1024x1024 .f32) :
    k0_pay3 (F := Ideal) x0 x3 x4 x5 x6 x1 = hopV x1 (hopV x1 (k0_pay2 x0 x3 x4 x5 x6)) := rfl

variable (A : Cert.Gcn.Args) (x1 : Vec Ideal S1024x1024 .f32) (h1 : x1 = A.a1)

include h1 in
/-- The degree row at `(0, n)` is the degree of node `n`. -/
theorem degRow_apply (n : Fin 1024) : degRowV x1 (ix2 (0 : Fin 1) n) = Cert.Gcn.deg A n := by
  subst h1
  unfold degRowV Cert.Gcn.deg
  rw [shapeCast_a_1a_apply]
  exact Cert.KOps.multiReduction_col _ _ _ _ _ n

include h1 in
/-- The degree-weight column at `(n, 0)` is the degree weight of node `n`. -/
theorem dcol_apply (n : Fin 1024) (u : Fin 1) : dcolV x1 (ix2 n u) = Cert.Gcn.dinv A n := by
  unfold dcolV
  rw [Cert.KOps.shapeCast_1a_a1_apply]
  show Scalar.select (FloatOps.cmpf .ogt (degRowV x1 (ix2 (0 : Fin 1) n)) (Scalar.ofBits .f32 0x00000000#32 : Ideal .f32))
      (FloatOps.rsqrt (degRowV x1 (ix2 (0 : Fin 1) n))) (Scalar.ofBits .f32 0x00000000#32 : Ideal .f32) = _
  rw [degRow_apply A x1 h1 n, Cert.KOps.scalar_zero]
  rfl

include h1 in
/-- The column repeated along the rows, at `(n, f)`, is the degree weight of node `n`. -/
theorem dcolRows_apply (n : Fin 1024) (f : Fin 256) :
    broadcastTo S1024x256 (dcolV x1) broadcasts_S1024x1_S1024x256 (ix2 n f) = Cert.Gcn.dinv A n :=
  (Cert.LibRowLayout.broadcastTo_a1_ab_apply _ _ n f).trans (dcol_apply A x1 h1 n 0)

include h1 in
/-- One hop of the kernel at `(n, f)` is the specification's hop with the target's weight outside the sum. -/
theorem hopV_apply (h : FVec Ideal S1024x256 .f32) (H : Fin 1024 → Fin 256 → EReal)
    (hh : ∀ i f, h (ix2 i f) = H i f) (n : Fin 1024) (f : Fin 256) :
    hopV x1 h (ix2 n f) = Cert.Gcn.hopK A H n f := by
  show broadcastTo S1024x256 (dcolV x1) broadcasts_S1024x1_S1024x256 (ix2 n f)
      * matmul dot_S1024x1024_S1024x256_S1024x256_0_0_1_1_n_n none (truncf .bf16 x1 bitsLt_bf16_f32)
          (truncf .bf16 (mulf (broadcastTo S1024x256 (dcolV x1) broadcasts_S1024x1_S1024x256) h) bitsLt_bf16_f32)
          (constant S1024x256 .f32 0x00000000#32) (ix2 n f) = _
  rw [dcolRows_apply A x1 h1 n f]
  unfold Cert.Gcn.hopK
  refine congrArg (Cert.Gcn.dinv A n * ·) ?_
  refine (Cert.KOps.matmulT_zero_apply dot_S1024x1024_S1024x256_S1024x256_0_0_1_1_n_n rfl rfl rfl rfl rfl rfl rfl rfl none _ _ n f).trans ?_
  refine Finset.sum_congr rfl fun i _ => ?_
  show x1 (ix2 i n) * (broadcastTo S1024x256 (dcolV x1) broadcasts_S1024x1_S1024x256 (ix2 i f) * h (ix2 i f)) = _
  rw [dcolRows_apply A x1 h1 i f, hh, h1]

include h1 in
/-- The second payload at `(n, f)`: two hops of the specification over its encoder output. -/
theorem hop2_apply (x0 : Vec Ideal S1024x128 .f32) (x3 : Vec Ideal S128x64 .f32)
    (x4 : Vec Ideal S1x64 .f32) (x5 : Vec Ideal S64x256 .f32) (x6 : Vec Ideal S1x256 .f32)
    (h0 : x0 = A.a0) (h3 : x3 = A.a3) (h4 : ∀ q : Fin 64, x4 (ix2 (0 : Fin 1) q) = A.a4 (ix1 q))
    (h5 : x5 = A.a5) (h6 : ∀ q : Fin 256, x6 (ix2 (0 : Fin 1) q) = A.a6 (ix1 q)) (n : Fin 1024) (f : Fin 256) :
    k0_pay3 (F := Ideal) x0 x3 x4 x5 x6 x1 (ix2 n f)
      = Cert.Gcn.hopK A (Cert.Gcn.hopK A (Cert.Gcn.enc A)) n f := by
  rw [pay3_eq]
  exact hopV_apply A x1 h1 _ _ (fun i g => hopV_apply A x1 h1 _ _
    (fun j e => enc_apply A x0 x3 x4 x5 x6 h0 h3 h4 h5 h6 j e) i g) n f

end Cert.KernelIdeal.KValue

end
-- ==== Proof.KHead.lean ====
import proofs.«106343_g48172353192219_fold_wed_c4_272_4_alg».proof.Proof.KEnc

/-!
# The head of the kernel at an index

After the two hops the kernel applies two dense layers to the propagated features, then a dense layer on the
concatenation of the result with the encoder's output, written as two products (the upper half of the weight matrix
for the graph features, the lower half for the node features) added before the bias; one more dense layer; the
read-out product to one column plus its bias; and the product with the mask column. With the bias rows, the two
halves and the mask column read as the arguments' entries, its entry `(p, 0)` is the specification's `head` at `p`.
-/

noncomputable section

namespace Cert.KernelIdeal.KValue

open Cert.KernelIdeal Cert.KernelIdeal.Gen Idealize.ShloMosaic Idealize.ShloMosaic.ValueIdx Cert.KDense

/-- The layer on the concatenation, as the kernel writes it: two products added, the bias row, the maximum with zero. -/
def splitV (xg x : FVec Ideal S1024x256 .f32) (x11 x12 : FVec Ideal S256x128 .f32) (x13 : FVec Ideal S1x128 .f32) :
    FVec Ideal S1024x128 .f32 :=
  maximumf
    (addf
      (addf
        (matmul dot_S1024x256_S256x128_S1024x128_1_0_0_1_n_n none xg (shapeCast S256x128 x11 shapeCasts_S256x128_S256x128)
          (constant S1024x128 .f32 0x00000000#32))
        (matmul dot_S1024x256_S256x128_S1024x128_1_0_0_1_n_n none x (shapeCast S256x128 x12 shapeCasts_S256x128_S256x128)
          (constant S1024x128 .f32 0x00000000#32)))
      (broadcastTo S1024x128 (shapeCast S1x128 x13 shapeCasts_S1x128_S1x128) broadcasts_S1x128_S1024x128))
    (broadcast S1024x128 (Scalar.ofBits .f32 0x00000000#32))

/-- Everything after the two hops, as the kernel writes it, from the propagated features `h2` and the encoder's `x`. -/
def headV (h2 x : FVec Ideal S1024x256 .f32) (x7 : FVec Ideal S256x256 .f32) (x8 : FVec Ideal S1x256 .f32)
    (x9 : FVec Ideal S256x256 .f32) (x10 : FVec Ideal S1x256 .f32) (x11 x12 : FVec Ideal S256x128 .f32)
    (x13 : FVec Ideal S1x128 .f32) (x14 : FVec Ideal S128x128 .f32) (x15 : FVec Ideal S1x128 .f32)
    (x16 : FVec Ideal S128x1 .f32) (x17 : FVec Ideal S1x1 .f32) (x2 : FVec Ideal S1024x1 .f32) : FVec Ideal S1024x1 .f32 :=
  mulf
    (affineV dot_S1024x128_S128x1_S1024x1_1_0_0_1_n_n shapeCasts_S1x1_S1x1 broadcasts_S1x1_S1024x1
      (denseV dot_S1024x128_S128x128_S1024x128_1_0_0_1_n_n shapeCasts_S1x128_S1x128 broadcasts_S1x128_S1024x128
        (splitV
          (denseV dot_S1024x256_S256x256_S1024x256_1_0_0_1_n_n shapeCasts_S1x256_S1x256 broadcasts_S1x256_S1024x256
            (denseV dot_S1024x256_S256x256_S1024x256_1_0_0_1_n_n shapeCasts_S1x256_S1x256 broadcasts_S1x256_S1024x256 h2 x7 x8)
            x9 x10)
          x x11 x12 x13)
        x14 x15)
      x16 x17)
    (shapeCast S1024x1 x2 shapeCasts_S1024x1_S1024x1)

/-- The last three payloads together are the head. -/
theorem pay1_eq (v16 v38 : FVec Ideal S1024x256 .f32) (x7 : FVec Ideal S256x256 .f32) (x8 : FVec Ideal S1x256 .f32)
    (x9 : FVec Ideal S256x256 .f32) (x10 : FVec Ideal S1x256 .f32) (x11 x12 : FVec Ideal S256x128 .f32)
    (x13 : FVec Ideal S1x128 .f32) (x14 : FVec Ideal S128x128 .f32) (x15 : FVec Ideal S1x128 .f32)
    (x16 : FVec Ideal S128x1 .f32) (x17 : FVec Ideal S1x1 .f32) (x2 : FVec Ideal S1024x1 .f32) :
    k0_pay1 (F := Ideal) (k0_pay4 v16 v38 x7 x8 x9 x10 x11 x12 x13 x14) (k0_pay5 x15) x16 x17 x2
      = headV v38 v16 x7 x8 x9 x10 x11 x12 x13 x14 x15 x16 x17 x2 := rfl

variable (A : Cert.Gcn.Args)

/-- The layer on the concatenation at `(p, q)`: the sum over the upper half against the graph features plus the sum
    over the lower half against the node features, plus the bias, and the maximum with zero. -/
theorem splitV_apply (xg x : FVec Ideal S1024x256 .f32) (x11 x12 : FVec Ideal S256x128 .f32) (x13 : FVec Ideal S1x128 .f32)
    (XG X : Fin 1024 → Fin 256 → EReal) (hxg : ∀ p k, xg (ix2 p k) = XG p k) (hx : ∀ p k, x (ix2 p k) = X p k)
    (h11 : ∀ (k : Fin 256) (q : Fin 128), x11 (ix2 k q) = A.a11 (ix2 (Cert.Gcn.lo k) q))
    (h12 : ∀ (k : Fin 256) (q : Fin 128), x12 (ix2 k q) = A.a11 (ix2 (Cert.Gcn.hi k) q))
    (h13 : ∀ q : Fin 128, x13 (ix2 (0 : Fin 1) q) = A.a12 (ix1 q)) (p : Fin 1024) (q : Fin 128) :
    splitV xg x x11 x12 x13 (ix2 p q)
      = max (((∑ k : Fin 256, XG p k * A.a11 (ix2 (Cert.Gcn.lo k) q)) + (∑ k : Fin 256, X p k * A.a11 (ix2 (Cert.Gcn.hi k) q)))
          + A.a12 (ix1 q)) 0 := by
  show max ((matmul dot_S1024x256_S256x128_S1024x128_1_0_0_1_n_n none xg (shapeCast S256x128 x11 shapeCasts_S256x128_S256x128)
            (constant S1024x128 .f32 0x00000000#32) (ix2 p q)
          + matmul dot_S1024x256_S256x128_S1024x128_1_0_0_1_n_n none x (shapeCast S256x128 x12 shapeCasts_S256x128_S256x128)
            (constant S1024x128 .f32 0x00000000#32) (ix2 p q))
        + broadcastTo S1024x128 (shapeCast S1x128 x13 shapeCasts_S1x128_S1x128) broadcasts_S1x128_S1024x128 (ix2 p q))
      (Scalar.ofBits .f32 0x00000000#32 : Ideal .f32) = _
  rw [plain_256_128.matmul_apply, plain_256_128.matmul_apply, biasRows_apply, Cert.KOps.scalar_zero, h13]
  simp only [shapeCast_self, hxg, hx, h11, h12]

/-- The kernel's head at `(p, 0)` is the specification's head at `p`. -/
theorem head_apply (h2 x : FVec Ideal S1024x256 .f32) (x7 : FVec Ideal S256x256 .f32) (x8 : FVec Ideal S1x256 .f32)
    (x9 : FVec Ideal S256x256 .f32) (x10 : FVec Ideal S1x256 .f32) (x11 x12 : FVec Ideal S256x128 .f32)
    (x13 : FVec Ideal S1x128 .f32) (x14 : FVec Ideal S128x128 .f32) (x15 : FVec Ideal S1x128 .f32)
    (x16 : FVec Ideal S128x1 .f32) (x17 : FVec Ideal S1x1 .f32) (x2 : FVec Ideal S1024x1 .f32)
    (H2 X : Fin 1024 → Fin 256 → EReal) (hh2 : ∀ p k, h2 (ix2 p k) = H2 p k) (hx : ∀ p k, x (ix2 p k) = X p k)
    (h7 : x7 = A.a7) (h8 : ∀ q : Fin 256, x8 (ix2 (0 : Fin 1) q) = A.a8 (ix1 q))
    (h9 : x9 = A.a9) (h10 : ∀ q : Fin 256, x10 (ix2 (0 : Fin 1) q) = A.a10 (ix1 q))
    (h11 : ∀ (k : Fin 256) (q : Fin 128), x11 (ix2 k q) = A.a11 (ix2 (Cert.Gcn.lo k) q))
    (h12 : ∀ (k : Fin 256) (q : Fin 128), x12 (ix2 k q) = A.a11 (ix2 (Cert.Gcn.hi k) q))
    (h13 : ∀ q : Fin 128, x13 (ix2 (0 : Fin 1) q) = A.a12 (ix1 q))
    (h14 : x14 = A.a13) (h15 : ∀ q : Fin 128, x15 (ix2 (0 : Fin 1) q) = A.a14 (ix1 q))
    (h16 : x16 = A.a15) (h17 : x17 (ix2 (0 : Fin 1) (0 : Fin 1)) = A.a16 (ix1 (0 : Fin 1)))
    (hm : ∀ p : Fin 1024, x2 (ix2 p (0 : Fin 1)) = A.a2 (ix1 p)) (p : Fin 1024) (u : Fin 1) :
    headV h2 x x7 x8 x9 x10 x11 x12 x13 x14 x15 x16 x17 x2 (ix2 p u) = Cert.Gcn.head A H2 X p := by
  have hu : u = 0 := Subsingleton.elim _ _
  subst hu h7 h9 h14 h16
  show affineV dot_S1024x128_S128x1_S1024x1_1_0_0_1_n_n shapeCasts_S1x1_S1x1 broadcasts_S1x1_S1024x1 _ A.a15 x17 (ix2 p (0 : Fin 1))
      * shapeCast S1024x1 x2 shapeCasts_S1024x1_S1024x1 (ix2 p (0 : Fin 1)) = _
  rw [affineV_apply _ _ plain_128_1, shapeCast_self, h17, hm p]
  unfold Cert.Gcn.head
  refine congrArg (· * A.a2 (ix1 p)) (congrArg (· + A.a16 (ix1 (0 : Fin 1))) (Finset.sum_congr rfl fun k _ =>
    congrArg (· * A.a15 (ix2 k (0 : Fin 1))) ?_))
  exact denseV_apply _ _ plain_128_128 _ _ _ _ _
    (fun p q => splitV_apply A _ _ _ _ _ _ X
      (fun p k => denseV_apply _ _ plain_256_256 _ _ _ _ _
        (fun p k => denseV_apply _ _ plain_256_256 _ _ _ _ _ hh2 h8 p k) h10 p k)
      hx h11 h12 h13 p q) h15 p k

end Cert.KernelIdeal.KValue

end
-- ==== Proof.KPayload.lean ====
import proofs.«106343_g48172353192219_fold_wed_c4_272_4_alg».proof.Proof.KHop
import proofs.«106343_g48172353192219_fold_wed_c4_272_4_alg».proof.Proof.KHead

/-!
# The kernel's whole payload is the specification

The value the kernel stores is the head applied to the two-hop propagation of the encoder's output and to the
encoder's output itself. When the eighteen blocks it loads read the seventeen argument arrays (the bias vectors as
rows, the mask as a column, the two halves of the concatenation's weight matrix as two blocks), the stored column is
the specification `specK` laid out as a column.
-/

noncomputable section

namespace Cert.KernelIdeal.KValue

open Cert.KernelIdeal Cert.KernelIdeal.Gen Idealize.ShloMosaic Idealize.ShloMosaic.ValueIdx

/-- The stored column, as a function of the loaded blocks, is `specK` of the arguments the blocks read. -/
theorem payload_eq (A : Cert.Gcn.Args)
    (x0 : Vec Ideal S1024x128 .f32) (x1 : Vec Ideal S1024x1024 .f32) (x2 : Vec Ideal S1024x1 .f32)
    (x3 : Vec Ideal S128x64 .f32) (x4 : Vec Ideal S1x64 .f32) (x5 : Vec Ideal S64x256 .f32) (x6 : Vec Ideal S1x256 .f32)
    (x7 : Vec Ideal S256x256 .f32) (x8 : Vec Ideal S1x256 .f32) (x9 : Vec Ideal S256x256 .f32) (x10 : Vec Ideal S1x256 .f32)
    (x11 : Vec Ideal S256x128 .f32) (x12 : Vec Ideal S256x128 .f32) (x13 : Vec Ideal S1x128 .f32)
    (x14 : Vec Ideal S128x128 .f32) (x15 : Vec Ideal S1x128 .f32) (x16 : Vec Ideal S128x1 .f32) (x17 : Vec Ideal S1x1 .f32)
    (h0 : x0 = A.a0) (h1 : x1 = A.a1) (h2 : ∀ p : Fin 1024, x2 (ix2 p (0 : Fin 1)) = A.a2 (ix1 p))
    (h3 : x3 = A.a3) (h4 : ∀ q : Fin 64, x4 (ix2 (0 : Fin 1) q) = A.a4 (ix1 q))
    (h5 : x5 = A.a5) (h6 : ∀ q : Fin 256, x6 (ix2 (0 : Fin 1) q) = A.a6 (ix1 q))
    (h7 : x7 = A.a7) (h8 : ∀ q : Fin 256, x8 (ix2 (0 : Fin 1) q) = A.a8 (ix1 q))
    (h9 : x9 = A.a9) (h10 : ∀ q : Fin 256, x10 (ix2 (0 : Fin 1) q) = A.a10 (ix1 q))
    (h11 : ∀ (k : Fin 256) (q : Fin 128), x11 (ix2 k q) = A.a11 (ix2 (Cert.Gcn.lo k) q))
    (h12 : ∀ (k : Fin 256) (q : Fin 128), x12 (ix2 k q) = A.a11 (ix2 (Cert.Gcn.hi k) q))
    (h13 : ∀ q : Fin 128, x13 (ix2 (0 : Fin 1) q) = A.a12 (ix1 q))
    (h14 : x14 = A.a13) (h15 : ∀ q : Fin 128, x15 (ix2 (0 : Fin 1) q) = A.a14 (ix1 q))
    (h16 : x16 = A.a15) (h17 : x17 (ix2 (0 : Fin 1) (0 : Fin 1)) = A.a16 (ix1 (0 : Fin 1))) :
    k0_pay1 (F := Ideal)
        (k0_pay4 (k0_pay2 x0 x3 x4 x5 x6) (k0_pay3 x0 x3 x4 x5 x6 x1) x7 x8 x9 x10 x11 x12 x13 x14)
        (k0_pay5 x15) x16 x17 x2
      = Cert.Gcn.asColumn (Cert.Gcn.specK A) := by
  funext j
  obtain ⟨p, u, rfl⟩ : ∃ (p : Fin 1024) (u : Fin 1), j = ix2 p u := ⟨j 0, j 1, eq_ix2 j⟩
  rw [pay1_eq]
  show _ = Cert.Gcn.head A (Cert.Gcn.hopK A (Cert.Gcn.hopK A (Cert.Gcn.enc A))) (Cert.Gcn.enc A) p
  exact head_apply A _ _ x7 x8 x9 x10 x11 x12 x13 x14 x15 x16 x17 x2 _ _
    (fun n f => hop2_apply A x1 h1 x0 x3 x4 x5 x6 h0 h3 h4 h5 h6 n f)
    (fun n k => enc_apply A x0 x3 x4 x5 x6 h0 h3 h4 h5 h6 n k)
    h7 h8 h9 h10 h11 h12 h13 h14 h15 h16 h17 h2 p u

end Cert.KernelIdeal.KValue

end
-- ==== Proof.KBlocksIn.lean ====
import proofs.«106343_g48172353192219_fold_wed_c4_272_4_alg».proof.Proof.Gen.KernelIdeal.Value
import Idealize.ShloMosaic.Lib.Pipeline.Value
import Idealize.ShloMosaic.Lib.Tactic

/-!
# The kernel's input blocks are the whole arrays

The kernel is launched on one grid point and every window's block is its whole array at block index zero, so the
block the body loads from a window is the array itself, as the region finds it.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value

variable {F : FTy → Type} [FloatOps F]
variable (m : (ℓ : Loc nD τ sig) → Buf (Elt F) ℓ) (ρ : Dev nD → PrngReg)

/-- Window 0's one block is its whole array `arg0` as the kernel finds it. -/
theorem iblk0 (c : Dev nD) (t : Fin cfg0.N) : (iblk m c 0 t : Vec F S1024x128 .f32) = V m c main_arg0 := by
  have hz' : (fun a => win0_0.index t a * main_arg0.ty.shape.size a) = fun _ => 0 := funext fun a => Nat.zero_mul _
  unfold iblk
  exact Memref.read_access_unit_zero (Elt F) main_arg0 hz' (fun a => by rw [congrFun hz' a]; simp) (V m c main_arg0)

/-- Window 1's one block is its whole array `arg1` as the kernel finds it. -/
theorem iblk1 (c : Dev nD) (t : Fin cfg0.N) : (iblk m c 1 t : Vec F S1024x1024 .f32) = V m c main_arg1 := by
  have hz' : (fun a => win0_1.index t a * main_arg1.ty.shape.size a) = fun _ => 0 := funext fun a => Nat.zero_mul _
  unfold iblk
  exact Memref.read_access_unit_zero (Elt F) main_arg1 hz' (fun a => by rw [congrFun hz' a]; simp) (V m c main_arg1)

/-- Window 2's one block is its whole array `v0` as the kernel finds it. -/
theorem iblk2 (c : Dev nD) (t : Fin cfg0.N) : (iblk m c 2 t : Vec F S1024x1 .f32) = V m c main_v0 := by
  have hz' : (fun a => win0_2.index t a * main_v0.ty.shape.size a) = fun _ => 0 := funext fun a => Nat.zero_mul _
  unfold iblk
  exact Memref.read_access_unit_zero (Elt F) main_v0 hz' (fun a => by rw [congrFun hz' a]; simp) (V m c main_v0)

/-- Window 3's one block is its whole array `arg3` as the kernel finds it. -/
theorem iblk3 (c : Dev nD) (t : Fin cfg0.N) : (iblk m c 3 t : Vec F S128x64 .f32) = V m c main_arg3 := by
  have hz' : (fun a => win0_3.index t a * main_arg3.ty.shape.size a) = fun _ => 0 := funext fun a => Nat.zero_mul _
  unfold iblk
  exact Memref.read_access_unit_zero (Elt F) main_arg3 hz' (fun a => by rw [congrFun hz' a]; simp) (V m c main_arg3)

/-- Window 4's one block is its whole array `v1` as the kernel finds it. -/
theorem iblk4 (c : Dev nD) (t : Fin cfg0.N) : (iblk m c 4 t : Vec F S1x64 .f32) = V m c main_v1 := by
  have hz' : (fun a => win0_4.index t a * main_v1.ty.shape.size a) = fun _ => 0 := funext fun a => Nat.zero_mul _
  unfold iblk
  exact Memref.read_access_unit_zero (Elt F) main_v1 hz' (fun a => by rw [congrFun hz' a]; simp) (V m c main_v1)

/-- Window 5's one block is its whole array `arg5` as the kernel finds it. -/
theorem iblk5 (c : Dev nD) (t : Fin cfg0.N) : (iblk m c 5 t : Vec F S64x256 .f32) = V m c main_arg5 := by
  have hz' : (fun a => win0_5.index t a * main_arg5.ty.shape.size a) = fun _ => 0 := funext fun a => Nat.zero_mul _
  unfold iblk
  exact Memref.read_access_unit_zero (Elt F) main_arg5 hz' (fun a => by rw [congrFun hz' a]; simp) (V m c main_arg5)

/-- Window 6's one block is its whole array `v2` as the kernel finds it. -/
theorem iblk6 (c : Dev nD) (t : Fin cfg0.N) : (iblk m c 6 t : Vec F S1x256 .f32) = V m c main_v2 := by
  have hz' : (fun a => win0_6.index t a * main_v2.ty.shape.size a) = fun _ => 0 := funext fun a => Nat.zero_mul _
  unfold iblk
  exact Memref.read_access_unit_zero (Elt F) main_v2 hz' (fun a => by rw [congrFun hz' a]; simp) (V m c main_v2)

/-- Window 7's one block is its whole array `arg7` as the kernel finds it. -/
theorem iblk7 (c : Dev nD) (t : Fin cfg0.N) : (iblk m c 7 t : Vec F S256x256 .f32) = V m c main_arg7 := by
  have hz' : (fun a => win0_7.index t a * main_arg7.ty.shape.size a) = fun _ => 0 := funext fun a => Nat.zero_mul _
  unfold iblk
  exact Memref.read_access_unit_zero (Elt F) main_arg7 hz' (fun a => by rw [congrFun hz' a]; simp) (V m c main_arg7)

/-- Window 8's one block is its whole array `v3` as the kernel finds it. -/
theorem iblk8 (c : Dev nD) (t : Fin cfg0.N) : (iblk m c 8 t : Vec F S1x256 .f32) = V m c main_v3 := by
  have hz' : (fun a => win0_8.index t a * main_v3.ty.shape.size a) = fun _ => 0 := funext fun a => Nat.zero_mul _
  unfold iblk
  exact Memref.read_access_unit_zero (Elt F) main_v3 hz' (fun a => by rw [congrFun hz' a]; simp) (V m c main_v3)

/-- Window 9's one block is its whole array `arg9` as the kernel finds it. -/
theorem iblk9 (c : Dev nD) (t : Fin cfg0.N) : (iblk m c 9 t : Vec F S256x256 .f32) = V m c main_arg9 := by
  have hz' : (fun a => win0_9.index t a * main_arg9.ty.shape.size a) = fun _ => 0 := funext fun a => Nat.zero_mul _
  unfold iblk
  exact Memref.read_access_unit_zero (Elt F) main_arg9 hz' (fun a => by rw [congrFun hz' a]; simp) (V m c main_arg9)

/-- Window 10's one block is its whole array `v4` as the kernel finds it. -/
theorem iblk10 (c : Dev nD) (t : Fin cfg0.N) : (iblk m c 10 t : Vec F S1x256 .f32) = V m c main_v4 := by
  have hz' : (fun a => win0_10.index t a * main_v4.ty.shape.size a) = fun _ => 0 := funext fun a => Nat.zero_mul _
  unfold iblk
  exact Memref.read_access_unit_zero (Elt F) main_v4 hz' (fun a => by rw [congrFun hz' a]; simp) (V m c main_v4)

/-- Window 11's one block is its whole array `v5` as the kernel finds it. -/
theorem iblk11 (c : Dev nD) (t : Fin cfg0.N) : (iblk m c 11 t : Vec F S256x128 .f32) = V m c main_v5 := by
  have hz' : (fun a => win0_11.index t a * main_v5.ty.shape.size a) = fun _ => 0 := funext fun a => Nat.zero_mul _
  unfold iblk
  exact Memref.read_access_unit_zero (Elt F) main_v5 hz' (fun a => by rw [congrFun hz' a]; simp) (V m c main_v5)

/-- Window 12's one block is its whole array `v6` as the kernel finds it. -/
theorem iblk12 (c : Dev nD) (t : Fin cfg0.N) : (iblk m c 12 t : Vec F S256x128 .f32) = V m c main_v6 := by
  have hz' : (fun a => win0_12.index t a * main_v6.ty.shape.size a) = fun _ => 0 := funext fun a => Nat.zero_mul _
  unfold iblk
  exact Memref.read_access_unit_zero (Elt F) main_v6 hz' (fun a => by rw [congrFun hz' a]; simp) (V m c main_v6)

/-- Window 13's one block is its whole array `v7` as the kernel finds it. -/
theorem iblk13 (c : Dev nD) (t : Fin cfg0.N) : (iblk m c 13 t : Vec F S1x128 .f32) = V m c main_v7 := by
  have hz' : (fun a => win0_13.index t a * main_v7.ty.shape.size a) = fun _ => 0 := funext fun a => Nat.zero_mul _
  unfold iblk
  exact Memref.read_access_unit_zero (Elt F) main_v7 hz' (fun a => by rw [congrFun hz' a]; simp) (V m c main_v7)

/-- Window 14's one block is its whole array `arg13` as the kernel finds it. -/
theorem iblk14 (c : Dev nD) (t : Fin cfg0.N) : (iblk m c 14 t : Vec F S128x128 .f32) = V m c main_arg13 := by
  have hz' : (fun a => win0_14.index t a * main_arg13.ty.shape.size a) = fun _ => 0 := funext fun a => Nat.zero_mul _
  unfold iblk
  exact Memref.read_access_unit_zero (Elt F) main_arg13 hz' (fun a => by rw [congrFun hz' a]; simp) (V m c main_arg13)

/-- Window 15's one block is its whole array `v8` as the kernel finds it. -/
theorem iblk15 (c : Dev nD) (t : Fin cfg0.N) : (iblk m c 15 t : Vec F S1x128 .f32) = V m c main_v8 := by
  have hz' : (fun a => win0_15.index t a * main_v8.ty.shape.size a) = fun _ => 0 := funext fun a => Nat.zero_mul _
  unfold iblk
  exact Memref.read_access_unit_zero (Elt F) main_v8 hz' (fun a => by rw [congrFun hz' a]; simp) (V m c main_v8)

/-- Window 16's one block is its whole array `arg15` as the kernel finds it. -/
theorem iblk16 (c : Dev nD) (t : Fin cfg0.N) : (iblk m c 16 t : Vec F S128x1 .f32) = V m c main_arg15 := by
  have hz' : (fun a => win0_16.index t a * main_arg15.ty.shape.size a) = fun _ => 0 := funext fun a => Nat.zero_mul _
  unfold iblk
  exact Memref.read_access_unit_zero (Elt F) main_arg15 hz' (fun a => by rw [congrFun hz' a]; simp) (V m c main_arg15)

/-- Window 17's one block is its whole array `v9` as the kernel finds it. -/
theorem iblk17 (c : Dev nD) (t : Fin cfg0.N) : (iblk m c 17 t : Vec F S1x1 .f32) = V m c main_v9 := by
  have hz' : (fun a => win0_17.index t a * main_v9.ty.shape.size a) = fun _ => 0 := funext fun a => Nat.zero_mul _
  unfold iblk
  exact Memref.read_access_unit_zero (Elt F) main_v9 hz' (fun a => by rw [congrFun hz' a]; simp) (V m c main_v9)

end Cert.KernelIdeal.KValue

end
-- ==== Proof.LibColumnCast.lean ====
import Idealize.ShloMosaic.Lib.Pipeline.Value
import Idealize.ShloMosaic.Lib.ValueIdx

/-!
# A vector recast as a column, and back, read at an index

Recasting a vector `[N]` as a column `[N, 1]` (or a column as a vector) keeps the row-major order,
so entry `(n, 0)` of the column is entry `n` of the vector.
-/

noncomputable section

namespace LibColumnCast

open Idealize.ShloMosaic Idealize.ShloMosaic.ValueIdx

variable {α : Type}

/-- A vector `[N]` recast as a column `[N, 1]`, read at `(n, z)`, is the vector at `n`. -/
theorem shapeCast_col_apply {N : Nat} (h : (⟨1, ![N]⟩ : Shape).ShapeCasts ⟨2, ![N, 1]⟩)
    (x : (⟨1, ![N]⟩ : Shape).Idx → α) (n : Fin N) (z : Fin 1) :
    shapeCast ⟨2, ![N, 1]⟩ x h (ix2 n z) = x (ix1 n) := by
  refine shapeCast_apply x h (ix2 n z) (ix1 n) ?_
  rw [Shape.rowMajor_val_one, Shape.rowMajor_val_two]
  show n.val = n.val * 1 + z.val
  have := z.isLt
  omega

/-- A column `[N, 1]` recast as a vector `[N]`, read at `n`, is the column at `(n, 0)`. -/
theorem shapeCast_flat_apply {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h (ix1 n) (ix2 n (0 : Fin 1)) ?_
  rw [Shape.rowMajor_val_one, Shape.rowMajor_val_two]
  show n.val * 1 + 0 = n.val
  omega

end LibColumnCast

end
-- ==== Proof.KBlocksArgs.lean ====
import proofs.«106343_g48172353192219_fold_wed_c4_272_4_alg».proof.Proof.Gen.KernelIdeal.Value
import Idealize.ShloMosaic.Lib.Pipeline.Value
import Idealize.ShloMosaic.Lib.Tactic
import Idealize.ShloMosaic.Lib.StableHlo.Run
import Idealize.ShloMosaic.Lib.ValueIdx
import Idealize.ShloMosaic.Lib.ValueLayout
import proofs.«106343_g48172353192219_fold_wed_c4_272_4_alg».proof.Proof.Spec
import proofs.«106343_g48172353192219_fold_wed_c4_272_4_alg».proof.Proof.LibColumnCast

/-!
# The arrays the host prepares for the kernel, read at an index

Before the launch the host recasts the mask as a column and each bias as one row, and cuts the `[512, 128]` weight
into its upper and lower 256 rows.  Each prepared array, read at an index, is the launch memory's argument at the
corresponding index.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value

variable {F : FTy → Type} [FloatOps F]
variable (m : (ℓ : Loc nD τ sig) → Buf (Elt F) ℓ) (ρ : Dev nD → PrngReg)

open Idealize.ShloMosaic.ValueIdx

/-- A vector `[N]` recast as one row `[1, N]`, read at `(z, n)`, is the vector at `n`. -/
theorem shapeCast_row_apply {α : Type} {N : Nat} (h : (⟨1, ![N]⟩ : Shape).ShapeCasts ⟨2, ![1, N]⟩)
    (x : (⟨1, ![N]⟩ : Shape).Idx → α) (z : Fin 1) (n : Fin N) :
    shapeCast ⟨2, ![1, N]⟩ x h (ix2 z n) = x (ix1 n) := by
  refine shapeCast_apply x h (ix2 z n) (ix1 n) ?_
  rw [Shape.rowMajor_val_one, Shape.rowMajor_val_two]
  show n.val = z.val * N + n.val
  have hz : z.val = 0 := by have := z.isLt; omega
  rw [hz, Nat.zero_mul, Nat.zero_add]

/-- The array window's `v0` is the mask `arg2` recast as a column. -/
theorem V_main_v0_eq (c : Dev nD) :
    (V m c main_v0 : Vec F S1024x1 .f32) = shapeCast S1024x1 (m ((c : Thread nD τ).loc main_arg2) : Vec F S1024 .f32) Gen.shapeCasts_S1024_S1024x1 := by
  dsimp only [Gen.V, Gen.hostOps0]; after_results <;> rfl

/-- Entry `(p, 0)` of `v0` is entry `p` of the mask. -/
theorem V_main_v0_apply (c : Dev nD) (p : Fin 1024) :
    (V m c main_v0 : Vec F S1024x1 .f32) (ix2 p (0 : Fin 1)) = (m ((c : Thread nD τ).loc main_arg2) : Vec F S1024 .f32) (ix1 p) := by
  rw [V_main_v0_eq]
  exact LibColumnCast.shapeCast_col_apply Gen.shapeCasts_S1024_S1024x1 _ p 0

/-- The array window's `v1` is `arg4` recast as one row. -/
theorem V_main_v1_eq (c : Dev nD) :
    (V m c main_v1 : Vec F S1x64 .f32) = shapeCast S1x64 (m ((c : Thread nD τ).loc main_arg4) : Vec F S64 .f32) Gen.shapeCasts_S64_S1x64 := by
  dsimp only [Gen.V, Gen.hostOps0]; after_results <;> rfl

/-- Entry `(0, q)` of `v1` is entry `q` of `arg4`. -/
theorem V_main_v1_apply (c : Dev nD) (q : Fin 64) :
    (V m c main_v1 : Vec F S1x64 .f32) (ix2 (0 : Fin 1) q) = (m ((c : Thread nD τ).loc main_arg4) : Vec F S64 .f32) (ix1 q) := by
  rw [V_main_v1_eq]
  exact shapeCast_row_apply Gen.shapeCasts_S64_S1x64 _ 0 q

/-- The array window's `v2` is `arg6` recast as one row. -/
theorem V_main_v2_eq (c : Dev nD) :
    (V m c main_v2 : Vec F S1x256 .f32) = shapeCast S1x256 (m ((c : Thread nD τ).loc main_arg6) : Vec F S256 .f32) Gen.shapeCasts_S256_S1x256 := by
  dsimp only [Gen.V, Gen.hostOps0]; after_results <;> rfl

/-- Entry `(0, q)` of `v2` is entry `q` of `arg6`. -/
theorem V_main_v2_apply (c : Dev nD) (q : Fin 256) :
    (V m c main_v2 : Vec F S1x256 .f32) (ix2 (0 : Fin 1) q) = (m ((c : Thread nD τ).loc main_arg6) : Vec F S256 .f32) (ix1 q) := by
  rw [V_main_v2_eq]
  exact shapeCast_row_apply Gen.shapeCasts_S256_S1x256 _ 0 q

/-- The array window's `v3` is `arg8` recast as one row. -/
theorem V_main_v3_eq (c : Dev nD) :
    (V m c main_v3 : Vec F S1x256 .f32) = shapeCast S1x256 (m ((c : Thread nD τ).loc main_arg8) : Vec F S256 .f32) Gen.shapeCasts_S256_S1x256 := by
  dsimp only [Gen.V, Gen.hostOps0]; after_results <;> rfl

/-- Entry `(0, q)` of `v3` is entry `q` of `arg8`. -/
theorem V_main_v3_apply (c : Dev nD) (q : Fin 256) :
    (V m c main_v3 : Vec F S1x256 .f32) (ix2 (0 : Fin 1) q) = (m ((c : Thread nD τ).loc main_arg8) : Vec F S256 .f32) (ix1 q) := by
  rw [V_main_v3_eq]
  exact shapeCast_row_apply Gen.shapeCasts_S256_S1x256 _ 0 q

/-- The array window's `v4` is `arg10` recast as one row. -/
theorem V_main_v4_eq (c : Dev nD) :
    (V m c main_v4 : Vec F S1x256 .f32) = shapeCast S1x256 (m ((c : Thread nD τ).loc main_arg10) : Vec F S256 .f32) Gen.shapeCasts_S256_S1x256 := by
  dsimp only [Gen.V, Gen.hostOps0]; after_results <;> rfl

/-- Entry `(0, q)` of `v4` is entry `q` of `arg10`. -/
theorem V_main_v4_apply (c : Dev nD) (q : Fin 256) :
    (V m c main_v4 : Vec F S1x256 .f32) (ix2 (0 : Fin 1) q) = (m ((c : Thread nD τ).loc main_arg10) : Vec F S256 .f32) (ix1 q) := by
  rw [V_main_v4_eq]
  exact shapeCast_row_apply Gen.shapeCasts_S256_S1x256 _ 0 q

/-- The array window's `v7` is `arg12` recast as one row. -/
theorem V_main_v7_eq (c : Dev nD) :
    (V m c main_v7 : Vec F S1x128 .f32) = shapeCast S1x128 (m ((c : Thread nD τ).loc main_arg12) : Vec F S128 .f32) Gen.shapeCasts_S128_S1x128 := by
  dsimp only [Gen.V, Gen.hostOps0]; after_results <;> rfl

/-- Entry `(0, q)` of `v7` is entry `q` of `arg12`. -/
theorem V_main_v7_apply (c : Dev nD) (q : Fin 128) :
    (V m c main_v7 : Vec F S1x128 .f32) (ix2 (0 : Fin 1) q) = (m ((c : Thread nD τ).loc main_arg12) : Vec F S128 .f32) (ix1 q) := by
  rw [V_main_v7_eq]
  exact shapeCast_row_apply Gen.shapeCasts_S128_S1x128 _ 0 q

/-- The array window's `v8` is `arg14` recast as one row. -/
theorem V_main_v8_eq (c : Dev nD) :
    (V m c main_v8 : Vec F S1x128 .f32) = shapeCast S1x128 (m ((c : Thread nD τ).loc main_arg14) : Vec F S128 .f32) Gen.shapeCasts_S128_S1x128 := by
  dsimp only [Gen.V, Gen.hostOps0]; after_results <;> rfl

/-- Entry `(0, q)` of `v8` is entry `q` of `arg14`. -/
theorem V_main_v8_apply (c : Dev nD) (q : Fin 128) :
    (V m c main_v8 : Vec F S1x128 .f32) (ix2 (0 : Fin 1) q) = (m ((c : Thread nD τ).loc main_arg14) : Vec F S128 .f32) (ix1 q) := by
  rw [V_main_v8_eq]
  exact shapeCast_row_apply Gen.shapeCasts_S128_S1x128 _ 0 q

/-- The array window's `v9` is `arg16` recast as one row. -/
theorem V_main_v9_eq (c : Dev nD) :
    (V m c main_v9 : Vec F S1x1 .f32) = shapeCast S1x1 (m ((c : Thread nD τ).loc main_arg16) : Vec F S1 .f32) Gen.shapeCasts_S1_S1x1 := by
  dsimp only [Gen.V, Gen.hostOps0]; after_results <;> rfl

/-- Entry `(0, q)` of `v9` is entry `q` of `arg16`. -/
theorem V_main_v9_apply (c : Dev nD) (q : Fin 1) :
    (V m c main_v9 : Vec F S1x1 .f32) (ix2 (0 : Fin 1) q) = (m ((c : Thread nD τ).loc main_arg16) : Vec F S1 .f32) (ix1 q) := by
  rw [V_main_v9_eq]
  exact shapeCast_row_apply Gen.shapeCasts_S1_S1x1 _ 0 q

/-- The array window's `v5` is rows `0 … 255` of `arg11`. -/
theorem V_main_v5_eq (c : Dev nD) :
    (V m c main_v5 : Vec F S256x128 .f32)
      = extractStridedSlice S256x128 ![0, 0] (m ((c : Thread nD τ).loc main_arg11) : Vec F S512x128 .f32) Gen.slices_S512x128_S256x128_0_0 := by
  dsimp only [Gen.V, Gen.hostOps0]; after_results <;> rfl

/-- Entry `(k, q)` of `v5` is entry `(k, q)` of `arg11`'s upper half. -/
theorem V_main_v5_apply (c : Dev nD) (k : Fin 256) (q : Fin 128) :
    (V m c main_v5 : Vec F S256x128 .f32) (ix2 k q) = (m ((c : Thread nD τ).loc main_arg11) : Vec F S512x128 .f32) (ix2 (Cert.Gcn.lo k) q) := by
  rw [V_main_v5_eq]
  exact slice2_axis0_apply 0 _ Gen.slices_S512x128_S256x128_0_0 k q (Cert.Gcn.lo k) (Nat.zero_add _).symm

/-- The array window's `v6` is rows `256 … 511` of `arg11`. -/
theorem V_main_v6_eq (c : Dev nD) :
    (V m c main_v6 : Vec F S256x128 .f32)
      = extractStridedSlice S256x128 ![256, 0] (m ((c : Thread nD τ).loc main_arg11) : Vec F S512x128 .f32) Gen.slices_S512x128_S256x128_256_0 := by
  dsimp only [Gen.V, Gen.hostOps0]; after_results <;> rfl

/-- Entry `(k, q)` of `v6` is entry `(256 + k, q)` of `arg11`. -/
theorem V_main_v6_apply (c : Dev nD) (k : Fin 256) (q : Fin 128) :
    (V m c main_v6 : Vec F S256x128 .f32) (ix2 k q) = (m ((c : Thread nD τ).loc main_arg11) : Vec F S512x128 .f32) (ix2 (Cert.Gcn.hi k) q) := by
  rw [V_main_v6_eq]
  exact slice2_axis0_apply 256 _ Gen.slices_S512x128_S256x128_256_0 k q (Cert.Gcn.hi k) rfl

end Cert.KernelIdeal.KValue

end
-- ==== Proof.KBlocks.lean ====
import proofs.«106343_g48172353192219_fold_wed_c4_272_4_alg».proof.Proof.Gen.KernelIdeal.Value
import proofs.«106343_g48172353192219_fold_wed_c4_272_4_alg».proof.Proof.KBlocksIn
import proofs.«106343_g48172353192219_fold_wed_c4_272_4_alg».proof.Proof.KBlocksArgs
import Idealize.ShloMosaic.Lib.Pipeline.Value
import Idealize.ShloMosaic.Lib.Tactic

/-!
# The kernel's run: its result array is the body's arithmetic of the whole arrays

One grid point, every block a whole array: the body's single store covers the result array, and what it stores is
its arithmetic (`k0_pay1` … `k0_pay5`) applied to the arrays as the region finds them.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store through the whole buffer, of loads through whole buffers: the arithmetic of the blocks. -/
theorem out0_18_eq (x0 : Vec F S1024x128 .f32) (x1 : Vec F S1024x1024 .f32) (x2 : Vec F S1024x1 .f32) (x3 : Vec F S128x64 .f32) (x4 : Vec F S1x64 .f32) (x5 : Vec F S64x256 .f32) (x6 : Vec F S1x256 .f32) (x7 : Vec F S256x256 .f32) (x8 : Vec F S1x256 .f32) (x9 : Vec F S256x256 .f32) (x10 : Vec F S1x256 .f32) (x11 : Vec F S256x128 .f32) (x12 : Vec F S256x128 .f32) (x13 : Vec F S1x128 .f32) (x14 : Vec F S128x128 .f32) (x15 : Vec F S1x128 .f32) (x16 : Vec F S128x1 .f32) (x17 : Vec F S1x1 .f32) :
    out0_18 x0 x1 x2 x3 x4 x5 x6 x7 x8 x9 x10 x11 x12 x13 x14 x15 x16 x17
      = k0_pay1 (k0_pay4 (k0_pay2 x0 x3 x4 x5 x6) (k0_pay3 x0 x3 x4 x5 x6 x1) x7 x8 x9 x10 x11 x12 x13 x14) (k0_pay5 x15) x16 x17 x2 := by
  unfold out0_18
  rw [View.canon_unit_zero hz]
  simp only [View.ld_unit_zero (S := S1024x128) hz, View.ld_unit_zero (S := S1024x1024) hz, View.ld_unit_zero (S := S1024x1) hz, View.ld_unit_zero (S := S128x64) hz, View.ld_unit_zero (S := S1x64) hz, View.ld_unit_zero (S := S64x256) hz, View.ld_unit_zero (S := S1x256) hz, View.ld_unit_zero (S := S256x256) hz, View.ld_unit_zero (S := S256x128) hz, View.ld_unit_zero (S := S1x128) hz, View.ld_unit_zero (S := S128x128) hz, View.ld_unit_zero (S := S128x1) hz, View.ld_unit_zero (S := S1x1) hz]

/-- The body's arithmetic of the arrays as the region finds them. -/
abbrev pay (c : Dev nD) : Vec F S1024x1 .f32 :=
  k0_pay1 (k0_pay4 (k0_pay2 (V m c main_arg0) (V m c main_arg3) (V m c main_v1) (V m c main_arg5) (V m c main_v2))
        (k0_pay3 (V m c main_arg0) (V m c main_arg3) (V m c main_v1) (V m c main_arg5) (V m c main_v2) (V m c main_arg1))
        (V m c main_arg7) (V m c main_v3) (V m c main_arg9) (V m c main_v4) (V m c main_v5) (V m c main_v6) (V m c main_v7) (V m c main_arg13))
      (k0_pay5 (V m c main_v8)) (V m c main_arg15) (V m c main_v9) (V m c main_v0)

/-- What the one point writes back is the whole of `pay`. -/
theorem flushed_eq (c : Dev nD) (t : Fin cfg0.N) :
    (dats m 0 c).flushed 18 t = ((cfg0.win 18).blk t).view.read (Elt F) (pay m c) := by
  rw [Value.flushed18, out0_18_eq]
  rw [iblk0 m c t, iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t, iblk15 m c t, iblk16 m c t, iblk17 m c t]
  have hz' : (fun a => win0_18.index t a * main_v10.ty.shape.size a) = fun _ => 0 := funext fun a => Nat.zero_mul _
  exact (Memref.read_access_unit_zero (Elt F) main_v10 hz' (fun a => by rw [congrFun hz' a]; simp) (pay m c)).symm

/-- The one point's block covers the result array. -/
theorem cover (i : S1024x1.Idx) :
    ∃ t : Fin cfg0.N, (cfg0.win 18).flush t = true ∧ i ∈ ((cfg0.win 18).blk t).view.set :=
  ⟨t0_0, flush0_18 t0_0, by
    show i ∈ ((View.whole main_v10).slice (win0_18.rect t0_0)).set
    rw [View.set_slice_whole, Rect.mem_set_unit]
    intro a
    have h0 : (i 0 : Nat) < 1024 := (i 0).isLt
    have h1 : (i 1 : Nat) < 1 := (i 1).isLt
    match a with
    | ⟨0, _⟩ =>
      show 0 * 1024 ≤ (i 0 : Nat) ∧ (i 0 : Nat) < 0 * 1024 + 1024
      omega
    | ⟨1, _⟩ =>
      show 0 * 1 ≤ (i 1 : Nat) ∧ (i 1 : Nat) < 0 * 1 + 1
      omega⟩

/-- So the result array ends holding `pay`. -/
theorem final (c : Dev nD) : (dats m 0 c).arrAt 18 cfg0.N = pay m c :=
  (dats m 0 c).arrAt_eq_of_cover 18 (pay m c) (fun t _ => flushed_eq m c t) cover

/-- The run, read: the result array at the body's arithmetic of the arrays the region finds, the arguments unchanged. -/
theorem run_pay : θ_run defs (onTc (τ := τ) (main (F := F))) ⟨m, fun _ => 0, ρ⟩ fun r => ∀ c : Dev nD,
      r.2.mem ((c : Thread nD τ).loc main_v10)
        = k0_pay1 (k0_pay4 (k0_pay2 (V m c main_arg0) (V m c main_arg3) (V m c main_v1) (V m c main_arg5) (V m c main_v2))
        (k0_pay3 (V m c main_arg0) (V m c main_arg3) (V m c main_v1) (V m c main_arg5) (V m c main_v2) (V m c main_arg1))
        (V m c main_arg7) (V m c main_v3) (V m c main_arg9) (V m c main_v4) (V m c main_v5) (V m c main_v6) (V m c main_v7) (V m c main_arg13))
      (k0_pay5 (V m c main_v8)) (V m c main_arg15) (V m c main_v9) (V m c main_v0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun _ h c => ⟨(h c).1.trans (final m c), (h c).2⟩) (Value.run_blocks m ρ)

end Cert.KernelIdeal.KValue

end
-- ==== Proof.KernelRun.lean ====
import proofs.«106343_g48172353192219_fold_wed_c4_272_4_alg».proof.Proof.KPayload
import proofs.«106343_g48172353192219_fold_wed_c4_272_4_alg».proof.Proof.KBlocks

/-!
# The kernel's run, read: the result array is the specification of the arguments

The kernel's one store leaves in the result array the payload of the arrays the body loads. Those arrays are the
arguments themselves or re-laid copies of them: a bias vector as one row, the mask as one column, the upper and the
lower half of the concatenation's weight matrix. Read back through these layouts the payload is the specification
`specK` of the seventeen argument arrays, laid out as a column; the arguments are left as launched.
-/

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The seventeen argument arrays of core `c` as launched. -/
def argsOf (c : Dev nD) : Cert.Gcn.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)

/-- The payload of the arrays the body loads is `specK` of the arguments, as a column. -/
theorem stored_eq (c : Dev nD) :
    k0_pay1 (F := Ideal)
      (k0_pay4
        (k0_pay2 (V m c main_arg0) (V m c main_arg3) (V m c main_v1) (V m c main_arg5) (V m c main_v2))
        (k0_pay3 (V m c main_arg0) (V m c main_arg3) (V m c main_v1) (V m c main_arg5) (V m c main_v2) (V m c main_arg1))
        (V m c main_arg7) (V m c main_v3) (V m c main_arg9) (V m c main_v4) (V m c main_v5) (V m c main_v6) (V m c main_v7)
        (V m c main_arg13))
      (k0_pay5 (V m c main_v8)) (V m c main_arg15) (V m c main_v9) (V m c main_v0)
      = Cert.Gcn.asColumn (Cert.Gcn.specK (argsOf m c)) :=
  payload_eq (argsOf m c)
    (V m c main_arg0) (V m c main_arg1) (V m c main_v0) (V m c main_arg3) (V m c main_v1) (V m c main_arg5) (V m c main_v2)
    (V m c main_arg7) (V m c main_v3) (V m c main_arg9) (V m c main_v4) (V m c main_v5) (V m c main_v6) (V m c main_v7)
    (V m c main_arg13) (V m c main_v8) (V m c main_arg15) (V m c main_v9)
    (V_main_arg0 m c) (V_main_arg1 m c) (fun i => V_main_v0_apply m c i) (V_main_arg3 m c) (fun i => V_main_v1_apply m c i) (V_main_arg5 m c) (fun i => V_main_v2_apply m c i)
    (V_main_arg7 m c) (fun i => V_main_v3_apply m c i) (V_main_arg9 m c) (fun i => V_main_v4_apply m c i) (fun k q => V_main_v5_apply m c k q) (fun k q => V_main_v6_apply m c k q) (fun i => V_main_v7_apply m c i)
    (V_main_arg13 m c) (fun i => V_main_v8_apply m c i) (V_main_arg15 m c) (V_main_v9_apply m c (0 : Fin 1))

/-- The run: the result array holds `specK` of the arguments as a column, and every argument is as launched. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v10) = Cert.Gcn.asColumn (Cert.Gcn.specK (argsOf m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (stored_eq m c), (h c).2⟩) (run_pay m ρ)

end Cert.KernelIdeal.KValue

end
-- ==== Proof.RefRunSsa.lean ====
import Idealize.ShloMosaic.Lib.StableHlo.Run

/-!
# A straight line of operations that writes every buffer once

When operation `k` of a line is the only one that writes its result buffer, and every operand it reads is
written before it or not at all, the contents at the END of the line satisfy the line's defining equations:
the result buffer holds the operation's function of what the operand buffers hold at the end.  The lemmas
here state that for the builders of one, two and three operands, of none, and for a reshape, over a list
`ys` naming, position by position, the one buffer each operation writes.
-/

noncomputable section

namespace Cert.ReferenceIdeal.RefRunSsa

open Idealize.ShloMosaic Idealize.ShloMosaic.StableHlo

variable {τ : Topo} {sig : RefSig} {Val : EltTy → Type}

/-- Position by position, `ys` names the one buffer each operation writes. -/
def WritesAre : List (HloOp τ sig Val) → List (Ref sig .tc) → Prop
  | [], [] => True
  | op :: ops, y :: ys => op.writes = {Proc.devRef .tc y} ∧ WritesAre ops ys
  | _, _ => False

theorem WritesAre.nil : WritesAre ([] : List (HloOp τ sig Val)) [] := trivial

theorem WritesAre.cons {op : HloOp τ sig Val} {ops : List (HloOp τ sig Val)} {y : Ref sig .tc} {ys : List (Ref sig .tc)}
    (h : op.writes = {Proc.devRef .tc y}) (hs : WritesAre ops ys) : WritesAre (op :: ops) (y :: ys) := ⟨h, hs⟩

/-- A buffer the line does not write keeps its contents. -/
theorem after_keep : ∀ (ops : List (HloOp τ sig Val)) (ys : List (Ref sig .tc)) (_ : WritesAre ops ys)
    (V : Valuation τ sig Val) (r : Ref sig .tc) (_ : r ∉ ys), after ops V (Proc.devRef .tc r) = V (Proc.devRef .tc r)
  | [], [], _, _, _, _ => rfl
  | op :: ops, y :: ys, h, V, r, hr => by
    rw [after_cons, after_keep ops ys h.2 _ r (fun hm => hr (List.mem_cons_of_mem _ hm))]
    refine op.result_of_not_mem V ?_
    rw [h.1, Finset.mem_singleton]
    exact devRef_ne_of_ne (fun e => hr (e ▸ List.mem_cons_self))
  | [], _ :: _, h, _, _, _ => h.elim
  | _ :: _, [], h, _, _, _ => h.elim

/-- A buffer not written from position `k` on holds at the end what it holds after the first `k` operations. -/
theorem after_split : ∀ (k : Nat) (ops : List (HloOp τ sig Val)) (ys : List (Ref sig .tc)) (_ : WritesAre ops ys)
    (V : Valuation τ sig Val) (r : Ref sig .tc) (_ : r ∉ ys.drop k),
    after ops V (Proc.devRef .tc r) = after (ops.take k) V (Proc.devRef .tc r)
  | 0, ops, ys, h, V, r, hr => by
    rw [List.take_zero, after_nil]; exact after_keep ops ys h V r (by simpa using hr)
  | _ + 1, [], [], _, _, _, _ => rfl
  | k + 1, op :: ops, y :: ys, h, V, r, hr => by
    rw [List.take_succ_cons, after_cons, after_cons]
    exact after_split k ops ys h.2 _ r (by simpa using hr)
  | _ + 1, [], _ :: _, h, _, _, _ => h.elim
  | _ + 1, _ :: _, [], h, _, _, _ => h.elim

/-- The buffer operation `k` writes, written by no later one, holds at the end that operation's result over the
    contents after the first `k` operations. -/
theorem after_at : ∀ (k : Nat) (ops : List (HloOp τ sig Val)) (ys : List (Ref sig .tc)) (_ : WritesAre ops ys)
    (V : Valuation τ sig Val) (op : HloOp τ sig Val) (y : Ref sig .tc) (_ : ops[k]? = some op) (_ : ys[k]? = some y)
    (_ : y ∉ ys.drop (k + 1)),
    after ops V (Proc.devRef .tc y) = op.result (after (ops.take k) V) (Proc.devRef .tc y)
  | 0, o :: ops, z :: ys, h, V, op, y, hop, hy, hy' => by
    obtain rfl : o = op := by simpa using hop
    obtain rfl : z = y := by simpa using hy
    rw [after_cons, List.take_zero, after_nil]
    exact after_keep ops ys h.2 _ z (by simpa using hy')
  | k + 1, o :: ops, z :: ys, h, V, op, y, hop, hy, hy' => by
    rw [after_cons, List.take_succ_cons, after_cons]
    exact after_at k ops ys h.2 _ op y (by simpa using hop) (by simpa using hy) (by simpa using hy')
  | _, [], _, _, _, _, _, hop, _, _ => by simp at hop
  | _, _ :: _, [], h, _, _, _, _, _, _ => h.elim

variable (ops : List (HloOp τ sig Val)) (ys : List (Ref sig .tc)) (hW : WritesAre ops ys) (V : Valuation τ sig Val) (k : Nat)
include hW

theorem nullary_step (y : Ref sig .tc) (v : y.ty.Contents Val) (hy)
    (hop : ops[k]? = some (nullary y v hy)) (hyk : ys[k]? = some y) (hy' : y ∉ ys.drop (k + 1)) :
    after ops V (Proc.devRef .tc y) = v := by
  rw [after_at k ops ys hW V _ y hop hyk hy', nullary_result]

theorem unary_step (x y : Ref sig .tc) (f : x.ty.Contents Val → y.ty.Contents Val) (hx hy)
    (hop : ops[k]? = some (unary x y f hx hy)) (hyk : ys[k]? = some y) (hy' : y ∉ ys.drop (k + 1))
    (hx' : x ∉ ys.drop k) :
    after ops V (Proc.devRef .tc y) = f (after ops V (Proc.devRef .tc x)) := by
  rw [after_at k ops ys hW V _ y hop hyk hy', unary_result, after_split k ops ys hW V x hx']

theorem reshape_step (x y : Ref sig .tc) (he : x.ty.elt = y.ty.elt) (hn : x.ty.shape.ShapeCasts y.ty.shape) (hx hy)
    (hop : ops[k]? = some (reshape x y he hn hx hy)) (hyk : ys[k]? = some y) (hy' : y ∉ ys.drop (k + 1))
    (hx' : x ∉ ys.drop k) :
    after ops V (Proc.devRef .tc y) = fun i => he ▸ shapeCast y.ty.shape (after ops V (Proc.devRef .tc x)) hn i := by
  rw [after_at k ops ys hW V _ y hop hyk hy', reshape_result, after_split k ops ys hW V x hx']

theorem binary_step (a b y : Ref sig .tc) (f : a.ty.Contents Val → b.ty.Contents Val → y.ty.Contents Val) (ha hb hy)
    (hop : ops[k]? = some (binary a b y f ha hb hy)) (hyk : ys[k]? = some y) (hy' : y ∉ ys.drop (k + 1))
    (ha' : a ∉ ys.drop k) (hb' : b ∉ ys.drop k) :
    after ops V (Proc.devRef .tc y) = f (after ops V (Proc.devRef .tc a)) (after ops V (Proc.devRef .tc b)) := by
  rw [after_at k ops ys hW V _ y hop hyk hy', binary_result, after_split k ops ys hW V a ha',
    after_split k ops ys hW V b hb']

theorem ternary_step (c a b y : Ref sig .tc)
    (f : c.ty.Contents Val → a.ty.Contents Val → b.ty.Contents Val → y.ty.Contents Val) (hc ha hb hy)
    (hop : ops[k]? = some (ternary c a b y f hc ha hb hy)) (hyk : ys[k]? = some y) (hy' : y ∉ ys.drop (k + 1))
    (hc' : c ∉ ys.drop k) (ha' : a ∉ ys.drop k) (hb' : b ∉ ys.drop k) :
    after ops V (Proc.devRef .tc y)
      = f (after ops V (Proc.devRef .tc c)) (after ops V (Proc.devRef .tc a)) (after ops V (Proc.devRef .tc b)) := by
  rw [after_at k ops ys hW V _ y hop hyk hy', ternary_result, after_split k ops ys hW V c hc',
    after_split k ops ys hW V a ha', after_split k ops ys hW V b hb']

end Cert.ReferenceIdeal.RefRunSsa

end
-- ==== Proof.RefRunOps.lean ====
import proofs.«106343_g48172353192219_fold_wed_c4_272_4_alg».proof.Proof.Gen.ReferenceIdeal
import proofs.«106343_g48172353192219_fold_wed_c4_272_4_alg».proof.Proof.RefRunSsa
import Idealize.ShloMosaic.Lib.StableHlo.Run

/-!
# The reference program as a list of operations

The reference's `@main` is a straight line of 151 operations once the bodies of the functions it calls are written
out at their call sites, each over the buffers of its call's record: `ops` (the operations of the first and of the
second half of the program, joined), and `main_eq` says that the program is that line.  `opsP` is the same line
with every operation spelled over the buffers themselves, an operation of a called function no longer through its
record's typed references (`ops_eq`); `Ws` names position by position the one buffer each operation writes.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefRunSsa

variable {F : FTy → Type} [FloatOps F]

/-- The operations of the program's first half, in order, the called functions' bodies in the calls' places. -/
abbrev ops0 : List (HloOp τ sig (Elt F)) :=
  [ binary main_arg0 main_arg3 main_v0 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S1024x64 ![0, 1] bcast_S1x64_S1024x64_0_1 : (⟨S1x64, .f32⟩ : BufTy).Contents (Elt F) → (⟨S1024x64, .f32⟩ : BufTy).Contents (Elt F)),
    binary main_v0 main_v2 main_v3 (addf : (⟨S1024x64, .f32⟩ : BufTy).Contents (Elt F) → (⟨S1024x64, .f32⟩ : BufTy).Contents (Elt F) → (⟨S1024x64, .f32⟩ : BufTy).Contents (Elt F)),
    TRef.nullary main_call0.cst (constant S_ .f32 0x00000000#32),
    TRef.unary main_call0.cst main_call0.v0 (broadcastInDim S1024x64 ![] bcast_S_S1024x64),
    TRef.binary (.of main_v3) main_call0.v0 main_call0.v1 maximumf,
    binary main_v4 main_arg5 main_v5 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    unary main_arg6 main_v6 (broadcastInDim S1x256 ![1] bcast_S256_S1x256_1 : (⟨S256, .f32⟩ : BufTy).Contents (Elt F) → (⟨S1x256, .f32⟩ : BufTy).Contents (Elt F)),
    unary main_v6 main_v7 (broadcastInDim S1024x256 ![0, 1] bcast_S1x256_S1024x256_0_1 : (⟨S1x256, .f32⟩ : BufTy).Contents (Elt F) → (⟨S1024x256, .f32⟩ : BufTy).Contents (Elt F)),
    binary main_v5 main_v7 main_v8 (addf : (⟨S1024x256, .f32⟩ : BufTy).Contents (Elt F) → (⟨S1024x256, .f32⟩ : BufTy).Contents (Elt F) → (⟨S1024x256, .f32⟩ : BufTy).Contents (Elt F)),
    TRef.nullary main_call1.cst (constant S_ .f32 0x00000000#32),
    TRef.unary main_call1.cst main_call1.v0 (broadcastInDim S1024x256 ![] bcast_S_S1024x256),
    TRef.binary (.of main_v8) main_call1.v0 main_call1.v1 maximumf,
    nullary main_v10 (iotaInDim S1024 32 0),
    unary main_v10 main_v11 (broadcastInDim S1024x1024 ![0] bcast_S1024_S1024x1024_0 : (⟨S1024, .i32⟩ : BufTy).Contents (Elt F) → (⟨S1024x1024, .i32⟩ : BufTy).Contents (Elt F)),
    reshape main_v11 main_v12 rfl shapeCasts_S1024x1024_S1048576,
    nullary main_v13 (iotaInDim S1024 32 0),
    reshape main_v13 main_v14 rfl shapeCasts_S1024_S1x1024,
    unary main_v14 main_v15 (broadcastInDim S1024x1024 ![0, 1] bcast_S1x1024_S1024x1024_0_1 : (⟨S1x1024, .i32⟩ : BufTy).Contents (Elt F) → (⟨S1024x1024, .i32⟩ : BufTy).Contents (Elt F)),
    reshape main_v15 main_v16 rfl shapeCasts_S1024x1024_S1048576,
    reshape main_arg1 main_v17 rfl shapeCasts_S1024x1024_S1048576,
    nullary main_cst (constant S_ .f32 0x00000000#32),
    unary main_cst main_v18 (broadcastInDim S1024 ![] bcast_S_S1024 : (⟨S_, .f32⟩ : BufTy).Contents (Elt F) → (⟨S1024, .f32⟩ : BufTy).Contents (Elt F)),
    unary main_v16 main_v19 (broadcastInDim S1048576x1 ![0] bcast_S1048576_S1048576x1_0 : (⟨S1048576, .i32⟩ : BufTy).Contents (Elt F) → (⟨S1048576x1, .i32⟩ : BufTy).Contents (Elt F)),
    ternary main_v18 main_v19 main_v17 main_v20 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    nullary main_cst_0 (constant S_ .f32 0x00000000#32),
    unary main_cst_0 main_v21 (broadcastInDim S1024 ![] bcast_S_S1024 : (⟨S_, .f32⟩ : BufTy).Contents (Elt F) → (⟨S1024, .f32⟩ : BufTy).Contents (Elt F)),
    binary main_v20 main_v21 main_v22 (cmpf .ogt : (⟨S1024, .f32⟩ : BufTy).Contents (Elt F) → (⟨S1024, .f32⟩ : BufTy).Contents (Elt F) → (⟨S1024, .i1⟩ : BufTy).Contents (Elt F)),
    nullary main_cst_1 (constant S_ .f32 0xBF000000#32),
    unary main_cst_1 main_v23 (broadcastInDim S1024 ![] bcast_S_S1024 : (⟨S_, .f32⟩ : BufTy).Contents (Elt F) → (⟨S1024, .f32⟩ : BufTy).Contents (Elt F)),
    binary main_v20 main_v23 main_v24 (Host.powf : (⟨S1024, .f32⟩ : BufTy).Contents (Elt F) → (⟨S1024, .f32⟩ : BufTy).Contents (Elt F) → (⟨S1024, .f32⟩ : BufTy).Contents (Elt F)),
    nullary main_cst_2 (constant S_ .f32 0x00000000#32),
    TRef.unary (.of main_cst_2) main_call2.v0 id,
    TRef.unary main_call2.v0 main_call2.v1 (broadcastInDim S1024 ![] bcast_S_S1024),
    TRef.ternary (.of main_v22) (.of main_v24) main_call2.v1 main_call2.v2 select,
    nullary main_c (constantI S_ 32 0#32),
    unary main_c main_v26 (broadcastInDim S1048576 ![] bcast_S_S1048576 : (⟨S_, .i32⟩ : BufTy).Contents (Elt F) → (⟨S1048576, .i32⟩ : BufTy).Contents (Elt F)),
    binary main_v12 main_v26 main_v27 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 1024#32),
    unary main_c_3 main_v28 (broadcastInDim S1048576 ![] bcast_S_S1048576 : (⟨S_, .i32⟩ : BufTy).Contents (Elt F) → (⟨S1048576, .i32⟩ : BufTy).Contents (Elt F)),
    binary main_v12 main_v28 main_v29 (addi : (⟨S1048576, .i32⟩ : BufTy).Contents (Elt F) → (⟨S1048576, .i32⟩ : BufTy).Contents (Elt F) → (⟨S1048576, .i32⟩ : BufTy).Contents (Elt F)),
    ternary main_v27 main_v29 main_v12 main_v30 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v30 main_v31 (broadcastInDim S1048576x1 ![0] bcast_S1048576_S1048576x1_0 : (⟨S1048576, .i32⟩ : BufTy).Contents (Elt F) → (⟨S1048576x1, .i32⟩ : BufTy).Contents (Elt F)),
    binary main_v25 main_v31 main_v32 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    nullary main_c_4 (constantI S_ 32 0#32),
    unary main_c_4 main_v33 (broadcastInDim S1048576 ![] bcast_S_S1048576 : (⟨S_, .i32⟩ : BufTy).Contents (Elt F) → (⟨S1048576, .i32⟩ : BufTy).Contents (Elt F)),
    binary main_v16 main_v33 main_v34 (cmpi .slt : (⟨S1048576, .i32⟩ : BufTy).Contents (Elt F) → (⟨S1048576, .i32⟩ : BufTy).Contents (Elt F) → (⟨S1048576, .i1⟩ : BufTy).Contents (Elt F)),
    nullary main_c_5 (constantI S_ 32 1024#32),
    unary main_c_5 main_v35 (broadcastInDim S1048576 ![] bcast_S_S1048576 : (⟨S_, .i32⟩ : BufTy).Contents (Elt F) → (⟨S1048576, .i32⟩ : BufTy).Contents (Elt F)),
    binary main_v16 main_v35 main_v36 (addi : (⟨S1048576, .i32⟩ : BufTy).Contents (Elt F) → (⟨S1048576, .i32⟩ : BufTy).Contents (Elt F) → (⟨S1048576, .i32⟩ : BufTy).Contents (Elt F)),
    ternary main_v34 main_v36 main_v16 main_v37 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v37 main_v38 (broadcastInDim S1048576x1 ![0] bcast_S1048576_S1048576x1_0 : (⟨S1048576, .i32⟩ : BufTy).Contents (Elt F) → (⟨S1048576x1, .i32⟩ : BufTy).Contents (Elt F)),
    binary main_v25 main_v38 main_v39 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    binary main_v32 main_v39 main_v40 (mulf : (⟨S1048576, .f32⟩ : BufTy).Contents (Elt F) → (⟨S1048576, .f32⟩ : BufTy).Contents (Elt F) → (⟨S1048576, .f32⟩ : BufTy).Contents (Elt F)),
    binary main_v17 main_v40 main_v41 (mulf : (⟨S1048576, .f32⟩ : BufTy).Contents (Elt F) → (⟨S1048576, .f32⟩ : BufTy).Contents (Elt F) → (⟨S1048576, .f32⟩ : BufTy).Contents (Elt F)),
    unary main_v41 main_v42 (broadcastInDim S1048576x1 ![0] bcast_S1048576_S1048576x1_0 : (⟨S1048576, .f32⟩ : BufTy).Contents (Elt F) → (⟨S1048576x1, .f32⟩ : BufTy).Contents (Elt F)),
    TRef.nullary main_call3.c (constantI S_ 32 0#32),
    TRef.unary main_call3.c main_call3.v0 (broadcastInDim S1048576 ![] bcast_S_S1048576),
    TRef.binary (.of main_v12) main_call3.v0 main_call3.v1 (cmpi .slt),
    TRef.nullary main_call3.c_0 (constantI S_ 32 1024#32),
    TRef.unary main_call3.c_0 main_call3.v2 (broadcastInDim S1048576 ![] bcast_S_S1048576),
    TRef.binary (.of main_v12) main_call3.v2 main_call3.v3 addi,
    TRef.ternary main_call3.v1 main_call3.v3 (.of main_v12) main_call3_call0.v0 select,
    TRef.unary main_call3_call0.v0 main_call3.v5 (broadcastInDim S1048576x1 ![0] bcast_S1048576_S1048576x1_0),
    TRef.nullary main_call3.c_1 (constantI S1 32 1023#32),
    TRef.nullary main_call3.c_2 (constantI S_ 32 0#32),
    TRef.unary main_call3.c_2 main_call3.v6 (broadcastInDim S1048576x1 ![] bcast_S_S1048576x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S1048576x1 ![0, 1] bcast_S1x1_S1048576x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S1048576x1_S1048576_d1 h_S_),
    TRef.binary (.of main_v9) main_call3.v5 main_call3.v13 (fun x i => Host.gather gather_S1024x256_S1048576x1_S1048576x256_1_0_n_n_0_1_1256 x i),
    TRef.unary main_call3.v12 main_call3.v14 (broadcastInDim S1048576x256 ![0] bcast_S1048576_S1048576x256_0),
    TRef.nullary main_call3.cst (constant S_ .f32 0x7FC00000#32),
    TRef.unary main_call3.cst main_call3.v15 (broadcastInDim S1048576x256 ![] bcast_S_S1048576x256),
    TRef.ternary main_call3.v14 main_call3.v13 main_call3.v15 main_call3.v16 select,
    unary main_v42 main_v44 (broadcastInDim S1048576x256 ![0, 1] bcast_S1048576x1_S1048576x256_0_1 : (⟨S1048576x1, .f32⟩ : BufTy).Contents (Elt F) → (⟨S1048576x256, .f32⟩ : BufTy).Contents (Elt F)),
    binary main_v44 main_v43 main_v45 (mulf : (⟨S1048576x256, .f32⟩ : BufTy).Contents (Elt F) → (⟨S1048576x256, .f32⟩ : BufTy).Contents (Elt F) → (⟨S1048576x256, .f32⟩ : BufTy).Contents (Elt F)),
    nullary main_cst_6 (constant S_ .f32 0x00000000#32),
    unary main_cst_6 main_v46 (broadcastInDim S1024x256 ![] bcast_S_S1024x256 : (⟨S_, .f32⟩ : BufTy).Contents (Elt F) → (⟨S1024x256, .f32⟩ : BufTy).Contents (Elt F)),
    unary main_v16 main_v47 (broadcastInDim S1048576x1 ![0] bcast_S1048576_S1048576x1_0 : (⟨S1048576, .i32⟩ : BufTy).Contents (Elt F) → (⟨S1048576x1, .i32⟩ : BufTy).Contents (Elt F)),
    ternary main_v46 main_v47 main_v45 main_v48 ((fun x i u => Host.scatterAdd scatter_S1024x256_S1048576x1_S1048576x256_1_0_0_1 x i u) : (⟨S1024x256, .f32⟩ : BufTy).Contents (Elt F) → (⟨S1048576x1, .i32⟩ : BufTy).Contents (Elt F) → (⟨S1048576x256, .f32⟩ : BufTy).Contents (Elt F) → (⟨S1024x256, .f32⟩ : BufTy).Contents (Elt F)),
    unary main_v41 main_v49 (broadcastInDim S1048576x1 ![0] bcast_S1048576_S1048576x1_0 : (⟨S1048576, .f32⟩ : BufTy).Contents (Elt F) → (⟨S1048576x1, .f32⟩ : BufTy).Contents (Elt F)),
    TRef.nullary main_call4.c (constantI S_ 32 0#32),
    TRef.unary main_call4.c main_call4.v0 (broadcastInDim S1048576 ![] bcast_S_S1048576),
    TRef.binary (.of main_v12) main_call4.v0 main_call4.v1 (cmpi .slt),
    TRef.nullary main_call4.c_0 (constantI S_ 32 1024#32),
    TRef.unary main_call4.c_0 main_call4.v2 (broadcastInDim S1048576 ![] bcast_S_S1048576),
    TRef.binary (.of main_v12) main_call4.v2 main_call4.v3 addi,
    TRef.ternary main_call4.v1 main_call4.v3 (.of main_v12) main_call4_call0.v0 select,
    TRef.unary main_call4_call0.v0 main_call4.v5 (broadcastInDim S1048576x1 ![0] bcast_S1048576_S1048576x1_0),
    TRef.nullary main_call4.c_1 (constantI S1 32 1023#32),
    TRef.nullary main_call4.c_2 (constantI S_ 32 0#32),
    TRef.unary main_call4.c_2 main_call4.v6 (broadcastInDim S1048576x1 ![] bcast_S_S1048576x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1048576x1 ![0, 1] bcast_S1x1_S1048576x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1048576x1_S1048576_d1 h_S_),
    TRef.binary (.of main_v48) main_call4.v5 main_call4.v13 (fun x i => Host.gather gather_S1024x256_S1048576x1_S1048576x256_1_0_n_n_0_1_1256 x i),
    TRef.unary main_call4.v12 main_call4.v14 (broadcastInDim S1048576x256 ![0] bcast_S1048576_S1048576x256_0),
    TRef.nullary main_call4.cst (constant S_ .f32 0x7FC00000#32),
    TRef.unary main_call4.cst main_call4.v15 (broadcastInDim S1048576x256 ![] bcast_S_S1048576x256),
    TRef.ternary main_call4.v14 main_call4.v13 main_call4.v15 main_call4.v16 select ]

/-- The operations of the program's second half. -/
abbrev ops1 : List (HloOp τ sig (Elt F)) :=
  [ unary main_v49 main_v51 (broadcastInDim S1048576x256 ![0, 1] bcast_S1048576x1_S1048576x256_0_1 : (⟨S1048576x1, .f32⟩ : BufTy).Contents (Elt F) → (⟨S1048576x256, .f32⟩ : BufTy).Contents (Elt F)),
    binary main_v51 main_v50 main_v52 (mulf : (⟨S1048576x256, .f32⟩ : BufTy).Contents (Elt F) → (⟨S1048576x256, .f32⟩ : BufTy).Contents (Elt F) → (⟨S1048576x256, .f32⟩ : BufTy).Contents (Elt F)),
    nullary main_cst_7 (constant S_ .f32 0x00000000#32),
    unary main_cst_7 main_v53 (broadcastInDim S1024x256 ![] bcast_S_S1024x256 : (⟨S_, .f32⟩ : BufTy).Contents (Elt F) → (⟨S1024x256, .f32⟩ : BufTy).Contents (Elt F)),
    unary main_v16 main_v54 (broadcastInDim S1048576x1 ![0] bcast_S1048576_S1048576x1_0 : (⟨S1048576, .i32⟩ : BufTy).Contents (Elt F) → (⟨S1048576x1, .i32⟩ : BufTy).Contents (Elt F)),
    ternary main_v53 main_v54 main_v52 main_v55 ((fun x i u => Host.scatterAdd scatter_S1024x256_S1048576x1_S1048576x256_1_0_0_1 x i u) : (⟨S1024x256, .f32⟩ : BufTy).Contents (Elt F) → (⟨S1048576x1, .i32⟩ : BufTy).Contents (Elt F) → (⟨S1048576x256, .f32⟩ : BufTy).Contents (Elt F) → (⟨S1024x256, .f32⟩ : BufTy).Contents (Elt F)),
    binary main_v55 main_arg7 main_v56 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg8 main_v57 (broadcastInDim S1x256 ![1] bcast_S256_S1x256_1 : (⟨S256, .f32⟩ : BufTy).Contents (Elt F) → (⟨S1x256, .f32⟩ : BufTy).Contents (Elt F)),
    unary main_v57 main_v58 (broadcastInDim S1024x256 ![0, 1] bcast_S1x256_S1024x256_0_1 : (⟨S1x256, .f32⟩ : BufTy).Contents (Elt F) → (⟨S1024x256, .f32⟩ : BufTy).Contents (Elt F)),
    binary main_v56 main_v58 main_v59 (addf : (⟨S1024x256, .f32⟩ : BufTy).Contents (Elt F) → (⟨S1024x256, .f32⟩ : BufTy).Contents (Elt F) → (⟨S1024x256, .f32⟩ : BufTy).Contents (Elt F)),
    TRef.nullary main_call5.cst (constant S_ .f32 0x00000000#32),
    TRef.unary main_call5.cst main_call5.v0 (broadcastInDim S1024x256 ![] bcast_S_S1024x256),
    TRef.binary (.of main_v59) main_call5.v0 main_call5.v1 maximumf,
    binary main_v60 main_arg9 main_v61 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S1024x256 ![0, 1] bcast_S1x256_S1024x256_0_1 : (⟨S1x256, .f32⟩ : BufTy).Contents (Elt F) → (⟨S1024x256, .f32⟩ : BufTy).Contents (Elt F)),
    binary main_v61 main_v63 main_v64 (addf : (⟨S1024x256, .f32⟩ : BufTy).Contents (Elt F) → (⟨S1024x256, .f32⟩ : BufTy).Contents (Elt F) → (⟨S1024x256, .f32⟩ : BufTy).Contents (Elt F)),
    TRef.nullary main_call6.cst (constant S_ .f32 0x00000000#32),
    TRef.unary main_call6.cst main_call6.v0 (broadcastInDim S1024x256 ![] bcast_S_S1024x256),
    TRef.binary (.of main_v64) main_call6.v0 main_call6.v1 maximumf,
    binary main_v65 main_v9 main_v66 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F)),
    binary main_v66 main_arg11 main_v67 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    unary main_arg12 main_v68 (broadcastInDim S1x128 ![1] bcast_S128_S1x128_1 : (⟨S128, .f32⟩ : BufTy).Contents (Elt F) → (⟨S1x128, .f32⟩ : BufTy).Contents (Elt F)),
    unary main_v68 main_v69 (broadcastInDim S1024x128 ![0, 1] bcast_S1x128_S1024x128_0_1 : (⟨S1x128, .f32⟩ : BufTy).Contents (Elt F) → (⟨S1024x128, .f32⟩ : BufTy).Contents (Elt F)),
    binary main_v67 main_v69 main_v70 (addf : (⟨S1024x128, .f32⟩ : BufTy).Contents (Elt F) → (⟨S1024x128, .f32⟩ : BufTy).Contents (Elt F) → (⟨S1024x128, .f32⟩ : BufTy).Contents (Elt F)),
    TRef.nullary main_call7.cst (constant S_ .f32 0x00000000#32),
    TRef.unary main_call7.cst main_call7.v0 (broadcastInDim S1024x128 ![] bcast_S_S1024x128),
    TRef.binary (.of main_v70) main_call7.v0 main_call7.v1 maximumf,
    binary main_v71 main_arg13 main_v72 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg14 main_v73 (broadcastInDim S1x128 ![1] bcast_S128_S1x128_1 : (⟨S128, .f32⟩ : BufTy).Contents (Elt F) → (⟨S1x128, .f32⟩ : BufTy).Contents (Elt F)),
    unary main_v73 main_v74 (broadcastInDim S1024x128 ![0, 1] bcast_S1x128_S1024x128_0_1 : (⟨S1x128, .f32⟩ : BufTy).Contents (Elt F) → (⟨S1024x128, .f32⟩ : BufTy).Contents (Elt F)),
    binary main_v72 main_v74 main_v75 (addf : (⟨S1024x128, .f32⟩ : BufTy).Contents (Elt F) → (⟨S1024x128, .f32⟩ : BufTy).Contents (Elt F) → (⟨S1024x128, .f32⟩ : BufTy).Contents (Elt F)),
    TRef.nullary main_call8.cst (constant S_ .f32 0x00000000#32),
    TRef.unary main_call8.cst main_call8.v0 (broadcastInDim S1024x128 ![] bcast_S_S1024x128),
    TRef.binary (.of main_v75) main_call8.v0 main_call8.v1 maximumf,
    binary main_v76 main_arg15 main_v77 ((fun l r => Host.dotGeneral dot_S1024x128_S128x1_S1024x1_1_0_0_1_n_n none l r) : (⟨S1024x128, .f32⟩ : BufTy).Contents (Elt F) → (⟨S128x1, .f32⟩ : BufTy).Contents (Elt F) → (⟨S1024x1, .f32⟩ : BufTy).Contents (Elt F)),
    unary main_arg16 main_v78 (broadcastInDim S1x1 ![1] bcast_S1_S1x1_1 : (⟨S1, .f32⟩ : BufTy).Contents (Elt F) → (⟨S1x1, .f32⟩ : BufTy).Contents (Elt F)),
    unary main_v78 main_v79 (broadcastInDim S1024x1 ![0, 1] bcast_S1x1_S1024x1_0_1 : (⟨S1x1, .f32⟩ : BufTy).Contents (Elt F) → (⟨S1024x1, .f32⟩ : BufTy).Contents (Elt F)),
    binary main_v77 main_v79 main_v80 (addf : (⟨S1024x1, .f32⟩ : BufTy).Contents (Elt F) → (⟨S1024x1, .f32⟩ : BufTy).Contents (Elt F) → (⟨S1024x1, .f32⟩ : BufTy).Contents (Elt F)),
    reshape main_arg2 main_v81 rfl shapeCasts_S1024_S1024x1,
    binary main_v80 main_v81 main_v82 (mulf : (⟨S1024x1, .f32⟩ : BufTy).Contents (Elt F) → (⟨S1024x1, .f32⟩ : BufTy).Contents (Elt F) → (⟨S1024x1, .f32⟩ : BufTy).Contents (Elt F)) ]

/-- The whole line. -/
abbrev ops : List (HloOp τ sig (Elt F)) := ops0 ++ ops1

/-- The first half's operations, each over the buffers themselves. -/
abbrev opsP0 : List (HloOp τ sig (Elt F)) :=
  [ binary main_arg0 main_arg3 main_v0 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S1024x64 ![0, 1] bcast_S1x64_S1024x64_0_1 : (⟨S1x64, .f32⟩ : BufTy).Contents (Elt F) → (⟨S1024x64, .f32⟩ : BufTy).Contents (Elt F)),
    binary main_v0 main_v2 main_v3 (addf : (⟨S1024x64, .f32⟩ : BufTy).Contents (Elt F) → (⟨S1024x64, .f32⟩ : BufTy).Contents (Elt F) → (⟨S1024x64, .f32⟩ : BufTy).Contents (Elt F)),
    nullary main_call0_cst (constant S_ .f32 0x00000000#32),
    unary main_call0_cst main_call0_v0 (broadcastInDim S1024x64 ![] bcast_S_S1024x64 : (⟨S_, .f32⟩ : BufTy).Contents (Elt F) → (⟨S1024x64, .f32⟩ : BufTy).Contents (Elt F)),
    binary main_v3 main_call0_v0 main_v4 (maximumf : (⟨S1024x64, .f32⟩ : BufTy).Contents (Elt F) → (⟨S1024x64, .f32⟩ : BufTy).Contents (Elt F) → (⟨S1024x64, .f32⟩ : BufTy).Contents (Elt F)),
    binary main_v4 main_arg5 main_v5 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    unary main_arg6 main_v6 (broadcastInDim S1x256 ![1] bcast_S256_S1x256_1 : (⟨S256, .f32⟩ : BufTy).Contents (Elt F) → (⟨S1x256, .f32⟩ : BufTy).Contents (Elt F)),
    unary main_v6 main_v7 (broadcastInDim S1024x256 ![0, 1] bcast_S1x256_S1024x256_0_1 : (⟨S1x256, .f32⟩ : BufTy).Contents (Elt F) → (⟨S1024x256, .f32⟩ : BufTy).Contents (Elt F)),
    binary main_v5 main_v7 main_v8 (addf : (⟨S1024x256, .f32⟩ : BufTy).Contents (Elt F) → (⟨S1024x256, .f32⟩ : BufTy).Contents (Elt F) → (⟨S1024x256, .f32⟩ : BufTy).Contents (Elt F)),
    nullary main_call1_cst (constant S_ .f32 0x00000000#32),
    unary main_call1_cst main_call1_v0 (broadcastInDim S1024x256 ![] bcast_S_S1024x256 : (⟨S_, .f32⟩ : BufTy).Contents (Elt F) → (⟨S1024x256, .f32⟩ : BufTy).Contents (Elt F)),
    binary main_v8 main_call1_v0 main_v9 (maximumf : (⟨S1024x256, .f32⟩ : BufTy).Contents (Elt F) → (⟨S1024x256, .f32⟩ : BufTy).Contents (Elt F) → (⟨S1024x256, .f32⟩ : BufTy).Contents (Elt F)),
    nullary main_v10 (iotaInDim S1024 32 0),
    unary main_v10 main_v11 (broadcastInDim S1024x1024 ![0] bcast_S1024_S1024x1024_0 : (⟨S1024, .i32⟩ : BufTy).Contents (Elt F) → (⟨S1024x1024, .i32⟩ : BufTy).Contents (Elt F)),
    reshape main_v11 main_v12 rfl shapeCasts_S1024x1024_S1048576,
    nullary main_v13 (iotaInDim S1024 32 0),
    reshape main_v13 main_v14 rfl shapeCasts_S1024_S1x1024,
    unary main_v14 main_v15 (broadcastInDim S1024x1024 ![0, 1] bcast_S1x1024_S1024x1024_0_1 : (⟨S1x1024, .i32⟩ : BufTy).Contents (Elt F) → (⟨S1024x1024, .i32⟩ : BufTy).Contents (Elt F)),
    reshape main_v15 main_v16 rfl shapeCasts_S1024x1024_S1048576,
    reshape main_arg1 main_v17 rfl shapeCasts_S1024x1024_S1048576,
    nullary main_cst (constant S_ .f32 0x00000000#32),
    unary main_cst main_v18 (broadcastInDim S1024 ![] bcast_S_S1024 : (⟨S_, .f32⟩ : BufTy).Contents (Elt F) → (⟨S1024, .f32⟩ : BufTy).Contents (Elt F)),
    unary main_v16 main_v19 (broadcastInDim S1048576x1 ![0] bcast_S1048576_S1048576x1_0 : (⟨S1048576, .i32⟩ : BufTy).Contents (Elt F) → (⟨S1048576x1, .i32⟩ : BufTy).Contents (Elt F)),
    ternary main_v18 main_v19 main_v17 main_v20 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    nullary main_cst_0 (constant S_ .f32 0x00000000#32),
    unary main_cst_0 main_v21 (broadcastInDim S1024 ![] bcast_S_S1024 : (⟨S_, .f32⟩ : BufTy).Contents (Elt F) → (⟨S1024, .f32⟩ : BufTy).Contents (Elt F)),
    binary main_v20 main_v21 main_v22 (cmpf .ogt : (⟨S1024, .f32⟩ : BufTy).Contents (Elt F) → (⟨S1024, .f32⟩ : BufTy).Contents (Elt F) → (⟨S1024, .i1⟩ : BufTy).Contents (Elt F)),
    nullary main_cst_1 (constant S_ .f32 0xBF000000#32),
    unary main_cst_1 main_v23 (broadcastInDim S1024 ![] bcast_S_S1024 : (⟨S_, .f32⟩ : BufTy).Contents (Elt F) → (⟨S1024, .f32⟩ : BufTy).Contents (Elt F)),
    binary main_v20 main_v23 main_v24 (Host.powf : (⟨S1024, .f32⟩ : BufTy).Contents (Elt F) → (⟨S1024, .f32⟩ : BufTy).Contents (Elt F) → (⟨S1024, .f32⟩ : BufTy).Contents (Elt F)),
    nullary main_cst_2 (constant S_ .f32 0x00000000#32),
    unary main_cst_2 main_call2_v0 (id : (⟨S_, .f32⟩ : BufTy).Contents (Elt F) → (⟨S_, .f32⟩ : BufTy).Contents (Elt F)),
    unary main_call2_v0 main_call2_v1 (broadcastInDim S1024 ![] bcast_S_S1024 : (⟨S_, .f32⟩ : BufTy).Contents (Elt F) → (⟨S1024, .f32⟩ : BufTy).Contents (Elt F)),
    ternary main_v22 main_v24 main_call2_v1 main_v25 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    nullary main_c (constantI S_ 32 0#32),
    unary main_c main_v26 (broadcastInDim S1048576 ![] bcast_S_S1048576 : (⟨S_, .i32⟩ : BufTy).Contents (Elt F) → (⟨S1048576, .i32⟩ : BufTy).Contents (Elt F)),
    binary main_v12 main_v26 main_v27 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 1024#32),
    unary main_c_3 main_v28 (broadcastInDim S1048576 ![] bcast_S_S1048576 : (⟨S_, .i32⟩ : BufTy).Contents (Elt F) → (⟨S1048576, .i32⟩ : BufTy).Contents (Elt F)),
    binary main_v12 main_v28 main_v29 (addi : (⟨S1048576, .i32⟩ : BufTy).Contents (Elt F) → (⟨S1048576, .i32⟩ : BufTy).Contents (Elt F) → (⟨S1048576, .i32⟩ : BufTy).Contents (Elt F)),
    ternary main_v27 main_v29 main_v12 main_v30 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v30 main_v31 (broadcastInDim S1048576x1 ![0] bcast_S1048576_S1048576x1_0 : (⟨S1048576, .i32⟩ : BufTy).Contents (Elt F) → (⟨S1048576x1, .i32⟩ : BufTy).Contents (Elt F)),
    binary main_v25 main_v31 main_v32 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    nullary main_c_4 (constantI S_ 32 0#32),
    unary main_c_4 main_v33 (broadcastInDim S1048576 ![] bcast_S_S1048576 : (⟨S_, .i32⟩ : BufTy).Contents (Elt F) → (⟨S1048576, .i32⟩ : BufTy).Contents (Elt F)),
    binary main_v16 main_v33 main_v34 (cmpi .slt : (⟨S1048576, .i32⟩ : BufTy).Contents (Elt F) → (⟨S1048576, .i32⟩ : BufTy).Contents (Elt F) → (⟨S1048576, .i1⟩ : BufTy).Contents (Elt F)),
    nullary main_c_5 (constantI S_ 32 1024#32),
    unary main_c_5 main_v35 (broadcastInDim S1048576 ![] bcast_S_S1048576 : (⟨S_, .i32⟩ : BufTy).Contents (Elt F) → (⟨S1048576, .i32⟩ : BufTy).Contents (Elt F)),
    binary main_v16 main_v35 main_v36 (addi : (⟨S1048576, .i32⟩ : BufTy).Contents (Elt F) → (⟨S1048576, .i32⟩ : BufTy).Contents (Elt F) → (⟨S1048576, .i32⟩ : BufTy).Contents (Elt F)),
    ternary main_v34 main_v36 main_v16 main_v37 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v37 main_v38 (broadcastInDim S1048576x1 ![0] bcast_S1048576_S1048576x1_0 : (⟨S1048576, .i32⟩ : BufTy).Contents (Elt F) → (⟨S1048576x1, .i32⟩ : BufTy).Contents (Elt F)),
    binary main_v25 main_v38 main_v39 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    binary main_v32 main_v39 main_v40 (mulf : (⟨S1048576, .f32⟩ : BufTy).Contents (Elt F) → (⟨S1048576, .f32⟩ : BufTy).Contents (Elt F) → (⟨S1048576, .f32⟩ : BufTy).Contents (Elt F)),
    binary main_v17 main_v40 main_v41 (mulf : (⟨S1048576, .f32⟩ : BufTy).Contents (Elt F) → (⟨S1048576, .f32⟩ : BufTy).Contents (Elt F) → (⟨S1048576, .f32⟩ : BufTy).Contents (Elt F)),
    unary main_v41 main_v42 (broadcastInDim S1048576x1 ![0] bcast_S1048576_S1048576x1_0 : (⟨S1048576, .f32⟩ : BufTy).Contents (Elt F) → (⟨S1048576x1, .f32⟩ : BufTy).Contents (Elt F)),
    nullary main_call3_c (constantI S_ 32 0#32),
    unary main_call3_c main_call3_v0 (broadcastInDim S1048576 ![] bcast_S_S1048576 : (⟨S_, .i32⟩ : BufTy).Contents (Elt F) → (⟨S1048576, .i32⟩ : BufTy).Contents (Elt F)),
    binary main_v12 main_call3_v0 main_call3_v1 (cmpi .slt : (⟨S1048576, .i32⟩ : BufTy).Contents (Elt F) → (⟨S1048576, .i32⟩ : BufTy).Contents (Elt F) → (⟨S1048576, .i1⟩ : BufTy).Contents (Elt F)),
    nullary main_call3_c_0 (constantI S_ 32 1024#32),
    unary main_call3_c_0 main_call3_v2 (broadcastInDim S1048576 ![] bcast_S_S1048576 : (⟨S_, .i32⟩ : BufTy).Contents (Elt F) → (⟨S1048576, .i32⟩ : BufTy).Contents (Elt F)),
    binary main_v12 main_call3_v2 main_call3_v3 (addi : (⟨S1048576, .i32⟩ : BufTy).Contents (Elt F) → (⟨S1048576, .i32⟩ : BufTy).Contents (Elt F) → (⟨S1048576, .i32⟩ : BufTy).Contents (Elt F)),
    ternary main_call3_v1 main_call3_v3 main_v12 main_call3_v4 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_call3_v4 main_call3_v5 (broadcastInDim S1048576x1 ![0] bcast_S1048576_S1048576x1_0 : (⟨S1048576, .i32⟩ : BufTy).Contents (Elt F) → (⟨S1048576x1, .i32⟩ : BufTy).Contents (Elt F)),
    nullary main_call3_c_1 (constantI S1 32 1023#32),
    nullary main_call3_c_2 (constantI S_ 32 0#32),
    unary main_call3_c_2 main_call3_v6 (broadcastInDim S1048576x1 ![] bcast_S_S1048576x1 : (⟨S_, .i32⟩ : BufTy).Contents (Elt F) → (⟨S1048576x1, .i32⟩ : BufTy).Contents (Elt F)),
    binary main_call3_v5 main_call3_v6 main_call3_v7 (cmpi .sge : (⟨S1048576x1, .i32⟩ : BufTy).Contents (Elt F) → (⟨S1048576x1, .i32⟩ : BufTy).Contents (Elt F) → (⟨S1048576x1, .i1⟩ : BufTy).Contents (Elt F)),
    unary main_call3_c_1 main_call3_v8 (broadcastInDim S1x1 ![1] bcast_S1_S1x1_1 : (⟨S1, .i32⟩ : BufTy).Contents (Elt F) → (⟨S1x1, .i32⟩ : BufTy).Contents (Elt F)),
    unary main_call3_v8 main_call3_v9 (broadcastInDim S1048576x1 ![0, 1] bcast_S1x1_S1048576x1_0_1 : (⟨S1x1, .i32⟩ : BufTy).Contents (Elt F) → (⟨S1048576x1, .i32⟩ : BufTy).Contents (Elt F)),
    binary main_call3_v5 main_call3_v9 main_call3_v10 (cmpi .sle : (⟨S1048576x1, .i32⟩ : BufTy).Contents (Elt F) → (⟨S1048576x1, .i32⟩ : BufTy).Contents (Elt F) → (⟨S1048576x1, .i1⟩ : BufTy).Contents (Elt F)),
    binary main_call3_v7 main_call3_v10 main_call3_v11 (andi : (⟨S1048576x1, .i1⟩ : BufTy).Contents (Elt F) → (⟨S1048576x1, .i1⟩ : BufTy).Contents (Elt F) → (⟨S1048576x1, .i1⟩ : BufTy).Contents (Elt F)),
    nullary main_call3_c_3 (constantI S_ 1 1#1),
    binary main_call3_v11 main_call3_c_3 main_call3_v12 ((fun x v => Host.reduce IntOp.andi x v reducesTo_S1048576x1_S1048576_d1 h_S_) : (⟨S1048576x1, .i1⟩ : BufTy).Contents (Elt F) → (⟨S_, .i1⟩ : BufTy).Contents (Elt F) → (⟨S1048576, .i1⟩ : BufTy).Contents (Elt F)),
    binary main_v9 main_call3_v5 main_call3_v13 ((fun x i => Host.gather gather_S1024x256_S1048576x1_S1048576x256_1_0_n_n_0_1_1256 x i) : (⟨S1024x256, .f32⟩ : BufTy).Contents (Elt F) → (⟨S1048576x1, .i32⟩ : BufTy).Contents (Elt F) → (⟨S1048576x256, .f32⟩ : BufTy).Contents (Elt F)),
    unary main_call3_v12 main_call3_v14 (broadcastInDim S1048576x256 ![0] bcast_S1048576_S1048576x256_0 : (⟨S1048576, .i1⟩ : BufTy).Contents (Elt F) → (⟨S1048576x256, .i1⟩ : BufTy).Contents (Elt F)),
    nullary main_call3_cst (constant S_ .f32 0x7FC00000#32),
    unary main_call3_cst main_call3_v15 (broadcastInDim S1048576x256 ![] bcast_S_S1048576x256 : (⟨S_, .f32⟩ : BufTy).Contents (Elt F) → (⟨S1048576x256, .f32⟩ : BufTy).Contents (Elt F)),
    ternary main_call3_v14 main_call3_v13 main_call3_v15 main_v43 (select : (⟨S1048576x256, .i1⟩ : BufTy).Contents (Elt F) → (⟨S1048576x256, .f32⟩ : BufTy).Contents (Elt F) → (⟨S1048576x256, .f32⟩ : BufTy).Contents (Elt F) → (⟨S1048576x256, .f32⟩ : BufTy).Contents (Elt F)),
    unary main_v42 main_v44 (broadcastInDim S1048576x256 ![0, 1] bcast_S1048576x1_S1048576x256_0_1 : (⟨S1048576x1, .f32⟩ : BufTy).Contents (Elt F) → (⟨S1048576x256, .f32⟩ : BufTy).Contents (Elt F)),
    binary main_v44 main_v43 main_v45 (mulf : (⟨S1048576x256, .f32⟩ : BufTy).Contents (Elt F) → (⟨S1048576x256, .f32⟩ : BufTy).Contents (Elt F) → (⟨S1048576x256, .f32⟩ : BufTy).Contents (Elt F)),
    nullary main_cst_6 (constant S_ .f32 0x00000000#32),
    unary main_cst_6 main_v46 (broadcastInDim S1024x256 ![] bcast_S_S1024x256 : (⟨S_, .f32⟩ : BufTy).Contents (Elt F) → (⟨S1024x256, .f32⟩ : BufTy).Contents (Elt F)),
    unary main_v16 main_v47 (broadcastInDim S1048576x1 ![0] bcast_S1048576_S1048576x1_0 : (⟨S1048576, .i32⟩ : BufTy).Contents (Elt F) → (⟨S1048576x1, .i32⟩ : BufTy).Contents (Elt F)),
    ternary main_v46 main_v47 main_v45 main_v48 ((fun x i u => Host.scatterAdd scatter_S1024x256_S1048576x1_S1048576x256_1_0_0_1 x i u) : (⟨S1024x256, .f32⟩ : BufTy).Contents (Elt F) → (⟨S1048576x1, .i32⟩ : BufTy).Contents (Elt F) → (⟨S1048576x256, .f32⟩ : BufTy).Contents (Elt F) → (⟨S1024x256, .f32⟩ : BufTy).Contents (Elt F)),
    unary main_v41 main_v49 (broadcastInDim S1048576x1 ![0] bcast_S1048576_S1048576x1_0 : (⟨S1048576, .f32⟩ : BufTy).Contents (Elt F) → (⟨S1048576x1, .f32⟩ : BufTy).Contents (Elt F)),
    nullary main_call4_c (constantI S_ 32 0#32),
    unary main_call4_c main_call4_v0 (broadcastInDim S1048576 ![] bcast_S_S1048576 : (⟨S_, .i32⟩ : BufTy).Contents (Elt F) → (⟨S1048576, .i32⟩ : BufTy).Contents (Elt F)),
    binary main_v12 main_call4_v0 main_call4_v1 (cmpi .slt : (⟨S1048576, .i32⟩ : BufTy).Contents (Elt F) → (⟨S1048576, .i32⟩ : BufTy).Contents (Elt F) → (⟨S1048576, .i1⟩ : BufTy).Contents (Elt F)),
    nullary main_call4_c_0 (constantI S_ 32 1024#32),
    unary main_call4_c_0 main_call4_v2 (broadcastInDim S1048576 ![] bcast_S_S1048576 : (⟨S_, .i32⟩ : BufTy).Contents (Elt F) → (⟨S1048576, .i32⟩ : BufTy).Contents (Elt F)),
    binary main_v12 main_call4_v2 main_call4_v3 (addi : (⟨S1048576, .i32⟩ : BufTy).Contents (Elt F) → (⟨S1048576, .i32⟩ : BufTy).Contents (Elt F) → (⟨S1048576, .i32⟩ : BufTy).Contents (Elt F)),
    ternary main_call4_v1 main_call4_v3 main_v12 main_call4_v4 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_call4_v4 main_call4_v5 (broadcastInDim S1048576x1 ![0] bcast_S1048576_S1048576x1_0 : (⟨S1048576, .i32⟩ : BufTy).Contents (Elt F) → (⟨S1048576x1, .i32⟩ : BufTy).Contents (Elt F)),
    nullary main_call4_c_1 (constantI S1 32 1023#32),
    nullary main_call4_c_2 (constantI S_ 32 0#32),
    unary main_call4_c_2 main_call4_v6 (broadcastInDim S1048576x1 ![] bcast_S_S1048576x1 : (⟨S_, .i32⟩ : BufTy).Contents (Elt F) → (⟨S1048576x1, .i32⟩ : BufTy).Contents (Elt F)),
    binary main_call4_v5 main_call4_v6 main_call4_v7 (cmpi .sge : (⟨S1048576x1, .i32⟩ : BufTy).Contents (Elt F) → (⟨S1048576x1, .i32⟩ : BufTy).Contents (Elt F) → (⟨S1048576x1, .i1⟩ : BufTy).Contents (Elt F)),
    unary main_call4_c_1 main_call4_v8 (broadcastInDim S1x1 ![1] bcast_S1_S1x1_1 : (⟨S1, .i32⟩ : BufTy).Contents (Elt F) → (⟨S1x1, .i32⟩ : BufTy).Contents (Elt F)),
    unary main_call4_v8 main_call4_v9 (broadcastInDim S1048576x1 ![0, 1] bcast_S1x1_S1048576x1_0_1 : (⟨S1x1, .i32⟩ : BufTy).Contents (Elt F) → (⟨S1048576x1, .i32⟩ : BufTy).Contents (Elt F)),
    binary main_call4_v5 main_call4_v9 main_call4_v10 (cmpi .sle : (⟨S1048576x1, .i32⟩ : BufTy).Contents (Elt F) → (⟨S1048576x1, .i32⟩ : BufTy).Contents (Elt F) → (⟨S1048576x1, .i1⟩ : BufTy).Contents (Elt F)),
    binary main_call4_v7 main_call4_v10 main_call4_v11 (andi : (⟨S1048576x1, .i1⟩ : BufTy).Contents (Elt F) → (⟨S1048576x1, .i1⟩ : BufTy).Contents (Elt F) → (⟨S1048576x1, .i1⟩ : BufTy).Contents (Elt F)),
    nullary main_call4_c_3 (constantI S_ 1 1#1),
    binary main_call4_v11 main_call4_c_3 main_call4_v12 ((fun x v => Host.reduce IntOp.andi x v reducesTo_S1048576x1_S1048576_d1 h_S_) : (⟨S1048576x1, .i1⟩ : BufTy).Contents (Elt F) → (⟨S_, .i1⟩ : BufTy).Contents (Elt F) → (⟨S1048576, .i1⟩ : BufTy).Contents (Elt F)),
    binary main_v48 main_call4_v5 main_call4_v13 ((fun x i => Host.gather gather_S1024x256_S1048576x1_S1048576x256_1_0_n_n_0_1_1256 x i) : (⟨S1024x256, .f32⟩ : BufTy).Contents (Elt F) → (⟨S1048576x1, .i32⟩ : BufTy).Contents (Elt F) → (⟨S1048576x256, .f32⟩ : BufTy).Contents (Elt F)),
    unary main_call4_v12 main_call4_v14 (broadcastInDim S1048576x256 ![0] bcast_S1048576_S1048576x256_0 : (⟨S1048576, .i1⟩ : BufTy).Contents (Elt F) → (⟨S1048576x256, .i1⟩ : BufTy).Contents (Elt F)),
    nullary main_call4_cst (constant S_ .f32 0x7FC00000#32),
    unary main_call4_cst main_call4_v15 (broadcastInDim S1048576x256 ![] bcast_S_S1048576x256 : (⟨S_, .f32⟩ : BufTy).Contents (Elt F) → (⟨S1048576x256, .f32⟩ : BufTy).Contents (Elt F)),
    ternary main_call4_v14 main_call4_v13 main_call4_v15 main_v50 (select : (⟨S1048576x256, .i1⟩ : BufTy).Contents (Elt F) → (⟨S1048576x256, .f32⟩ : BufTy).Contents (Elt F) → (⟨S1048576x256, .f32⟩ : BufTy).Contents (Elt F) → (⟨S1048576x256, .f32⟩ : BufTy).Contents (Elt F)) ]

/-- The second half's operations, each over the buffers themselves. -/
abbrev opsP1 : List (HloOp τ sig (Elt F)) :=
  [ unary main_v49 main_v51 (broadcastInDim S1048576x256 ![0, 1] bcast_S1048576x1_S1048576x256_0_1 : (⟨S1048576x1, .f32⟩ : BufTy).Contents (Elt F) → (⟨S1048576x256, .f32⟩ : BufTy).Contents (Elt F)),
    binary main_v51 main_v50 main_v52 (mulf : (⟨S1048576x256, .f32⟩ : BufTy).Contents (Elt F) → (⟨S1048576x256, .f32⟩ : BufTy).Contents (Elt F) → (⟨S1048576x256, .f32⟩ : BufTy).Contents (Elt F)),
    nullary main_cst_7 (constant S_ .f32 0x00000000#32),
    unary main_cst_7 main_v53 (broadcastInDim S1024x256 ![] bcast_S_S1024x256 : (⟨S_, .f32⟩ : BufTy).Contents (Elt F) → (⟨S1024x256, .f32⟩ : BufTy).Contents (Elt F)),
    unary main_v16 main_v54 (broadcastInDim S1048576x1 ![0] bcast_S1048576_S1048576x1_0 : (⟨S1048576, .i32⟩ : BufTy).Contents (Elt F) → (⟨S1048576x1, .i32⟩ : BufTy).Contents (Elt F)),
    ternary main_v53 main_v54 main_v52 main_v55 ((fun x i u => Host.scatterAdd scatter_S1024x256_S1048576x1_S1048576x256_1_0_0_1 x i u) : (⟨S1024x256, .f32⟩ : BufTy).Contents (Elt F) → (⟨S1048576x1, .i32⟩ : BufTy).Contents (Elt F) → (⟨S1048576x256, .f32⟩ : BufTy).Contents (Elt F) → (⟨S1024x256, .f32⟩ : BufTy).Contents (Elt F)),
    binary main_v55 main_arg7 main_v56 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg8 main_v57 (broadcastInDim S1x256 ![1] bcast_S256_S1x256_1 : (⟨S256, .f32⟩ : BufTy).Contents (Elt F) → (⟨S1x256, .f32⟩ : BufTy).Contents (Elt F)),
    unary main_v57 main_v58 (broadcastInDim S1024x256 ![0, 1] bcast_S1x256_S1024x256_0_1 : (⟨S1x256, .f32⟩ : BufTy).Contents (Elt F) → (⟨S1024x256, .f32⟩ : BufTy).Contents (Elt F)),
    binary main_v56 main_v58 main_v59 (addf : (⟨S1024x256, .f32⟩ : BufTy).Contents (Elt F) → (⟨S1024x256, .f32⟩ : BufTy).Contents (Elt F) → (⟨S1024x256, .f32⟩ : BufTy).Contents (Elt F)),
    nullary main_call5_cst (constant S_ .f32 0x00000000#32),
    unary main_call5_cst main_call5_v0 (broadcastInDim S1024x256 ![] bcast_S_S1024x256 : (⟨S_, .f32⟩ : BufTy).Contents (Elt F) → (⟨S1024x256, .f32⟩ : BufTy).Contents (Elt F)),
    binary main_v59 main_call5_v0 main_v60 (maximumf : (⟨S1024x256, .f32⟩ : BufTy).Contents (Elt F) → (⟨S1024x256, .f32⟩ : BufTy).Contents (Elt F) → (⟨S1024x256, .f32⟩ : BufTy).Contents (Elt F)),
    binary main_v60 main_arg9 main_v61 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S1024x256 ![0, 1] bcast_S1x256_S1024x256_0_1 : (⟨S1x256, .f32⟩ : BufTy).Contents (Elt F) → (⟨S1024x256, .f32⟩ : BufTy).Contents (Elt F)),
    binary main_v61 main_v63 main_v64 (addf : (⟨S1024x256, .f32⟩ : BufTy).Contents (Elt F) → (⟨S1024x256, .f32⟩ : BufTy).Contents (Elt F) → (⟨S1024x256, .f32⟩ : BufTy).Contents (Elt F)),
    nullary main_call6_cst (constant S_ .f32 0x00000000#32),
    unary main_call6_cst main_call6_v0 (broadcastInDim S1024x256 ![] bcast_S_S1024x256 : (⟨S_, .f32⟩ : BufTy).Contents (Elt F) → (⟨S1024x256, .f32⟩ : BufTy).Contents (Elt F)),
    binary main_v64 main_call6_v0 main_v65 (maximumf : (⟨S1024x256, .f32⟩ : BufTy).Contents (Elt F) → (⟨S1024x256, .f32⟩ : BufTy).Contents (Elt F) → (⟨S1024x256, .f32⟩ : BufTy).Contents (Elt F)),
    binary main_v65 main_v9 main_v66 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F)),
    binary main_v66 main_arg11 main_v67 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    unary main_arg12 main_v68 (broadcastInDim S1x128 ![1] bcast_S128_S1x128_1 : (⟨S128, .f32⟩ : BufTy).Contents (Elt F) → (⟨S1x128, .f32⟩ : BufTy).Contents (Elt F)),
    unary main_v68 main_v69 (broadcastInDim S1024x128 ![0, 1] bcast_S1x128_S1024x128_0_1 : (⟨S1x128, .f32⟩ : BufTy).Contents (Elt F) → (⟨S1024x128, .f32⟩ : BufTy).Contents (Elt F)),
    binary main_v67 main_v69 main_v70 (addf : (⟨S1024x128, .f32⟩ : BufTy).Contents (Elt F) → (⟨S1024x128, .f32⟩ : BufTy).Contents (Elt F) → (⟨S1024x128, .f32⟩ : BufTy).Contents (Elt F)),
    nullary main_call7_cst (constant S_ .f32 0x00000000#32),
    unary main_call7_cst main_call7_v0 (broadcastInDim S1024x128 ![] bcast_S_S1024x128 : (⟨S_, .f32⟩ : BufTy).Contents (Elt F) → (⟨S1024x128, .f32⟩ : BufTy).Contents (Elt F)),
    binary main_v70 main_call7_v0 main_v71 (maximumf : (⟨S1024x128, .f32⟩ : BufTy).Contents (Elt F) → (⟨S1024x128, .f32⟩ : BufTy).Contents (Elt F) → (⟨S1024x128, .f32⟩ : BufTy).Contents (Elt F)),
    binary main_v71 main_arg13 main_v72 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg14 main_v73 (broadcastInDim S1x128 ![1] bcast_S128_S1x128_1 : (⟨S128, .f32⟩ : BufTy).Contents (Elt F) → (⟨S1x128, .f32⟩ : BufTy).Contents (Elt F)),
    unary main_v73 main_v74 (broadcastInDim S1024x128 ![0, 1] bcast_S1x128_S1024x128_0_1 : (⟨S1x128, .f32⟩ : BufTy).Contents (Elt F) → (⟨S1024x128, .f32⟩ : BufTy).Contents (Elt F)),
    binary main_v72 main_v74 main_v75 (addf : (⟨S1024x128, .f32⟩ : BufTy).Contents (Elt F) → (⟨S1024x128, .f32⟩ : BufTy).Contents (Elt F) → (⟨S1024x128, .f32⟩ : BufTy).Contents (Elt F)),
    nullary main_call8_cst (constant S_ .f32 0x00000000#32),
    unary main_call8_cst main_call8_v0 (broadcastInDim S1024x128 ![] bcast_S_S1024x128 : (⟨S_, .f32⟩ : BufTy).Contents (Elt F) → (⟨S1024x128, .f32⟩ : BufTy).Contents (Elt F)),
    binary main_v75 main_call8_v0 main_v76 (maximumf : (⟨S1024x128, .f32⟩ : BufTy).Contents (Elt F) → (⟨S1024x128, .f32⟩ : BufTy).Contents (Elt F) → (⟨S1024x128, .f32⟩ : BufTy).Contents (Elt F)),
    binary main_v76 main_arg15 main_v77 ((fun l r => Host.dotGeneral dot_S1024x128_S128x1_S1024x1_1_0_0_1_n_n none l r) : (⟨S1024x128, .f32⟩ : BufTy).Contents (Elt F) → (⟨S128x1, .f32⟩ : BufTy).Contents (Elt F) → (⟨S1024x1, .f32⟩ : BufTy).Contents (Elt F)),
    unary main_arg16 main_v78 (broadcastInDim S1x1 ![1] bcast_S1_S1x1_1 : (⟨S1, .f32⟩ : BufTy).Contents (Elt F) → (⟨S1x1, .f32⟩ : BufTy).Contents (Elt F)),
    unary main_v78 main_v79 (broadcastInDim S1024x1 ![0, 1] bcast_S1x1_S1024x1_0_1 : (⟨S1x1, .f32⟩ : BufTy).Contents (Elt F) → (⟨S1024x1, .f32⟩ : BufTy).Contents (Elt F)),
    binary main_v77 main_v79 main_v80 (addf : (⟨S1024x1, .f32⟩ : BufTy).Contents (Elt F) → (⟨S1024x1, .f32⟩ : BufTy).Contents (Elt F) → (⟨S1024x1, .f32⟩ : BufTy).Contents (Elt F)),
    reshape main_arg2 main_v81 rfl shapeCasts_S1024_S1024x1,
    binary main_v80 main_v81 main_v82 (mulf : (⟨S1024x1, .f32⟩ : BufTy).Contents (Elt F) → (⟨S1024x1, .f32⟩ : BufTy).Contents (Elt F) → (⟨S1024x1, .f32⟩ : BufTy).Contents (Elt F)) ]

/-- The whole line, each operation over the buffers themselves. -/
abbrev opsP : List (HloOp τ sig (Elt F)) := opsP0 ++ opsP1

-- two spellings of one reduction over an axis are the same reduction, whatever its fold over the axis computes
attribute [local irreducible] Host.reduce

set_option maxRecDepth 16384 in
/-- A typed reference made of a literal buffer moves contents along an equation of a type with itself: the two
    spellings of an operation are one operation. -/
theorem ops0_eq : (ops0 : List (HloOp τ sig (Elt F))) = opsP0 := rfl

set_option maxRecDepth 16384 in
theorem ops1_eq : (ops1 : List (HloOp τ sig (Elt F))) = opsP1 := rfl

theorem ops_eq : (ops : List (HloOp τ sig (Elt F))) = opsP := by
  simp only [ops, opsP, ops0_eq, ops1_eq]

/-- Position by position, the buffer each operation of the line writes. -/
abbrev Ws : List (Ref sig .tc) :=
  [ main_v0, main_v1, main_v2, main_v3, main_call0_cst, main_call0_v0, main_v4, main_v5,
    main_v6, main_v7, main_v8, main_call1_cst, main_call1_v0, main_v9, main_v10, main_v11,
    main_v12, main_v13, main_v14, main_v15, main_v16, main_v17, main_cst, main_v18,
    main_v19, main_v20, main_cst_0, main_v21, main_v22, main_cst_1, main_v23, main_v24,
    main_cst_2, main_call2_v0, main_call2_v1, main_v25, main_c, main_v26, main_v27, main_c_3,
    main_v28, main_v29, main_v30, main_v31, main_v32, main_c_4, main_v33, main_v34,
    main_c_5, main_v35, main_v36, main_v37, main_v38, main_v39, main_v40, main_v41,
    main_v42, main_call3_c, main_call3_v0, main_call3_v1, main_call3_c_0, main_call3_v2, main_call3_v3, main_call3_v4,
    main_call3_v5, main_call3_c_1, main_call3_c_2, main_call3_v6, main_call3_v7, main_call3_v8, main_call3_v9, main_call3_v10,
    main_call3_v11, main_call3_c_3, main_call3_v12, main_call3_v13, main_call3_v14, main_call3_cst, main_call3_v15, main_v43,
    main_v44, main_v45, main_cst_6, main_v46, main_v47, main_v48, main_v49, main_call4_c,
    main_call4_v0, main_call4_v1, main_call4_c_0, main_call4_v2, main_call4_v3, main_call4_v4, main_call4_v5, main_call4_c_1,
    main_call4_c_2, main_call4_v6, main_call4_v7, main_call4_v8, main_call4_v9, main_call4_v10, main_call4_v11, main_call4_c_3,
    main_call4_v12, main_call4_v13, main_call4_v14, main_call4_cst, main_call4_v15, main_v50, main_v51, main_v52,
    main_cst_7, main_v53, main_v54, main_v55, main_v56, main_v57, main_v58, main_v59,
    main_call5_cst, main_call5_v0, main_v60, main_v61, main_v62, main_v63, main_v64, main_call6_cst,
    main_call6_v0, main_v65, main_v66, main_v67, main_v68, main_v69, main_v70, main_call7_cst,
    main_call7_v0, main_v71, main_v72, main_v73, main_v74, main_v75, main_call8_cst, main_call8_v0,
    main_v76, main_v77, main_v78, main_v79, main_v80, main_v81, main_v82 ]

set_option maxRecDepth 16384 in
theorem hW : WritesAre (opsP (F := F)) Ws :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))))))))))))))))))))))))))))

set_option maxRecDepth 16384 in
theorem main_part0_eq (c : Dev nD) : main_part0 (F := F) c = seq ops0 := rfl

set_option maxRecDepth 16384 in
theorem main_part1_eq (c : Dev nD) : main_part1 (F := F) c = seq ops1 := rfl

theorem main_eq (c : Dev nD) : main (F := F) c = seq opsP := by
  rw [← ops_eq]
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem opsP0_sub : (opsP0 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., reshape_bufs_sub .., nullary_bufs_sub ..,
    reshape_bufs_sub .., unary_bufs_sub .., reshape_bufs_sub .., reshape_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

set_option maxRecDepth 16384 in
theorem opsP1_sub : (opsP1 : List (HloOp τ sig (Elt F))).Forall fun op => op.bufs ⊆ tcRefs τ sig :=
  ⟨unary_bufs_sub .., binary_bufs_sub .., nullary_bufs_sub .., unary_bufs_sub .., unary_bufs_sub .., ternary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., reshape_bufs_sub .., binary_bufs_sub ..⟩

theorem opsP_sub : (opsP : List (HloOp τ sig (Elt F))).Forall fun op => op.bufs ⊆ tcRefs τ sig :=
  List.forall_iff_forall_mem.mpr fun op h => by
    simp only [opsP, List.mem_append] at h
    rcases h with h | h
    exacts [List.forall_iff_forall_mem.mp opsP0_sub op h, List.forall_iff_forall_mem.mp opsP1_sub op h]

end Cert.ReferenceIdeal.RefRun

end
-- ==== Proof.RefTerm.lean ====
import proofs.«106343_g48172353192219_fold_wed_c4_272_4_alg».proof.ReferenceIdeal
import proofs.«106343_g48172353192219_fold_wed_c4_272_4_alg».proof.Proof.Spec

/-!
# The reference program's values, one definition each

One definition per value of the reference's `@main`, in program order, the bodies of the functions it calls
written out at their call sites: each value is the operation of its line applied to the values of its operands.
A value that depends on an argument array is a function of the seventeen arrays `A`; the index tables and the
constants are closed terms.  `term A` is the program's result.
-/

noncomputable section

namespace Cert.ReferenceIdeal.RefTerm

open Cert.ReferenceIdeal Idealize.ShloMosaic
open Cert.ReferenceIdeal.Facts₀ Cert.ReferenceIdeal.Facts

def v0 [Facts] (A : Cert.Gcn.Args) : FVec Ideal S1024x64 .f32 :=
  Host.dotGeneral (F := Ideal) dot_S1024x128_S128x64_S1024x64_1_0_0_1_n_n none A.a0 A.a3

def v1 [Facts] (A : Cert.Gcn.Args) : FVec Ideal S1x64 .f32 :=
  broadcastInDim S1x64 ![1] bcast_S64_S1x64_1 A.a4

def v2 [Facts] (A : Cert.Gcn.Args) : FVec Ideal S1024x64 .f32 :=
  broadcastInDim S1024x64 ![0, 1] bcast_S1x64_S1024x64_0_1 (v1 A)

def v3 [Facts] (A : Cert.Gcn.Args) : FVec Ideal S1024x64 .f32 :=
  addf (F := Ideal) (v0 A) (v2 A)

def call0_cst [Facts] : FVec Ideal S_ .f32 :=
  constant (F := Ideal) S_ .f32 0x00000000#32

def call0_v0 [Facts] : FVec Ideal S1024x64 .f32 :=
  broadcastInDim S1024x64 ![] bcast_S_S1024x64 call0_cst

def v4 [Facts] (A : Cert.Gcn.Args) : FVec Ideal S1024x64 .f32 :=
  maximumf (F := Ideal) (v3 A) call0_v0

def v5 [Facts] (A : Cert.Gcn.Args) : FVec Ideal S1024x256 .f32 :=
  Host.dotGeneral (F := Ideal) dot_S1024x64_S64x256_S1024x256_1_0_0_1_n_n none (v4 A) A.a5

def v6 [Facts] (A : Cert.Gcn.Args) : FVec Ideal S1x256 .f32 :=
  broadcastInDim S1x256 ![1] bcast_S256_S1x256_1 A.a6

def v7 [Facts] (A : Cert.Gcn.Args) : FVec Ideal S1024x256 .f32 :=
  broadcastInDim S1024x256 ![0, 1] bcast_S1x256_S1024x256_0_1 (v6 A)

def v8 [Facts] (A : Cert.Gcn.Args) : FVec Ideal S1024x256 .f32 :=
  addf (F := Ideal) (v5 A) (v7 A)

def call1_cst [Facts] : FVec Ideal S_ .f32 :=
  constant (F := Ideal) S_ .f32 0x00000000#32

def call1_v0 [Facts] : FVec Ideal S1024x256 .f32 :=
  broadcastInDim S1024x256 ![] bcast_S_S1024x256 call1_cst

def v9 [Facts] (A : Cert.Gcn.Args) : FVec Ideal S1024x256 .f32 :=
  maximumf (F := Ideal) (v8 A) call1_v0

def v10 [Facts] : IVec S1024 32 :=
  iotaInDim S1024 32 0

def v11 [Facts] : IVec S1024x1024 32 :=
  broadcastInDim S1024x1024 ![0] bcast_S1024_S1024x1024_0 v10

def v12 [Facts] : IVec S1048576 32 :=
  shapeCast S1048576 v11 shapeCasts_S1024x1024_S1048576

def v13 [Facts] : IVec S1024 32 :=
  iotaInDim S1024 32 0

def v14 [Facts] : IVec S1x1024 32 :=
  shapeCast S1x1024 v13 shapeCasts_S1024_S1x1024

def v15 [Facts] : IVec S1024x1024 32 :=
  broadcastInDim S1024x1024 ![0, 1] bcast_S1x1024_S1024x1024_0_1 v14

def v16 [Facts] : IVec S1048576 32 :=
  shapeCast S1048576 v15 shapeCasts_S1024x1024_S1048576

def v17 [Facts] (A : Cert.Gcn.Args) : FVec Ideal S1048576 .f32 :=
  shapeCast S1048576 A.a1 shapeCasts_S1024x1024_S1048576

def cst [Facts] : FVec Ideal S_ .f32 :=
  constant (F := Ideal) S_ .f32 0x00000000#32

def v18 [Facts] : FVec Ideal S1024 .f32 :=
  broadcastInDim S1024 ![] bcast_S_S1024 cst

def v19 [Facts] : IVec S1048576x1 32 :=
  broadcastInDim S1048576x1 ![0] bcast_S1048576_S1048576x1_0 v16

def v20 [Facts] (A : Cert.Gcn.Args) : FVec Ideal S1024 .f32 :=
  Host.scatterAdd (F := Ideal) scatter_S1024_S1048576x1_S1048576_n_0_0_1 v18 v19 (v17 A)

def cst_0 [Facts] : FVec Ideal S_ .f32 :=
  constant (F := Ideal) S_ .f32 0x00000000#32

def v21 [Facts] : FVec Ideal S1024 .f32 :=
  broadcastInDim S1024 ![] bcast_S_S1024 cst_0

def v22 [Facts] (A : Cert.Gcn.Args) : IVec S1024 1 :=
  cmpf (F := Ideal) .ogt (v20 A) v21

def cst_1 [Facts] : FVec Ideal S_ .f32 :=
  constant (F := Ideal) S_ .f32 0xBF000000#32

def v23 [Facts] : FVec Ideal S1024 .f32 :=
  broadcastInDim S1024 ![] bcast_S_S1024 cst_1

def v24 [Facts] (A : Cert.Gcn.Args) : FVec Ideal S1024 .f32 :=
  Host.powf (F := Ideal) (v20 A) v23

def cst_2 [Facts] : FVec Ideal S_ .f32 :=
  constant (F := Ideal) S_ .f32 0x00000000#32

def call2_v0 [Facts] : FVec Ideal S_ .f32 :=
  id cst_2

def call2_v1 [Facts] : FVec Ideal S1024 .f32 :=
  broadcastInDim S1024 ![] bcast_S_S1024 call2_v0

def v25 [Facts] (A : Cert.Gcn.Args) : FVec Ideal S1024 .f32 :=
  select (v22 A) (v24 A) call2_v1

def c [Facts] : IVec S_ 32 :=
  constantI S_ 32 0#32

def v26 [Facts] : IVec S1048576 32 :=
  broadcastInDim S1048576 ![] bcast_S_S1048576 c

def v27 [Facts] : IVec S1048576 1 :=
  cmpi .slt v12 v26

def c_3 [Facts] : IVec S_ 32 :=
  constantI S_ 32 1024#32

def v28 [Facts] : IVec S1048576 32 :=
  broadcastInDim S1048576 ![] bcast_S_S1048576 c_3

def v29 [Facts] : IVec S1048576 32 :=
  addi v12 v28

def v30 [Facts] : IVec S1048576 32 :=
  select v27 v29 v12

def v31 [Facts] : IVec S1048576x1 32 :=
  broadcastInDim S1048576x1 ![0] bcast_S1048576_S1048576x1_0 v30

def v32 [Facts] (A : Cert.Gcn.Args) : FVec Ideal S1048576 .f32 :=
  Host.gather gather_S1024_S1048576x1_S1048576_n_0_n_n_0_1_1 (v25 A) v31

def c_4 [Facts] : IVec S_ 32 :=
  constantI S_ 32 0#32

def v33 [Facts] : IVec S1048576 32 :=
  broadcastInDim S1048576 ![] bcast_S_S1048576 c_4

def v34 [Facts] : IVec S1048576 1 :=
  cmpi .slt v16 v33

def c_5 [Facts] : IVec S_ 32 :=
  constantI S_ 32 1024#32

def v35 [Facts] : IVec S1048576 32 :=
  broadcastInDim S1048576 ![] bcast_S_S1048576 c_5

def v36 [Facts] : IVec S1048576 32 :=
  addi v16 v35

def v37 [Facts] : IVec S1048576 32 :=
  select v34 v36 v16

def v38 [Facts] : IVec S1048576x1 32 :=
  broadcastInDim S1048576x1 ![0] bcast_S1048576_S1048576x1_0 v37

def v39 [Facts] (A : Cert.Gcn.Args) : FVec Ideal S1048576 .f32 :=
  Host.gather gather_S1024_S1048576x1_S1048576_n_0_n_n_0_1_1 (v25 A) v38

def v40 [Facts] (A : Cert.Gcn.Args) : FVec Ideal S1048576 .f32 :=
  mulf (F := Ideal) (v32 A) (v39 A)

def v41 [Facts] (A : Cert.Gcn.Args) : FVec Ideal S1048576 .f32 :=
  mulf (F := Ideal) (v17 A) (v40 A)

def v42 [Facts] (A : Cert.Gcn.Args) : FVec Ideal S1048576x1 .f32 :=
  broadcastInDim S1048576x1 ![0] bcast_S1048576_S1048576x1_0 (v41 A)

def call3_c [Facts] : IVec S_ 32 :=
  constantI S_ 32 0#32

def call3_v0 [Facts] : IVec S1048576 32 :=
  broadcastInDim S1048576 ![] bcast_S_S1048576 call3_c

def call3_v1 [Facts] : IVec S1048576 1 :=
  cmpi .slt v12 call3_v0

def call3_c_0 [Facts] : IVec S_ 32 :=
  constantI S_ 32 1024#32

def call3_v2 [Facts] : IVec S1048576 32 :=
  broadcastInDim S1048576 ![] bcast_S_S1048576 call3_c_0

def call3_v3 [Facts] : IVec S1048576 32 :=
  addi v12 call3_v2

def call3_v4 [Facts] : IVec S1048576 32 :=
  select call3_v1 call3_v3 v12

def call3_v5 [Facts] : IVec S1048576x1 32 :=
  broadcastInDim S1048576x1 ![0] bcast_S1048576_S1048576x1_0 call3_v4

def call3_c_1 [Facts] : IVec S1 32 :=
  constantI S1 32 1023#32

def call3_c_2 [Facts] : IVec S_ 32 :=
  constantI S_ 32 0#32

def call3_v6 [Facts] : IVec S1048576x1 32 :=
  broadcastInDim S1048576x1 ![] bcast_S_S1048576x1 call3_c_2

def call3_v7 [Facts] : IVec S1048576x1 1 :=
  cmpi .sge call3_v5 call3_v6

def call3_v8 [Facts] : IVec S1x1 32 :=
  broadcastInDim S1x1 ![1] bcast_S1_S1x1_1 call3_c_1

def call3_v9 [Facts] : IVec S1048576x1 32 :=
  broadcastInDim S1048576x1 ![0, 1] bcast_S1x1_S1048576x1_0_1 call3_v8

def call3_v10 [Facts] : IVec S1048576x1 1 :=
  cmpi .sle call3_v5 call3_v9

def call3_v11 [Facts] : IVec S1048576x1 1 :=
  andi call3_v7 call3_v10

def call3_c_3 [Facts] : IVec S_ 1 :=
  constantI S_ 1 1#1

def call3_v12 [Facts] : IVec S1048576 1 :=
  Host.reduce IntOp.andi call3_v11 call3_c_3 reducesTo_S1048576x1_S1048576_d1 h_S_

def call3_v13 [Facts] (A : Cert.Gcn.Args) : FVec Ideal S1048576x256 .f32 :=
  Host.gather gather_S1024x256_S1048576x1_S1048576x256_1_0_n_n_0_1_1256 (v9 A) call3_v5

def call3_v14 [Facts] : IVec S1048576x256 1 :=
  broadcastInDim S1048576x256 ![0] bcast_S1048576_S1048576x256_0 call3_v12

def call3_cst [Facts] : FVec Ideal S_ .f32 :=
  constant (F := Ideal) S_ .f32 0x7FC00000#32

def call3_v15 [Facts] : FVec Ideal S1048576x256 .f32 :=
  broadcastInDim S1048576x256 ![] bcast_S_S1048576x256 call3_cst

def v43 [Facts] (A : Cert.Gcn.Args) : FVec Ideal S1048576x256 .f32 :=
  select call3_v14 (call3_v13 A) call3_v15

def v44 [Facts] (A : Cert.Gcn.Args) : FVec Ideal S1048576x256 .f32 :=
  broadcastInDim S1048576x256 ![0, 1] bcast_S1048576x1_S1048576x256_0_1 (v42 A)

def v45 [Facts] (A : Cert.Gcn.Args) : FVec Ideal S1048576x256 .f32 :=
  mulf (F := Ideal) (v44 A) (v43 A)

def cst_6 [Facts] : FVec Ideal S_ .f32 :=
  constant (F := Ideal) S_ .f32 0x00000000#32

def v46 [Facts] : FVec Ideal S1024x256 .f32 :=
  broadcastInDim S1024x256 ![] bcast_S_S1024x256 cst_6

def v47 [Facts] : IVec S1048576x1 32 :=
  broadcastInDim S1048576x1 ![0] bcast_S1048576_S1048576x1_0 v16

def v48 [Facts] (A : Cert.Gcn.Args) : FVec Ideal S1024x256 .f32 :=
  Host.scatterAdd (F := Ideal) scatter_S1024x256_S1048576x1_S1048576x256_1_0_0_1 v46 v47 (v45 A)

def v49 [Facts] (A : Cert.Gcn.Args) : FVec Ideal S1048576x1 .f32 :=
  broadcastInDim S1048576x1 ![0] bcast_S1048576_S1048576x1_0 (v41 A)

def call4_c [Facts] : IVec S_ 32 :=
  constantI S_ 32 0#32

def call4_v0 [Facts] : IVec S1048576 32 :=
  broadcastInDim S1048576 ![] bcast_S_S1048576 call4_c

def call4_v1 [Facts] : IVec S1048576 1 :=
  cmpi .slt v12 call4_v0

def call4_c_0 [Facts] : IVec S_ 32 :=
  constantI S_ 32 1024#32

def call4_v2 [Facts] : IVec S1048576 32 :=
  broadcastInDim S1048576 ![] bcast_S_S1048576 call4_c_0

def call4_v3 [Facts] : IVec S1048576 32 :=
  addi v12 call4_v2

def call4_v4 [Facts] : IVec S1048576 32 :=
  select call4_v1 call4_v3 v12

def call4_v5 [Facts] : IVec S1048576x1 32 :=
  broadcastInDim S1048576x1 ![0] bcast_S1048576_S1048576x1_0 call4_v4

def call4_c_1 [Facts] : IVec S1 32 :=
  constantI S1 32 1023#32

def call4_c_2 [Facts] : IVec S_ 32 :=
  constantI S_ 32 0#32

def call4_v6 [Facts] : IVec S1048576x1 32 :=
  broadcastInDim S1048576x1 ![] bcast_S_S1048576x1 call4_c_2

def call4_v7 [Facts] : IVec S1048576x1 1 :=
  cmpi .sge call4_v5 call4_v6

def call4_v8 [Facts] : IVec S1x1 32 :=
  broadcastInDim S1x1 ![1] bcast_S1_S1x1_1 call4_c_1

def call4_v9 [Facts] : IVec S1048576x1 32 :=
  broadcastInDim S1048576x1 ![0, 1] bcast_S1x1_S1048576x1_0_1 call4_v8

def call4_v10 [Facts] : IVec S1048576x1 1 :=
  cmpi .sle call4_v5 call4_v9

def call4_v11 [Facts] : IVec S1048576x1 1 :=
  andi call4_v7 call4_v10

def call4_c_3 [Facts] : IVec S_ 1 :=
  constantI S_ 1 1#1

def call4_v12 [Facts] : IVec S1048576 1 :=
  Host.reduce IntOp.andi call4_v11 call4_c_3 reducesTo_S1048576x1_S1048576_d1 h_S_

def call4_v13 [Facts] (A : Cert.Gcn.Args) : FVec Ideal S1048576x256 .f32 :=
  Host.gather gather_S1024x256_S1048576x1_S1048576x256_1_0_n_n_0_1_1256 (v48 A) call4_v5

def call4_v14 [Facts] : IVec S1048576x256 1 :=
  broadcastInDim S1048576x256 ![0] bcast_S1048576_S1048576x256_0 call4_v12

def call4_cst [Facts] : FVec Ideal S_ .f32 :=
  constant (F := Ideal) S_ .f32 0x7FC00000#32

def call4_v15 [Facts] : FVec Ideal S1048576x256 .f32 :=
  broadcastInDim S1048576x256 ![] bcast_S_S1048576x256 call4_cst

def v50 [Facts] (A : Cert.Gcn.Args) : FVec Ideal S1048576x256 .f32 :=
  select call4_v14 (call4_v13 A) call4_v15

def v51 [Facts] (A : Cert.Gcn.Args) : FVec Ideal S1048576x256 .f32 :=
  broadcastInDim S1048576x256 ![0, 1] bcast_S1048576x1_S1048576x256_0_1 (v49 A)

def v52 [Facts] (A : Cert.Gcn.Args) : FVec Ideal S1048576x256 .f32 :=
  mulf (F := Ideal) (v51 A) (v50 A)

def cst_7 [Facts] : FVec Ideal S_ .f32 :=
  constant (F := Ideal) S_ .f32 0x00000000#32

def v53 [Facts] : FVec Ideal S1024x256 .f32 :=
  broadcastInDim S1024x256 ![] bcast_S_S1024x256 cst_7

def v54 [Facts] : IVec S1048576x1 32 :=
  broadcastInDim S1048576x1 ![0] bcast_S1048576_S1048576x1_0 v16

def v55 [Facts] (A : Cert.Gcn.Args) : FVec Ideal S1024x256 .f32 :=
  Host.scatterAdd (F := Ideal) scatter_S1024x256_S1048576x1_S1048576x256_1_0_0_1 v53 v54 (v52 A)

def v56 [Facts] (A : Cert.Gcn.Args) : FVec Ideal S1024x256 .f32 :=
  Host.dotGeneral (F := Ideal) dot_S1024x256_S256x256_S1024x256_1_0_0_1_n_n none (v55 A) A.a7

def v57 [Facts] (A : Cert.Gcn.Args) : FVec Ideal S1x256 .f32 :=
  broadcastInDim S1x256 ![1] bcast_S256_S1x256_1 A.a8

def v58 [Facts] (A : Cert.Gcn.Args) : FVec Ideal S1024x256 .f32 :=
  broadcastInDim S1024x256 ![0, 1] bcast_S1x256_S1024x256_0_1 (v57 A)

def v59 [Facts] (A : Cert.Gcn.Args) : FVec Ideal S1024x256 .f32 :=
  addf (F := Ideal) (v56 A) (v58 A)

def call5_cst [Facts] : FVec Ideal S_ .f32 :=
  constant (F := Ideal) S_ .f32 0x00000000#32

def call5_v0 [Facts] : FVec Ideal S1024x256 .f32 :=
  broadcastInDim S1024x256 ![] bcast_S_S1024x256 call5_cst

def v60 [Facts] (A : Cert.Gcn.Args) : FVec Ideal S1024x256 .f32 :=
  maximumf (F := Ideal) (v59 A) call5_v0

def v61 [Facts] (A : Cert.Gcn.Args) : FVec Ideal S1024x256 .f32 :=
  Host.dotGeneral (F := Ideal) dot_S1024x256_S256x256_S1024x256_1_0_0_1_n_n none (v60 A) A.a9

def v62 [Facts] (A : Cert.Gcn.Args) : FVec Ideal S1x256 .f32 :=
  broadcastInDim S1x256 ![1] bcast_S256_S1x256_1 A.a10

def v63 [Facts] (A : Cert.Gcn.Args) : FVec Ideal S1024x256 .f32 :=
  broadcastInDim S1024x256 ![0, 1] bcast_S1x256_S1024x256_0_1 (v62 A)

def v64 [Facts] (A : Cert.Gcn.Args) : FVec Ideal S1024x256 .f32 :=
  addf (F := Ideal) (v61 A) (v63 A)

def call6_cst [Facts] : FVec Ideal S_ .f32 :=
  constant (F := Ideal) S_ .f32 0x00000000#32

def call6_v0 [Facts] : FVec Ideal S1024x256 .f32 :=
  broadcastInDim S1024x256 ![] bcast_S_S1024x256 call6_cst

def v65 [Facts] (A : Cert.Gcn.Args) : FVec Ideal S1024x256 .f32 :=
  maximumf (F := Ideal) (v64 A) call6_v0

def v66 [Facts] (A : Cert.Gcn.Args) : FVec Ideal S1024x512 .f32 :=
  concatenate S1024x512 1 [⟨S1024x256, (v65 A)⟩, ⟨S1024x256, (v9 A)⟩] concatenates_S1024x256_S1024x256_S1024x512_d1

def v67 [Facts] (A : Cert.Gcn.Args) : FVec Ideal S1024x128 .f32 :=
  Host.dotGeneral (F := Ideal) dot_S1024x512_S512x128_S1024x128_1_0_0_1_n_n none (v66 A) A.a11

def v68 [Facts] (A : Cert.Gcn.Args) : FVec Ideal S1x128 .f32 :=
  broadcastInDim S1x128 ![1] bcast_S128_S1x128_1 A.a12

def v69 [Facts] (A : Cert.Gcn.Args) : FVec Ideal S1024x128 .f32 :=
  broadcastInDim S1024x128 ![0, 1] bcast_S1x128_S1024x128_0_1 (v68 A)

def v70 [Facts] (A : Cert.Gcn.Args) : FVec Ideal S1024x128 .f32 :=
  addf (F := Ideal) (v67 A) (v69 A)

def call7_cst [Facts] : FVec Ideal S_ .f32 :=
  constant (F := Ideal) S_ .f32 0x00000000#32

def call7_v0 [Facts] : FVec Ideal S1024x128 .f32 :=
  broadcastInDim S1024x128 ![] bcast_S_S1024x128 call7_cst

def v71 [Facts] (A : Cert.Gcn.Args) : FVec Ideal S1024x128 .f32 :=
  maximumf (F := Ideal) (v70 A) call7_v0

def v72 [Facts] (A : Cert.Gcn.Args) : FVec Ideal S1024x128 .f32 :=
  Host.dotGeneral (F := Ideal) dot_S1024x128_S128x128_S1024x128_1_0_0_1_n_n none (v71 A) A.a13

def v73 [Facts] (A : Cert.Gcn.Args) : FVec Ideal S1x128 .f32 :=
  broadcastInDim S1x128 ![1] bcast_S128_S1x128_1 A.a14

def v74 [Facts] (A : Cert.Gcn.Args) : FVec Ideal S1024x128 .f32 :=
  broadcastInDim S1024x128 ![0, 1] bcast_S1x128_S1024x128_0_1 (v73 A)

def v75 [Facts] (A : Cert.Gcn.Args) : FVec Ideal S1024x128 .f32 :=
  addf (F := Ideal) (v72 A) (v74 A)

def call8_cst [Facts] : FVec Ideal S_ .f32 :=
  constant (F := Ideal) S_ .f32 0x00000000#32

def call8_v0 [Facts] : FVec Ideal S1024x128 .f32 :=
  broadcastInDim S1024x128 ![] bcast_S_S1024x128 call8_cst

def v76 [Facts] (A : Cert.Gcn.Args) : FVec Ideal S1024x128 .f32 :=
  maximumf (F := Ideal) (v75 A) call8_v0

def v77 [Facts] (A : Cert.Gcn.Args) : FVec Ideal S1024x1 .f32 :=
  Host.dotGeneral (F := Ideal) dot_S1024x128_S128x1_S1024x1_1_0_0_1_n_n none (v76 A) A.a15

def v78 [Facts] (A : Cert.Gcn.Args) : FVec Ideal S1x1 .f32 :=
  broadcastInDim S1x1 ![1] bcast_S1_S1x1_1 A.a16

def v79 [Facts] (A : Cert.Gcn.Args) : FVec Ideal S1024x1 .f32 :=
  broadcastInDim S1024x1 ![0, 1] bcast_S1x1_S1024x1_0_1 (v78 A)

def v80 [Facts] (A : Cert.Gcn.Args) : FVec Ideal S1024x1 .f32 :=
  addf (F := Ideal) (v77 A) (v79 A)

def v81 [Facts] (A : Cert.Gcn.Args) : FVec Ideal S1024x1 .f32 :=
  shapeCast S1024x1 A.a2 shapeCasts_S1024_S1024x1

def v82 [Facts] (A : Cert.Gcn.Args) : FVec Ideal S1024x1 .f32 :=
  mulf (F := Ideal) (v80 A) (v81 A)

/-- The reference's result `[1024, 1]`. -/
def term [Facts] (A : Cert.Gcn.Args) : FVec Ideal S1024x1 .f32 := v82 A

end Cert.ReferenceIdeal.RefTerm

end
-- ==== Proof.RefRunVal0.lean ====
import proofs.«106343_g48172353192219_fold_wed_c4_272_4_alg».proof.Proof.RefRunOps
import proofs.«106343_g48172353192219_fold_wed_c4_272_4_alg».proof.Proof.RefTerm

/-!
# What every buffer holds at the end of the reference's line

No operation of the line writes an argument's buffer, each other buffer is written once and read only afterwards, so
at the end of the line every buffer holds its value of the table of definitions, by induction along the program:
the buffer an operation writes holds the operation's function of what its operand buffers hold at the end.  This
module has the arguments and the first 38 operations.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefRunSsa

/-- The seventeen argument arrays as a valuation holds them. -/
def argsOfV (V : Valuation τ sig (Elt Ideal)) : Cert.Gcn.Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)

theorem keep_arg0 (V : Valuation τ sig (Elt Ideal)) :
    after (opsP (F := Ideal)) V (Proc.devRef .tc main_arg0) = V (Proc.devRef .tc main_arg0) :=
  after_keep _ _ hW V main_arg0 (by decide)

theorem val_arg0 (V : Valuation τ sig (Elt Ideal)) :
    after (opsP (F := Ideal)) V (Proc.devRef .tc main_arg0) = (argsOfV V).a0 := keep_arg0 V

theorem keep_arg1 (V : Valuation τ sig (Elt Ideal)) :
    after (opsP (F := Ideal)) V (Proc.devRef .tc main_arg1) = V (Proc.devRef .tc main_arg1) :=
  after_keep _ _ hW V main_arg1 (by decide)

theorem val_arg1 (V : Valuation τ sig (Elt Ideal)) :
    after (opsP (F := Ideal)) V (Proc.devRef .tc main_arg1) = (argsOfV V).a1 := keep_arg1 V

theorem keep_arg2 (V : Valuation τ sig (Elt Ideal)) :
    after (opsP (F := Ideal)) V (Proc.devRef .tc main_arg2) = V (Proc.devRef .tc main_arg2) :=
  after_keep _ _ hW V main_arg2 (by decide)

theorem val_arg2 (V : Valuation τ sig (Elt Ideal)) :
    after (opsP (F := Ideal)) V (Proc.devRef .tc main_arg2) = (argsOfV V).a2 := keep_arg2 V

theorem keep_arg3 (V : Valuation τ sig (Elt Ideal)) :
    after (opsP (F := Ideal)) V (Proc.devRef .tc main_arg3) = V (Proc.devRef .tc main_arg3) :=
  after_keep _ _ hW V main_arg3 (by decide)

theorem val_arg3 (V : Valuation τ sig (Elt Ideal)) :
    after (opsP (F := Ideal)) V (Proc.devRef .tc main_arg3) = (argsOfV V).a3 := keep_arg3 V

theorem keep_arg4 (V : Valuation τ sig (Elt Ideal)) :
    after (opsP (F := Ideal)) V (Proc.devRef .tc main_arg4) = V (Proc.devRef .tc main_arg4) :=
  after_keep _ _ hW V main_arg4 (by decide)

theorem val_arg4 (V : Valuation τ sig (Elt Ideal)) :
    after (opsP (F := Ideal)) V (Proc.devRef .tc main_arg4) = (argsOfV V).a4 := keep_arg4 V

theorem keep_arg5 (V : Valuation τ sig (Elt Ideal)) :
    after (opsP (F := Ideal)) V (Proc.devRef .tc main_arg5) = V (Proc.devRef .tc main_arg5) :=
  after_keep _ _ hW V main_arg5 (by decide)

theorem val_arg5 (V : Valuation τ sig (Elt Ideal)) :
    after (opsP (F := Ideal)) V (Proc.devRef .tc main_arg5) = (argsOfV V).a5 := keep_arg5 V

theorem keep_arg6 (V : Valuation τ sig (Elt Ideal)) :
    after (opsP (F := Ideal)) V (Proc.devRef .tc main_arg6) = V (Proc.devRef .tc main_arg6) :=
  after_keep _ _ hW V main_arg6 (by decide)

theorem val_arg6 (V : Valuation τ sig (Elt Ideal)) :
    after (opsP (F := Ideal)) V (Proc.devRef .tc main_arg6) = (argsOfV V).a6 := keep_arg6 V

theorem keep_arg7 (V : Valuation τ sig (Elt Ideal)) :
    after (opsP (F := Ideal)) V (Proc.devRef .tc main_arg7) = V (Proc.devRef .tc main_arg7) :=
  after_keep _ _ hW V main_arg7 (by decide)

theorem val_arg7 (V : Valuation τ sig (Elt Ideal)) :
    after (opsP (F := Ideal)) V (Proc.devRef .tc main_arg7) = (argsOfV V).a7 := keep_arg7 V

theorem keep_arg8 (V : Valuation τ sig (Elt Ideal)) :
    after (opsP (F := Ideal)) V (Proc.devRef .tc main_arg8) = V (Proc.devRef .tc main_arg8) :=
  after_keep _ _ hW V main_arg8 (by decide)

theorem val_arg8 (V : Valuation τ sig (Elt Ideal)) :
    after (opsP (F := Ideal)) V (Proc.devRef .tc main_arg8) = (argsOfV V).a8 := keep_arg8 V

theorem keep_arg9 (V : Valuation τ sig (Elt Ideal)) :
    after (opsP (F := Ideal)) V (Proc.devRef .tc main_arg9) = V (Proc.devRef .tc main_arg9) :=
  after_keep _ _ hW V main_arg9 (by decide)

theorem val_arg9 (V : Valuation τ sig (Elt Ideal)) :
    after (opsP (F := Ideal)) V (Proc.devRef .tc main_arg9) = (argsOfV V).a9 := keep_arg9 V

theorem keep_arg10 (V : Valuation τ sig (Elt Ideal)) :
    after (opsP (F := Ideal)) V (Proc.devRef .tc main_arg10) = V (Proc.devRef .tc main_arg10) :=
  after_keep _ _ hW V main_arg10 (by decide)

theorem val_arg10 (V : Valuation τ sig (Elt Ideal)) :
    after (opsP (F := Ideal)) V (Proc.devRef .tc main_arg10) = (argsOfV V).a10 := keep_arg10 V

theorem keep_arg11 (V : Valuation τ sig (Elt Ideal)) :
    after (opsP (F := Ideal)) V (Proc.devRef .tc main_arg11) = V (Proc.devRef .tc main_arg11) :=
  after_keep _ _ hW V main_arg11 (by decide)

theorem val_arg11 (V : Valuation τ sig (Elt Ideal)) :
    after (opsP (F := Ideal)) V (Proc.devRef .tc main_arg11) = (argsOfV V).a11 := keep_arg11 V

theorem keep_arg12 (V : Valuation τ sig (Elt Ideal)) :
    after (opsP (F := Ideal)) V (Proc.devRef .tc main_arg12) = V (Proc.devRef .tc main_arg12) :=
  after_keep _ _ hW V main_arg12 (by decide)

theorem val_arg12 (V : Valuation τ sig (Elt Ideal)) :
    after (opsP (F := Ideal)) V (Proc.devRef .tc main_arg12) = (argsOfV V).a12 := keep_arg12 V

theorem keep_arg13 (V : Valuation τ sig (Elt Ideal)) :
    after (opsP (F := Ideal)) V (Proc.devRef .tc main_arg13) = V (Proc.devRef .tc main_arg13) :=
  after_keep _ _ hW V main_arg13 (by decide)

theorem val_arg13 (V : Valuation τ sig (Elt Ideal)) :
    after (opsP (F := Ideal)) V (Proc.devRef .tc main_arg13) = (argsOfV V).a13 := keep_arg13 V

theorem keep_arg14 (V : Valuation τ sig (Elt Ideal)) :
    after (opsP (F := Ideal)) V (Proc.devRef .tc main_arg14) = V (Proc.devRef .tc main_arg14) :=
  after_keep _ _ hW V main_arg14 (by decide)

theorem val_arg14 (V : Valuation τ sig (Elt Ideal)) :
    after (opsP (F := Ideal)) V (Proc.devRef .tc main_arg14) = (argsOfV V).a14 := keep_arg14 V

theorem keep_arg15 (V : Valuation τ sig (Elt Ideal)) :
    after (opsP (F := Ideal)) V (Proc.devRef .tc main_arg15) = V (Proc.devRef .tc main_arg15) :=
  after_keep _ _ hW V main_arg15 (by decide)

theorem val_arg15 (V : Valuation τ sig (Elt Ideal)) :
    after (opsP (F := Ideal)) V (Proc.devRef .tc main_arg15) = (argsOfV V).a15 := keep_arg15 V

theorem keep_arg16 (V : Valuation τ sig (Elt Ideal)) :
    after (opsP (F := Ideal)) V (Proc.devRef .tc main_arg16) = V (Proc.devRef .tc main_arg16) :=
  after_keep _ _ hW V main_arg16 (by decide)

theorem val_arg16 (V : Valuation τ sig (Elt Ideal)) :
    after (opsP (F := Ideal)) V (Proc.devRef .tc main_arg16) = (argsOfV V).a16 := keep_arg16 V

theorem val_v0 (V : Valuation τ sig (Elt Ideal)) :
    after (opsP (F := Ideal)) V (Proc.devRef .tc main_v0) = RefTerm.v0 (argsOfV V) := by
  rw [binary_step (opsP (F := Ideal)) Ws hW V 0 main_arg0 main_arg3 main_v0 _ _ _ _ rfl rfl (by decide) (by decide) (by decide),
    val_arg0 V,
    val_arg3 V]
  rfl

theorem val_v1 (V : Valuation τ sig (Elt Ideal)) :
    after (opsP (F := Ideal)) V (Proc.devRef .tc main_v1) = RefTerm.v1 (argsOfV V) := by
  rw [unary_step (opsP (F := Ideal)) Ws hW V 1 main_arg4 main_v1 _ _ _ rfl rfl (by decide) (by decide),
    val_arg4 V]
  rfl

theorem val_v2 (V : Valuation τ sig (Elt Ideal)) :
    after (opsP (F := Ideal)) V (Proc.devRef .tc main_v2) = RefTerm.v2 (argsOfV V) := by
  rw [unary_step (opsP (F := Ideal)) Ws hW V 2 main_v1 main_v2 _ _ _ rfl rfl (by decide) (by decide),
    val_v1 V]
  rfl

theorem val_v3 (V : Valuation τ sig (Elt Ideal)) :
    after (opsP (F := Ideal)) V (Proc.devRef .tc main_v3) = RefTerm.v3 (argsOfV V) := by
  rw [binary_step (opsP (F := Ideal)) Ws hW V 3 main_v0 main_v2 main_v3 _ _ _ _ rfl rfl (by decide) (by decide) (by decide),
    val_v0 V,
    val_v2 V]
  rfl

theorem val_call0_cst (V : Valuation τ sig (Elt Ideal)) :
    after (opsP (F := Ideal)) V (Proc.devRef .tc main_call0_cst) = RefTerm.call0_cst := by
  rw [nullary_step (opsP (F := Ideal)) Ws hW V 4 main_call0_cst _ _ rfl rfl (by decide)]
  rfl

theorem val_call0_v0 (V : Valuation τ sig (Elt Ideal)) :
    after (opsP (F := Ideal)) V (Proc.devRef .tc main_call0_v0) = RefTerm.call0_v0 := by
  rw [unary_step (opsP (F := Ideal)) Ws hW V 5 main_call0_cst main_call0_v0 _ _ _ rfl rfl (by decide) (by decide),
    val_call0_cst V]
  rfl

theorem val_v4 (V : Valuation τ sig (Elt Ideal)) :
    after (opsP (F := Ideal)) V (Proc.devRef .tc main_v4) = RefTerm.v4 (argsOfV V) := by
  rw [binary_step (opsP (F := Ideal)) Ws hW V 6 main_v3 main_call0_v0 main_v4 _ _ _ _ rfl rfl (by decide) (by decide) (by decide),
    val_v3 V,
    val_call0_v0 V]
  rfl

theorem val_v5 (V : Valuation τ sig (Elt Ideal)) :
    after (opsP (F := Ideal)) V (Proc.devRef .tc main_v5) = RefTerm.v5 (argsOfV V) := by
  rw [binary_step (opsP (F := Ideal)) Ws hW V 7 main_v4 main_arg5 main_v5 _ _ _ _ rfl rfl (by decide) (by decide) (by decide),
    val_v4 V,
    val_arg5 V]
  rfl

theorem val_v6 (V : Valuation τ sig (Elt Ideal)) :
    after (opsP (F := Ideal)) V (Proc.devRef .tc main_v6) = RefTerm.v6 (argsOfV V) := by
  rw [unary_step (opsP (F := Ideal)) Ws hW V 8 main_arg6 main_v6 _ _ _ rfl rfl (by decide) (by decide),
    val_arg6 V]
  rfl

theorem val_v7 (V : Valuation τ sig (Elt Ideal)) :
    after (opsP (F := Ideal)) V (Proc.devRef .tc main_v7) = RefTerm.v7 (argsOfV V) := by
  rw [unary_step (opsP (F := Ideal)) Ws hW V 9 main_v6 main_v7 _ _ _ rfl rfl (by decide) (by decide),
    val_v6 V]
  rfl

theorem val_v8 (V : Valuation τ sig (Elt Ideal)) :
    after (opsP (F := Ideal)) V (Proc.devRef .tc main_v8) = RefTerm.v8 (argsOfV V) := by
  rw [binary_step (opsP (F := Ideal)) Ws hW V 10 main_v5 main_v7 main_v8 _ _ _ _ rfl rfl (by decide) (by decide) (by decide),
    val_v5 V,
    val_v7 V]
  rfl

theorem val_call1_cst (V : Valuation τ sig (Elt Ideal)) :
    after (opsP (F := Ideal)) V (Proc.devRef .tc main_call1_cst) = RefTerm.call1_cst := by
  rw [nullary_step (opsP (F := Ideal)) Ws hW V 11 main_call1_cst _ _ rfl rfl (by decide)]
  rfl

theorem val_call1_v0 (V : Valuation τ sig (Elt Ideal)) :
    after (opsP (F := Ideal)) V (Proc.devRef .tc main_call1_v0) = RefTerm.call1_v0 := by
  rw [unary_step (opsP (F := Ideal)) Ws hW V 12 main_call1_cst main_call1_v0 _ _ _ rfl rfl (by decide) (by decide),
    val_call1_cst V]
  rfl

theorem val_v9 (V : Valuation τ sig (Elt Ideal)) :
    after (opsP (F := Ideal)) V (Proc.devRef .tc main_v9) = RefTerm.v9 (argsOfV V) := by
  rw [binary_step (opsP (F := Ideal)) Ws hW V 13 main_v8 main_call1_v0 main_v9 _ _ _ _ rfl rfl (by decide) (by decide) (by decide),
    val_v8 V,
    val_call1_v0 V]
  rfl

theorem val_v10 (V : Valuation τ sig (Elt Ideal)) :
    after (opsP (F := Ideal)) V (Proc.devRef .tc main_v10) = RefTerm.v10 := by
  rw [nullary_step (opsP (F := Ideal)) Ws hW V 14 main_v10 _ _ rfl rfl (by decide)]
  rfl

theorem val_v11 (V : Valuation τ sig (Elt Ideal)) :
    after (opsP (F := Ideal)) V (Proc.devRef .tc main_v11) = RefTerm.v11 := by
  rw [unary_step (opsP (F := Ideal)) Ws hW V 15 main_v10 main_v11 _ _ _ rfl rfl (by decide) (by decide),
    val_v10 V]
  rfl

theorem val_v12 (V : Valuation τ sig (Elt Ideal)) :
    after (opsP (F := Ideal)) V (Proc.devRef .tc main_v12) = RefTerm.v12 := by
  rw [reshape_step (opsP (F := Ideal)) Ws hW V 16 main_v11 main_v12 _ _ _ _ rfl rfl (by decide) (by decide),
    val_v11 V]
  rfl

theorem val_v13 (V : Valuation τ sig (Elt Ideal)) :
    after (opsP (F := Ideal)) V (Proc.devRef .tc main_v13) = RefTerm.v13 := by
  rw [nullary_step (opsP (F := Ideal)) Ws hW V 17 main_v13 _ _ rfl rfl (by decide)]
  rfl

theorem val_v14 (V : Valuation τ sig (Elt Ideal)) :
    after (opsP (F := Ideal)) V (Proc.devRef .tc main_v14) = RefTerm.v14 := by
  rw [reshape_step (opsP (F := Ideal)) Ws hW V 18 main_v13 main_v14 _ _ _ _ rfl rfl (by decide) (by decide),
    val_v13 V]
  rfl

theorem val_v15 (V : Valuation τ sig (Elt Ideal)) :
    after (opsP (F := Ideal)) V (Proc.devRef .tc main_v15) = RefTerm.v15 := by
  rw [unary_step (opsP (F := Ideal)) Ws hW V 19 main_v14 main_v15 _ _ _ rfl rfl (by decide) (by decide),
    val_v14 V]
  rfl

theorem val_v16 (V : Valuation τ sig (Elt Ideal)) :
    after (opsP (F := Ideal)) V (Proc.devRef .tc main_v16) = RefTerm.v16 := by
  rw [reshape_step (opsP (F := Ideal)) Ws hW V 20 main_v15 main_v16 _ _ _ _ rfl rfl (by decide) (by decide),
    val_v15 V]
  rfl

theorem val_v17 (V : Valuation τ sig (Elt Ideal)) :
    after (opsP (F := Ideal)) V (Proc.devRef .tc main_v17) = RefTerm.v17 (argsOfV V) := by
  rw [reshape_step (opsP (F := Ideal)) Ws hW V 21 main_arg1 main_v17 _ _ _ _ rfl rfl (by decide) (by decide),
    val_arg1 V]
  rfl

theorem val_cst (V : Valuation τ sig (Elt Ideal)) :
    after (opsP (F := Ideal)) V (Proc.devRef .tc main_cst) = RefTerm.cst := by
  rw [nullary_step (opsP (F := Ideal)) Ws hW V 22 main_cst _ _ rfl rfl (by decide)]
  rfl

theorem val_v18 (V : Valuation τ sig (Elt Ideal)) :
    after (opsP (F := Ideal)) V (Proc.devRef .tc main_v18) = RefTerm.v18 := by
  rw [unary_step (opsP (F := Ideal)) Ws hW V 23 main_cst main_v18 _ _ _ rfl rfl (by decide) (by decide),
    val_cst V]
  rfl

theorem val_v19 (V : Valuation τ sig (Elt Ideal)) :
    after (opsP (F := Ideal)) V (Proc.devRef .tc main_v19) = RefTerm.v19 := by
  rw [unary_step (opsP (F := Ideal)) Ws hW V 24 main_v16 main_v19 _ _ _ rfl rfl (by decide) (by decide),
    val_v16 V]
  rfl

theorem val_v20 (V : Valuation τ sig (Elt Ideal)) :
    after (opsP (F := Ideal)) V (Proc.devRef .tc main_v20) = RefTerm.v20 (argsOfV V) := by
  rw [ternary_step (opsP (F := Ideal)) Ws hW V 25 main_v18 main_v19 main_v17 main_v20 _ _ _ _ _ rfl rfl (by decide) (by decide) (by decide) (by decide),
    val_v18 V,
    val_v19 V,
    val_v17 V]
  rfl

theorem val_cst_0 (V : Valuation τ sig (Elt Ideal)) :
    after (opsP (F := Ideal)) V (Proc.devRef .tc main_cst_0) = RefTerm.cst_0 := by
  rw [nullary_step (opsP (F := Ideal)) Ws hW V 26 main_cst_0 _ _ rfl rfl (by decide)]
  rfl

theorem val_v21 (V : Valuation τ sig (Elt Ideal)) :
    after (opsP (F := Ideal)) V (Proc.devRef .tc main_v21) = RefTerm.v21 := by
  rw [unary_step (opsP (F := Ideal)) Ws hW V 27 main_cst_0 main_v21 _ _ _ rfl rfl (by decide) (by decide),
    val_cst_0 V]
  rfl

theorem val_v22 (V : Valuation τ sig (Elt Ideal)) :
    after (opsP (F := Ideal)) V (Proc.devRef .tc main_v22) = RefTerm.v22 (argsOfV V) := by
  rw [binary_step (opsP (F := Ideal)) Ws hW V 28 main_v20 main_v21 main_v22 _ _ _ _ rfl rfl (by decide) (by decide) (by decide),
    val_v20 V,
    val_v21 V]
  rfl

theorem val_cst_1 (V : Valuation τ sig (Elt Ideal)) :
    after (opsP (F := Ideal)) V (Proc.devRef .tc main_cst_1) = RefTerm.cst_1 := by
  rw [nullary_step (opsP (F := Ideal)) Ws hW V 29 main_cst_1 _ _ rfl rfl (by decide)]
  rfl

theorem val_v23 (V : Valuation τ sig (Elt Ideal)) :
    after (opsP (F := Ideal)) V (Proc.devRef .tc main_v23) = RefTerm.v23 := by
  rw [unary_step (opsP (F := Ideal)) Ws hW V 30 main_cst_1 main_v23 _ _ _ rfl rfl (by decide) (by decide),
    val_cst_1 V]
  rfl

theorem val_v24 (V : Valuation τ sig (Elt Ideal)) :
    after (opsP (F := Ideal)) V (Proc.devRef .tc main_v24) = RefTerm.v24 (argsOfV V) := by
  rw [binary_step (opsP (F := Ideal)) Ws hW V 31 main_v20 main_v23 main_v24 _ _ _ _ rfl rfl (by decide) (by decide) (by decide),
    val_v20 V,
    val_v23 V]
  rfl

theorem val_cst_2 (V : Valuation τ sig (Elt Ideal)) :
    after (opsP (F := Ideal)) V (Proc.devRef .tc main_cst_2) = RefTerm.cst_2 := by
  rw [nullary_step (opsP (F := Ideal)) Ws hW V 32 main_cst_2 _ _ rfl rfl (by decide)]
  rfl

theorem val_call2_v0 (V : Valuation τ sig (Elt Ideal)) :
    after (opsP (F := Ideal)) V (Proc.devRef .tc main_call2_v0) = RefTerm.call2_v0 := by
  rw [unary_step (opsP (F := Ideal)) Ws hW V 33 main_cst_2 main_call2_v0 _ _ _ rfl rfl (by decide) (by decide),
    val_cst_2 V]
  rfl

theorem val_call2_v1 (V : Valuation τ sig (Elt Ideal)) :
    after (opsP (F := Ideal)) V (Proc.devRef .tc main_call2_v1) = RefTerm.call2_v1 := by
  rw [unary_step (opsP (F := Ideal)) Ws hW V 34 main_call2_v0 main_call2_v1 _ _ _ rfl rfl (by decide) (by decide),
    val_call2_v0 V]
  rfl

theorem val_v25 (V : Valuation τ sig (Elt Ideal)) :
    after (opsP (F := Ideal)) V (Proc.devRef .tc main_v25) = RefTerm.v25 (argsOfV V) := by
  rw [ternary_step (opsP (F := Ideal)) Ws hW V 35 main_v22 main_v24 main_call2_v1 main_v25 _ _ _ _ _ rfl rfl (by decide) (by decide) (by decide) (by decide),
    val_v22 V,
    val_v24 V,
    val_call2_v1 V]
  rfl

theorem val_c (V : Valuation τ sig (Elt Ideal)) :
    after (opsP (F := Ideal)) V (Proc.devRef .tc main_c) = RefTerm.c := by
  rw [nullary_step (opsP (F := Ideal)) Ws hW V 36 main_c _ _ rfl rfl (by decide)]
  rfl

theorem val_v26 (V : Valuation τ sig (Elt Ideal)) :
    after (opsP (F := Ideal)) V (Proc.devRef .tc main_v26) = RefTerm.v26 := by
  rw [unary_step (opsP (F := Ideal)) Ws hW V 37 main_c main_v26 _ _ _ rfl rfl (by decide) (by decide),
    val_c V]
  rfl

end Cert.ReferenceIdeal.RefRun

end
-- ==== Proof.RefRunVal1.lean ====
import proofs.«106343_g48172353192219_fold_wed_c4_272_4_alg».proof.Proof.RefRunVal0

/-!
# What every buffer holds at the end of the reference's line, continued

Operations 38 to 75 of the line, each from the lemmas of its operands.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefRunSsa

theorem val_v27 (V : Valuation τ sig (Elt Ideal)) :
    after (opsP (F := Ideal)) V (Proc.devRef .tc main_v27) = RefTerm.v27 := by
  rw [binary_step (opsP (F := Ideal)) Ws hW V 38 main_v12 main_v26 main_v27 _ _ _ _ rfl rfl (by decide) (by decide) (by decide),
    val_v12 V,
    val_v26 V]
  rfl

theorem val_c_3 (V : Valuation τ sig (Elt Ideal)) :
    after (opsP (F := Ideal)) V (Proc.devRef .tc main_c_3) = RefTerm.c_3 := by
  rw [nullary_step (opsP (F := Ideal)) Ws hW V 39 main_c_3 _ _ rfl rfl (by decide)]
  rfl

theorem val_v28 (V : Valuation τ sig (Elt Ideal)) :
    after (opsP (F := Ideal)) V (Proc.devRef .tc main_v28) = RefTerm.v28 := by
  rw [unary_step (opsP (F := Ideal)) Ws hW V 40 main_c_3 main_v28 _ _ _ rfl rfl (by decide) (by decide),
    val_c_3 V]
  rfl

theorem val_v29 (V : Valuation τ sig (Elt Ideal)) :
    after (opsP (F := Ideal)) V (Proc.devRef .tc main_v29) = RefTerm.v29 := by
  rw [binary_step (opsP (F := Ideal)) Ws hW V 41 main_v12 main_v28 main_v29 _ _ _ _ rfl rfl (by decide) (by decide) (by decide),
    val_v12 V,
    val_v28 V]
  rfl

theorem val_v30 (V : Valuation τ sig (Elt Ideal)) :
    after (opsP (F := Ideal)) V (Proc.devRef .tc main_v30) = RefTerm.v30 := by
  rw [ternary_step (opsP (F := Ideal)) Ws hW V 42 main_v27 main_v29 main_v12 main_v30 _ _ _ _ _ rfl rfl (by decide) (by decide) (by decide) (by decide),
    val_v27 V,
    val_v29 V,
    val_v12 V]
  rfl

theorem val_v31 (V : Valuation τ sig (Elt Ideal)) :
    after (opsP (F := Ideal)) V (Proc.devRef .tc main_v31) = RefTerm.v31 := by
  rw [unary_step (opsP (F := Ideal)) Ws hW V 43 main_v30 main_v31 _ _ _ rfl rfl (by decide) (by decide),
    val_v30 V]
  rfl

theorem val_v32 (V : Valuation τ sig (Elt Ideal)) :
    after (opsP (F := Ideal)) V (Proc.devRef .tc main_v32) = RefTerm.v32 (argsOfV V) := by
  rw [binary_step (opsP (F := Ideal)) Ws hW V 44 main_v25 main_v31 main_v32 _ _ _ _ rfl rfl (by decide) (by decide) (by decide),
    val_v25 V,
    val_v31 V]
  rfl

theorem val_c_4 (V : Valuation τ sig (Elt Ideal)) :
    after (opsP (F := Ideal)) V (Proc.devRef .tc main_c_4) = RefTerm.c_4 := by
  rw [nullary_step (opsP (F := Ideal)) Ws hW V 45 main_c_4 _ _ rfl rfl (by decide)]
  rfl

theorem val_v33 (V : Valuation τ sig (Elt Ideal)) :
    after (opsP (F := Ideal)) V (Proc.devRef .tc main_v33) = RefTerm.v33 := by
  rw [unary_step (opsP (F := Ideal)) Ws hW V 46 main_c_4 main_v33 _ _ _ rfl rfl (by decide) (by decide),
    val_c_4 V]
  rfl

theorem val_v34 (V : Valuation τ sig (Elt Ideal)) :
    after (opsP (F := Ideal)) V (Proc.devRef .tc main_v34) = RefTerm.v34 := by
  rw [binary_step (opsP (F := Ideal)) Ws hW V 47 main_v16 main_v33 main_v34 _ _ _ _ rfl rfl (by decide) (by decide) (by decide),
    val_v16 V,
    val_v33 V]
  rfl

theorem val_c_5 (V : Valuation τ sig (Elt Ideal)) :
    after (opsP (F := Ideal)) V (Proc.devRef .tc main_c_5) = RefTerm.c_5 := by
  rw [nullary_step (opsP (F := Ideal)) Ws hW V 48 main_c_5 _ _ rfl rfl (by decide)]
  rfl

theorem val_v35 (V : Valuation τ sig (Elt Ideal)) :
    after (opsP (F := Ideal)) V (Proc.devRef .tc main_v35) = RefTerm.v35 := by
  rw [unary_step (opsP (F := Ideal)) Ws hW V 49 main_c_5 main_v35 _ _ _ rfl rfl (by decide) (by decide),
    val_c_5 V]
  rfl

theorem val_v36 (V : Valuation τ sig (Elt Ideal)) :
    after (opsP (F := Ideal)) V (Proc.devRef .tc main_v36) = RefTerm.v36 := by
  rw [binary_step (opsP (F := Ideal)) Ws hW V 50 main_v16 main_v35 main_v36 _ _ _ _ rfl rfl (by decide) (by decide) (by decide),
    val_v16 V,
    val_v35 V]
  rfl

theorem val_v37 (V : Valuation τ sig (Elt Ideal)) :
    after (opsP (F := Ideal)) V (Proc.devRef .tc main_v37) = RefTerm.v37 := by
  rw [ternary_step (opsP (F := Ideal)) Ws hW V 51 main_v34 main_v36 main_v16 main_v37 _ _ _ _ _ rfl rfl (by decide) (by decide) (by decide) (by decide),
    val_v34 V,
    val_v36 V,
    val_v16 V]
  rfl

theorem val_v38 (V : Valuation τ sig (Elt Ideal)) :
    after (opsP (F := Ideal)) V (Proc.devRef .tc main_v38) = RefTerm.v38 := by
  rw [unary_step (opsP (F := Ideal)) Ws hW V 52 main_v37 main_v38 _ _ _ rfl rfl (by decide) (by decide),
    val_v37 V]
  rfl

theorem val_v39 (V : Valuation τ sig (Elt Ideal)) :
    after (opsP (F := Ideal)) V (Proc.devRef .tc main_v39) = RefTerm.v39 (argsOfV V) := by
  rw [binary_step (opsP (F := Ideal)) Ws hW V 53 main_v25 main_v38 main_v39 _ _ _ _ rfl rfl (by decide) (by decide) (by decide),
    val_v25 V,
    val_v38 V]
  rfl

theorem val_v40 (V : Valuation τ sig (Elt Ideal)) :
    after (opsP (F := Ideal)) V (Proc.devRef .tc main_v40) = RefTerm.v40 (argsOfV V) := by
  rw [binary_step (opsP (F := Ideal)) Ws hW V 54 main_v32 main_v39 main_v40 _ _ _ _ rfl rfl (by decide) (by decide) (by decide),
    val_v32 V,
    val_v39 V]
  rfl

theorem val_v41 (V : Valuation τ sig (Elt Ideal)) :
    after (opsP (F := Ideal)) V (Proc.devRef .tc main_v41) = RefTerm.v41 (argsOfV V) := by
  rw [binary_step (opsP (F := Ideal)) Ws hW V 55 main_v17 main_v40 main_v41 _ _ _ _ rfl rfl (by decide) (by decide) (by decide),
    val_v17 V,
    val_v40 V]
  rfl

theorem val_v42 (V : Valuation τ sig (Elt Ideal)) :
    after (opsP (F := Ideal)) V (Proc.devRef .tc main_v42) = RefTerm.v42 (argsOfV V) := by
  rw [unary_step (opsP (F := Ideal)) Ws hW V 56 main_v41 main_v42 _ _ _ rfl rfl (by decide) (by decide),
    val_v41 V]
  rfl

theorem val_call3_c (V : Valuation τ sig (Elt Ideal)) :
    after (opsP (F := Ideal)) V (Proc.devRef .tc main_call3_c) = RefTerm.call3_c := by
  rw [nullary_step (opsP (F := Ideal)) Ws hW V 57 main_call3_c _ _ rfl rfl (by decide)]
  rfl

theorem val_call3_v0 (V : Valuation τ sig (Elt Ideal)) :
    after (opsP (F := Ideal)) V (Proc.devRef .tc main_call3_v0) = RefTerm.call3_v0 := by
  rw [unary_step (opsP (F := Ideal)) Ws hW V 58 main_call3_c main_call3_v0 _ _ _ rfl rfl (by decide) (by decide),
    val_call3_c V]
  rfl

theorem val_call3_v1 (V : Valuation τ sig (Elt Ideal)) :
    after (opsP (F := Ideal)) V (Proc.devRef .tc main_call3_v1) = RefTerm.call3_v1 := by
  rw [binary_step (opsP (F := Ideal)) Ws hW V 59 main_v12 main_call3_v0 main_call3_v1 _ _ _ _ rfl rfl (by decide) (by decide) (by decide),
    val_v12 V,
    val_call3_v0 V]
  rfl

theorem val_call3_c_0 (V : Valuation τ sig (Elt Ideal)) :
    after (opsP (F := Ideal)) V (Proc.devRef .tc main_call3_c_0) = RefTerm.call3_c_0 := by
  rw [nullary_step (opsP (F := Ideal)) Ws hW V 60 main_call3_c_0 _ _ rfl rfl (by decide)]
  rfl

theorem val_call3_v2 (V : Valuation τ sig (Elt Ideal)) :
    after (opsP (F := Ideal)) V (Proc.devRef .tc main_call3_v2) = RefTerm.call3_v2 := by
  rw [unary_step (opsP (F := Ideal)) Ws hW V 61 main_call3_c_0 main_call3_v2 _ _ _ rfl rfl (by decide) (by decide),
    val_call3_c_0 V]
  rfl

theorem val_call3_v3 (V : Valuation τ sig (Elt Ideal)) :
    after (opsP (F := Ideal)) V (Proc.devRef .tc main_call3_v3) = RefTerm.call3_v3 := by
  rw [binary_step (opsP (F := Ideal)) Ws hW V 62 main_v12 main_call3_v2 main_call3_v3 _ _ _ _ rfl rfl (by decide) (by decide) (by decide),
    val_v12 V,
    val_call3_v2 V]
  rfl

theorem val_call3_v4 (V : Valuation τ sig (Elt Ideal)) :
    after (opsP (F := Ideal)) V (Proc.devRef .tc main_call3_v4) = RefTerm.call3_v4 := by
  rw [ternary_step (opsP (F := Ideal)) Ws hW V 63 main_call3_v1 main_call3_v3 main_v12 main_call3_v4 _ _ _ _ _ rfl rfl (by decide) (by decide) (by decide) (by decide),
    val_call3_v1 V,
    val_call3_v3 V,
    val_v12 V]
  rfl

theorem val_call3_v5 (V : Valuation τ sig (Elt Ideal)) :
    after (opsP (F := Ideal)) V (Proc.devRef .tc main_call3_v5) = RefTerm.call3_v5 := by
  rw [unary_step (opsP (F := Ideal)) Ws hW V 64 main_call3_v4 main_call3_v5 _ _ _ rfl rfl (by decide) (by decide),
    val_call3_v4 V]
  rfl

theorem val_call3_c_1 (V : Valuation τ sig (Elt Ideal)) :
    after (opsP (F := Ideal)) V (Proc.devRef .tc main_call3_c_1) = RefTerm.call3_c_1 := by
  rw [nullary_step (opsP (F := Ideal)) Ws hW V 65 main_call3_c_1 _ _ rfl rfl (by decide)]
  rfl

theorem val_call3_c_2 (V : Valuation τ sig (Elt Ideal)) :
    after (opsP (F := Ideal)) V (Proc.devRef .tc main_call3_c_2) = RefTerm.call3_c_2 := by
  rw [nullary_step (opsP (F := Ideal)) Ws hW V 66 main_call3_c_2 _ _ rfl rfl (by decide)]
  rfl

theorem val_call3_v6 (V : Valuation τ sig (Elt Ideal)) :
    after (opsP (F := Ideal)) V (Proc.devRef .tc main_call3_v6) = RefTerm.call3_v6 := by
  rw [unary_step (opsP (F := Ideal)) Ws hW V 67 main_call3_c_2 main_call3_v6 _ _ _ rfl rfl (by decide) (by decide),
    val_call3_c_2 V]
  rfl

theorem val_call3_v7 (V : Valuation τ sig (Elt Ideal)) :
    after (opsP (F := Ideal)) V (Proc.devRef .tc main_call3_v7) = RefTerm.call3_v7 := by
  rw [binary_step (opsP (F := Ideal)) Ws hW V 68 main_call3_v5 main_call3_v6 main_call3_v7 _ _ _ _ rfl rfl (by decide) (by decide) (by decide),
    val_call3_v5 V,
    val_call3_v6 V]
  rfl

theorem val_call3_v8 (V : Valuation τ sig (Elt Ideal)) :
    after (opsP (F := Ideal)) V (Proc.devRef .tc main_call3_v8) = RefTerm.call3_v8 := by
  rw [unary_step (opsP (F := Ideal)) Ws hW V 69 main_call3_c_1 main_call3_v8 _ _ _ rfl rfl (by decide) (by decide),
    val_call3_c_1 V]
  rfl

theorem val_call3_v9 (V : Valuation τ sig (Elt Ideal)) :
    after (opsP (F := Ideal)) V (Proc.devRef .tc main_call3_v9) = RefTerm.call3_v9 := by
  rw [unary_step (opsP (F := Ideal)) Ws hW V 70 main_call3_v8 main_call3_v9 _ _ _ rfl rfl (by decide) (by decide),
    val_call3_v8 V]
  rfl

theorem val_call3_v10 (V : Valuation τ sig (Elt Ideal)) :
    after (opsP (F := Ideal)) V (Proc.devRef .tc main_call3_v10) = RefTerm.call3_v10 := by
  rw [binary_step (opsP (F := Ideal)) Ws hW V 71 main_call3_v5 main_call3_v9 main_call3_v10 _ _ _ _ rfl rfl (by decide) (by decide) (by decide),
    val_call3_v5 V,
    val_call3_v9 V]
  rfl

theorem val_call3_v11 (V : Valuation τ sig (Elt Ideal)) :
    after (opsP (F := Ideal)) V (Proc.devRef .tc main_call3_v11) = RefTerm.call3_v11 := by
  rw [binary_step (opsP (F := Ideal)) Ws hW V 72 main_call3_v7 main_call3_v10 main_call3_v11 _ _ _ _ rfl rfl (by decide) (by decide) (by decide),
    val_call3_v7 V,
    val_call3_v10 V]
  rfl

theorem val_call3_c_3 (V : Valuation τ sig (Elt Ideal)) :
    after (opsP (F := Ideal)) V (Proc.devRef .tc main_call3_c_3) = RefTerm.call3_c_3 := by
  rw [nullary_step (opsP (F := Ideal)) Ws hW V 73 main_call3_c_3 _ _ rfl rfl (by decide)]
  rfl

theorem val_call3_v12 (V : Valuation τ sig (Elt Ideal)) :
    after (opsP (F := Ideal)) V (Proc.devRef .tc main_call3_v12) = RefTerm.call3_v12 := by
  rw [binary_step (opsP (F := Ideal)) Ws hW V 74 main_call3_v11 main_call3_c_3 main_call3_v12 _ _ _ _ rfl rfl (by decide) (by decide) (by decide),
    val_call3_v11 V,
    val_call3_c_3 V]
  rfl

theorem val_call3_v13 (V : Valuation τ sig (Elt Ideal)) :
    after (opsP (F := Ideal)) V (Proc.devRef .tc main_call3_v13) = RefTerm.call3_v13 (argsOfV V) := by
  rw [binary_step (opsP (F := Ideal)) Ws hW V 75 main_v9 main_call3_v5 main_call3_v13 _ _ _ _ rfl rfl (by decide) (by decide) (by decide),
    val_v9 V,
    val_call3_v5 V]
  rfl

end Cert.ReferenceIdeal.RefRun

end
-- ==== Proof.RefRunVal2.lean ====
import proofs.«106343_g48172353192219_fold_wed_c4_272_4_alg».proof.Proof.RefRunVal1

/-!
# What every buffer holds at the end of the reference's line, continued

Operations 76 to 113 of the line, each from the lemmas of its operands.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefRunSsa

theorem val_call3_v14 (V : Valuation τ sig (Elt Ideal)) :
    after (opsP (F := Ideal)) V (Proc.devRef .tc main_call3_v14) = RefTerm.call3_v14 := by
  rw [unary_step (opsP (F := Ideal)) Ws hW V 76 main_call3_v12 main_call3_v14 _ _ _ rfl rfl (by decide) (by decide),
    val_call3_v12 V]
  rfl

theorem val_call3_cst (V : Valuation τ sig (Elt Ideal)) :
    after (opsP (F := Ideal)) V (Proc.devRef .tc main_call3_cst) = RefTerm.call3_cst := by
  rw [nullary_step (opsP (F := Ideal)) Ws hW V 77 main_call3_cst _ _ rfl rfl (by decide)]
  rfl

theorem val_call3_v15 (V : Valuation τ sig (Elt Ideal)) :
    after (opsP (F := Ideal)) V (Proc.devRef .tc main_call3_v15) = RefTerm.call3_v15 := by
  rw [unary_step (opsP (F := Ideal)) Ws hW V 78 main_call3_cst main_call3_v15 _ _ _ rfl rfl (by decide) (by decide),
    val_call3_cst V]
  rfl

theorem val_v43 (V : Valuation τ sig (Elt Ideal)) :
    after (opsP (F := Ideal)) V (Proc.devRef .tc main_v43) = RefTerm.v43 (argsOfV V) := by
  rw [ternary_step (opsP (F := Ideal)) Ws hW V 79 main_call3_v14 main_call3_v13 main_call3_v15 main_v43 _ _ _ _ _ rfl rfl (by decide) (by decide) (by decide) (by decide),
    val_call3_v14 V,
    val_call3_v13 V,
    val_call3_v15 V]
  rfl

theorem val_v44 (V : Valuation τ sig (Elt Ideal)) :
    after (opsP (F := Ideal)) V (Proc.devRef .tc main_v44) = RefTerm.v44 (argsOfV V) := by
  rw [unary_step (opsP (F := Ideal)) Ws hW V 80 main_v42 main_v44 _ _ _ rfl rfl (by decide) (by decide),
    val_v42 V]
  rfl

theorem val_v45 (V : Valuation τ sig (Elt Ideal)) :
    after (opsP (F := Ideal)) V (Proc.devRef .tc main_v45) = RefTerm.v45 (argsOfV V) := by
  rw [binary_step (opsP (F := Ideal)) Ws hW V 81 main_v44 main_v43 main_v45 _ _ _ _ rfl rfl (by decide) (by decide) (by decide),
    val_v44 V,
    val_v43 V]
  rfl

theorem val_cst_6 (V : Valuation τ sig (Elt Ideal)) :
    after (opsP (F := Ideal)) V (Proc.devRef .tc main_cst_6) = RefTerm.cst_6 := by
  rw [nullary_step (opsP (F := Ideal)) Ws hW V 82 main_cst_6 _ _ rfl rfl (by decide)]
  rfl

theorem val_v46 (V : Valuation τ sig (Elt Ideal)) :
    after (opsP (F := Ideal)) V (Proc.devRef .tc main_v46) = RefTerm.v46 := by
  rw [unary_step (opsP (F := Ideal)) Ws hW V 83 main_cst_6 main_v46 _ _ _ rfl rfl (by decide) (by decide),
    val_cst_6 V]
  rfl

theorem val_v47 (V : Valuation τ sig (Elt Ideal)) :
    after (opsP (F := Ideal)) V (Proc.devRef .tc main_v47) = RefTerm.v47 := by
  rw [unary_step (opsP (F := Ideal)) Ws hW V 84 main_v16 main_v47 _ _ _ rfl rfl (by decide) (by decide),
    val_v16 V]
  rfl

theorem val_v48 (V : Valuation τ sig (Elt Ideal)) :
    after (opsP (F := Ideal)) V (Proc.devRef .tc main_v48) = RefTerm.v48 (argsOfV V) := by
  rw [ternary_step (opsP (F := Ideal)) Ws hW V 85 main_v46 main_v47 main_v45 main_v48 _ _ _ _ _ rfl rfl (by decide) (by decide) (by decide) (by decide),
    val_v46 V,
    val_v47 V,
    val_v45 V]
  rfl

theorem val_v49 (V : Valuation τ sig (Elt Ideal)) :
    after (opsP (F := Ideal)) V (Proc.devRef .tc main_v49) = RefTerm.v49 (argsOfV V) := by
  rw [unary_step (opsP (F := Ideal)) Ws hW V 86 main_v41 main_v49 _ _ _ rfl rfl (by decide) (by decide),
    val_v41 V]
  rfl

theorem val_call4_c (V : Valuation τ sig (Elt Ideal)) :
    after (opsP (F := Ideal)) V (Proc.devRef .tc main_call4_c) = RefTerm.call4_c := by
  rw [nullary_step (opsP (F := Ideal)) Ws hW V 87 main_call4_c _ _ rfl rfl (by decide)]
  rfl

theorem val_call4_v0 (V : Valuation τ sig (Elt Ideal)) :
    after (opsP (F := Ideal)) V (Proc.devRef .tc main_call4_v0) = RefTerm.call4_v0 := by
  rw [unary_step (opsP (F := Ideal)) Ws hW V 88 main_call4_c main_call4_v0 _ _ _ rfl rfl (by decide) (by decide),
    val_call4_c V]
  rfl

theorem val_call4_v1 (V : Valuation τ sig (Elt Ideal)) :
    after (opsP (F := Ideal)) V (Proc.devRef .tc main_call4_v1) = RefTerm.call4_v1 := by
  rw [binary_step (opsP (F := Ideal)) Ws hW V 89 main_v12 main_call4_v0 main_call4_v1 _ _ _ _ rfl rfl (by decide) (by decide) (by decide),
    val_v12 V,
    val_call4_v0 V]
  rfl

theorem val_call4_c_0 (V : Valuation τ sig (Elt Ideal)) :
    after (opsP (F := Ideal)) V (Proc.devRef .tc main_call4_c_0) = RefTerm.call4_c_0 := by
  rw [nullary_step (opsP (F := Ideal)) Ws hW V 90 main_call4_c_0 _ _ rfl rfl (by decide)]
  rfl

theorem val_call4_v2 (V : Valuation τ sig (Elt Ideal)) :
    after (opsP (F := Ideal)) V (Proc.devRef .tc main_call4_v2) = RefTerm.call4_v2 := by
  rw [unary_step (opsP (F := Ideal)) Ws hW V 91 main_call4_c_0 main_call4_v2 _ _ _ rfl rfl (by decide) (by decide),
    val_call4_c_0 V]
  rfl

theorem val_call4_v3 (V : Valuation τ sig (Elt Ideal)) :
    after (opsP (F := Ideal)) V (Proc.devRef .tc main_call4_v3) = RefTerm.call4_v3 := by
  rw [binary_step (opsP (F := Ideal)) Ws hW V 92 main_v12 main_call4_v2 main_call4_v3 _ _ _ _ rfl rfl (by decide) (by decide) (by decide),
    val_v12 V,
    val_call4_v2 V]
  rfl

theorem val_call4_v4 (V : Valuation τ sig (Elt Ideal)) :
    after (opsP (F := Ideal)) V (Proc.devRef .tc main_call4_v4) = RefTerm.call4_v4 := by
  rw [ternary_step (opsP (F := Ideal)) Ws hW V 93 main_call4_v1 main_call4_v3 main_v12 main_call4_v4 _ _ _ _ _ rfl rfl (by decide) (by decide) (by decide) (by decide),
    val_call4_v1 V,
    val_call4_v3 V,
    val_v12 V]
  rfl

theorem val_call4_v5 (V : Valuation τ sig (Elt Ideal)) :
    after (opsP (F := Ideal)) V (Proc.devRef .tc main_call4_v5) = RefTerm.call4_v5 := by
  rw [unary_step (opsP (F := Ideal)) Ws hW V 94 main_call4_v4 main_call4_v5 _ _ _ rfl rfl (by decide) (by decide),
    val_call4_v4 V]
  rfl

theorem val_call4_c_1 (V : Valuation τ sig (Elt Ideal)) :
    after (opsP (F := Ideal)) V (Proc.devRef .tc main_call4_c_1) = RefTerm.call4_c_1 := by
  rw [nullary_step (opsP (F := Ideal)) Ws hW V 95 main_call4_c_1 _ _ rfl rfl (by decide)]
  rfl

theorem val_call4_c_2 (V : Valuation τ sig (Elt Ideal)) :
    after (opsP (F := Ideal)) V (Proc.devRef .tc main_call4_c_2) = RefTerm.call4_c_2 := by
  rw [nullary_step (opsP (F := Ideal)) Ws hW V 96 main_call4_c_2 _ _ rfl rfl (by decide)]
  rfl

theorem val_call4_v6 (V : Valuation τ sig (Elt Ideal)) :
    after (opsP (F := Ideal)) V (Proc.devRef .tc main_call4_v6) = RefTerm.call4_v6 := by
  rw [unary_step (opsP (F := Ideal)) Ws hW V 97 main_call4_c_2 main_call4_v6 _ _ _ rfl rfl (by decide) (by decide),
    val_call4_c_2 V]
  rfl

theorem val_call4_v7 (V : Valuation τ sig (Elt Ideal)) :
    after (opsP (F := Ideal)) V (Proc.devRef .tc main_call4_v7) = RefTerm.call4_v7 := by
  rw [binary_step (opsP (F := Ideal)) Ws hW V 98 main_call4_v5 main_call4_v6 main_call4_v7 _ _ _ _ rfl rfl (by decide) (by decide) (by decide),
    val_call4_v5 V,
    val_call4_v6 V]
  rfl

theorem val_call4_v8 (V : Valuation τ sig (Elt Ideal)) :
    after (opsP (F := Ideal)) V (Proc.devRef .tc main_call4_v8) = RefTerm.call4_v8 := by
  rw [unary_step (opsP (F := Ideal)) Ws hW V 99 main_call4_c_1 main_call4_v8 _ _ _ rfl rfl (by decide) (by decide),
    val_call4_c_1 V]
  rfl

theorem val_call4_v9 (V : Valuation τ sig (Elt Ideal)) :
    after (opsP (F := Ideal)) V (Proc.devRef .tc main_call4_v9) = RefTerm.call4_v9 := by
  rw [unary_step (opsP (F := Ideal)) Ws hW V 100 main_call4_v8 main_call4_v9 _ _ _ rfl rfl (by decide) (by decide),
    val_call4_v8 V]
  rfl

theorem val_call4_v10 (V : Valuation τ sig (Elt Ideal)) :
    after (opsP (F := Ideal)) V (Proc.devRef .tc main_call4_v10) = RefTerm.call4_v10 := by
  rw [binary_step (opsP (F := Ideal)) Ws hW V 101 main_call4_v5 main_call4_v9 main_call4_v10 _ _ _ _ rfl rfl (by decide) (by decide) (by decide),
    val_call4_v5 V,
    val_call4_v9 V]
  rfl

theorem val_call4_v11 (V : Valuation τ sig (Elt Ideal)) :
    after (opsP (F := Ideal)) V (Proc.devRef .tc main_call4_v11) = RefTerm.call4_v11 := by
  rw [binary_step (opsP (F := Ideal)) Ws hW V 102 main_call4_v7 main_call4_v10 main_call4_v11 _ _ _ _ rfl rfl (by decide) (by decide) (by decide),
    val_call4_v7 V,
    val_call4_v10 V]
  rfl

theorem val_call4_c_3 (V : Valuation τ sig (Elt Ideal)) :
    after (opsP (F := Ideal)) V (Proc.devRef .tc main_call4_c_3) = RefTerm.call4_c_3 := by
  rw [nullary_step (opsP (F := Ideal)) Ws hW V 103 main_call4_c_3 _ _ rfl rfl (by decide)]
  rfl

theorem val_call4_v12 (V : Valuation τ sig (Elt Ideal)) :
    after (opsP (F := Ideal)) V (Proc.devRef .tc main_call4_v12) = RefTerm.call4_v12 := by
  rw [binary_step (opsP (F := Ideal)) Ws hW V 104 main_call4_v11 main_call4_c_3 main_call4_v12 _ _ _ _ rfl rfl (by decide) (by decide) (by decide),
    val_call4_v11 V,
    val_call4_c_3 V]
  rfl

theorem val_call4_v13 (V : Valuation τ sig (Elt Ideal)) :
    after (opsP (F := Ideal)) V (Proc.devRef .tc main_call4_v13) = RefTerm.call4_v13 (argsOfV V) := by
  rw [binary_step (opsP (F := Ideal)) Ws hW V 105 main_v48 main_call4_v5 main_call4_v13 _ _ _ _ rfl rfl (by decide) (by decide) (by decide),
    val_v48 V,
    val_call4_v5 V]
  rfl

theorem val_call4_v14 (V : Valuation τ sig (Elt Ideal)) :
    after (opsP (F := Ideal)) V (Proc.devRef .tc main_call4_v14) = RefTerm.call4_v14 := by
  rw [unary_step (opsP (F := Ideal)) Ws hW V 106 main_call4_v12 main_call4_v14 _ _ _ rfl rfl (by decide) (by decide),
    val_call4_v12 V]
  rfl

theorem val_call4_cst (V : Valuation τ sig (Elt Ideal)) :
    after (opsP (F := Ideal)) V (Proc.devRef .tc main_call4_cst) = RefTerm.call4_cst := by
  rw [nullary_step (opsP (F := Ideal)) Ws hW V 107 main_call4_cst _ _ rfl rfl (by decide)]
  rfl

theorem val_call4_v15 (V : Valuation τ sig (Elt Ideal)) :
    after (opsP (F := Ideal)) V (Proc.devRef .tc main_call4_v15) = RefTerm.call4_v15 := by
  rw [unary_step (opsP (F := Ideal)) Ws hW V 108 main_call4_cst main_call4_v15 _ _ _ rfl rfl (by decide) (by decide),
    val_call4_cst V]
  rfl

theorem val_v50 (V : Valuation τ sig (Elt Ideal)) :
    after (opsP (F := Ideal)) V (Proc.devRef .tc main_v50) = RefTerm.v50 (argsOfV V) := by
  rw [ternary_step (opsP (F := Ideal)) Ws hW V 109 main_call4_v14 main_call4_v13 main_call4_v15 main_v50 _ _ _ _ _ rfl rfl (by decide) (by decide) (by decide) (by decide),
    val_call4_v14 V,
    val_call4_v13 V,
    val_call4_v15 V]
  rfl

theorem val_v51 (V : Valuation τ sig (Elt Ideal)) :
    after (opsP (F := Ideal)) V (Proc.devRef .tc main_v51) = RefTerm.v51 (argsOfV V) := by
  rw [unary_step (opsP (F := Ideal)) Ws hW V 110 main_v49 main_v51 _ _ _ rfl rfl (by decide) (by decide),
    val_v49 V]
  rfl

theorem val_v52 (V : Valuation τ sig (Elt Ideal)) :
    after (opsP (F := Ideal)) V (Proc.devRef .tc main_v52) = RefTerm.v52 (argsOfV V) := by
  rw [binary_step (opsP (F := Ideal)) Ws hW V 111 main_v51 main_v50 main_v52 _ _ _ _ rfl rfl (by decide) (by decide) (by decide),
    val_v51 V,
    val_v50 V]
  rfl

theorem val_cst_7 (V : Valuation τ sig (Elt Ideal)) :
    after (opsP (F := Ideal)) V (Proc.devRef .tc main_cst_7) = RefTerm.cst_7 := by
  rw [nullary_step (opsP (F := Ideal)) Ws hW V 112 main_cst_7 _ _ rfl rfl (by decide)]
  rfl

theorem val_v53 (V : Valuation τ sig (Elt Ideal)) :
    after (opsP (F := Ideal)) V (Proc.devRef .tc main_v53) = RefTerm.v53 := by
  rw [unary_step (opsP (F := Ideal)) Ws hW V 113 main_cst_7 main_v53 _ _ _ rfl rfl (by decide) (by decide),
    val_cst_7 V]
  rfl

end Cert.ReferenceIdeal.RefRun

end
-- ==== Proof.RefRunVal3.lean ====
import proofs.«106343_g48172353192219_fold_wed_c4_272_4_alg».proof.Proof.RefRunVal2

/-!
# What every buffer holds at the end of the reference's line, continued

Operations 114 to 150 of the line, each from the lemmas of its operands.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefRunSsa

theorem val_v54 (V : Valuation τ sig (Elt Ideal)) :
    after (opsP (F := Ideal)) V (Proc.devRef .tc main_v54) = RefTerm.v54 := by
  rw [unary_step (opsP (F := Ideal)) Ws hW V 114 main_v16 main_v54 _ _ _ rfl rfl (by decide) (by decide),
    val_v16 V]
  rfl

theorem val_v55 (V : Valuation τ sig (Elt Ideal)) :
    after (opsP (F := Ideal)) V (Proc.devRef .tc main_v55) = RefTerm.v55 (argsOfV V) := by
  rw [ternary_step (opsP (F := Ideal)) Ws hW V 115 main_v53 main_v54 main_v52 main_v55 _ _ _ _ _ rfl rfl (by decide) (by decide) (by decide) (by decide),
    val_v53 V,
    val_v54 V,
    val_v52 V]
  rfl

theorem val_v56 (V : Valuation τ sig (Elt Ideal)) :
    after (opsP (F := Ideal)) V (Proc.devRef .tc main_v56) = RefTerm.v56 (argsOfV V) := by
  rw [binary_step (opsP (F := Ideal)) Ws hW V 116 main_v55 main_arg7 main_v56 _ _ _ _ rfl rfl (by decide) (by decide) (by decide),
    val_v55 V,
    val_arg7 V]
  rfl

theorem val_v57 (V : Valuation τ sig (Elt Ideal)) :
    after (opsP (F := Ideal)) V (Proc.devRef .tc main_v57) = RefTerm.v57 (argsOfV V) := by
  rw [unary_step (opsP (F := Ideal)) Ws hW V 117 main_arg8 main_v57 _ _ _ rfl rfl (by decide) (by decide),
    val_arg8 V]
  rfl

theorem val_v58 (V : Valuation τ sig (Elt Ideal)) :
    after (opsP (F := Ideal)) V (Proc.devRef .tc main_v58) = RefTerm.v58 (argsOfV V) := by
  rw [unary_step (opsP (F := Ideal)) Ws hW V 118 main_v57 main_v58 _ _ _ rfl rfl (by decide) (by decide),
    val_v57 V]
  rfl

theorem val_v59 (V : Valuation τ sig (Elt Ideal)) :
    after (opsP (F := Ideal)) V (Proc.devRef .tc main_v59) = RefTerm.v59 (argsOfV V) := by
  rw [binary_step (opsP (F := Ideal)) Ws hW V 119 main_v56 main_v58 main_v59 _ _ _ _ rfl rfl (by decide) (by decide) (by decide),
    val_v56 V,
    val_v58 V]
  rfl

theorem val_call5_cst (V : Valuation τ sig (Elt Ideal)) :
    after (opsP (F := Ideal)) V (Proc.devRef .tc main_call5_cst) = RefTerm.call5_cst := by
  rw [nullary_step (opsP (F := Ideal)) Ws hW V 120 main_call5_cst _ _ rfl rfl (by decide)]
  rfl

theorem val_call5_v0 (V : Valuation τ sig (Elt Ideal)) :
    after (opsP (F := Ideal)) V (Proc.devRef .tc main_call5_v0) = RefTerm.call5_v0 := by
  rw [unary_step (opsP (F := Ideal)) Ws hW V 121 main_call5_cst main_call5_v0 _ _ _ rfl rfl (by decide) (by decide),
    val_call5_cst V]
  rfl

theorem val_v60 (V : Valuation τ sig (Elt Ideal)) :
    after (opsP (F := Ideal)) V (Proc.devRef .tc main_v60) = RefTerm.v60 (argsOfV V) := by
  rw [binary_step (opsP (F := Ideal)) Ws hW V 122 main_v59 main_call5_v0 main_v60 _ _ _ _ rfl rfl (by decide) (by decide) (by decide),
    val_v59 V,
    val_call5_v0 V]
  rfl

theorem val_v61 (V : Valuation τ sig (Elt Ideal)) :
    after (opsP (F := Ideal)) V (Proc.devRef .tc main_v61) = RefTerm.v61 (argsOfV V) := by
  rw [binary_step (opsP (F := Ideal)) Ws hW V 123 main_v60 main_arg9 main_v61 _ _ _ _ rfl rfl (by decide) (by decide) (by decide),
    val_v60 V,
    val_arg9 V]
  rfl

theorem val_v62 (V : Valuation τ sig (Elt Ideal)) :
    after (opsP (F := Ideal)) V (Proc.devRef .tc main_v62) = RefTerm.v62 (argsOfV V) := by
  rw [unary_step (opsP (F := Ideal)) Ws hW V 124 main_arg10 main_v62 _ _ _ rfl rfl (by decide) (by decide),
    val_arg10 V]
  rfl

theorem val_v63 (V : Valuation τ sig (Elt Ideal)) :
    after (opsP (F := Ideal)) V (Proc.devRef .tc main_v63) = RefTerm.v63 (argsOfV V) := by
  rw [unary_step (opsP (F := Ideal)) Ws hW V 125 main_v62 main_v63 _ _ _ rfl rfl (by decide) (by decide),
    val_v62 V]
  rfl

theorem val_v64 (V : Valuation τ sig (Elt Ideal)) :
    after (opsP (F := Ideal)) V (Proc.devRef .tc main_v64) = RefTerm.v64 (argsOfV V) := by
  rw [binary_step (opsP (F := Ideal)) Ws hW V 126 main_v61 main_v63 main_v64 _ _ _ _ rfl rfl (by decide) (by decide) (by decide),
    val_v61 V,
    val_v63 V]
  rfl

theorem val_call6_cst (V : Valuation τ sig (Elt Ideal)) :
    after (opsP (F := Ideal)) V (Proc.devRef .tc main_call6_cst) = RefTerm.call6_cst := by
  rw [nullary_step (opsP (F := Ideal)) Ws hW V 127 main_call6_cst _ _ rfl rfl (by decide)]
  rfl

theorem val_call6_v0 (V : Valuation τ sig (Elt Ideal)) :
    after (opsP (F := Ideal)) V (Proc.devRef .tc main_call6_v0) = RefTerm.call6_v0 := by
  rw [unary_step (opsP (F := Ideal)) Ws hW V 128 main_call6_cst main_call6_v0 _ _ _ rfl rfl (by decide) (by decide),
    val_call6_cst V]
  rfl

theorem val_v65 (V : Valuation τ sig (Elt Ideal)) :
    after (opsP (F := Ideal)) V (Proc.devRef .tc main_v65) = RefTerm.v65 (argsOfV V) := by
  rw [binary_step (opsP (F := Ideal)) Ws hW V 129 main_v64 main_call6_v0 main_v65 _ _ _ _ rfl rfl (by decide) (by decide) (by decide),
    val_v64 V,
    val_call6_v0 V]
  rfl

theorem val_v66 (V : Valuation τ sig (Elt Ideal)) :
    after (opsP (F := Ideal)) V (Proc.devRef .tc main_v66) = RefTerm.v66 (argsOfV V) := by
  rw [binary_step (opsP (F := Ideal)) Ws hW V 130 main_v65 main_v9 main_v66 _ _ _ _ rfl rfl (by decide) (by decide) (by decide),
    val_v65 V,
    val_v9 V]
  rfl

theorem val_v67 (V : Valuation τ sig (Elt Ideal)) :
    after (opsP (F := Ideal)) V (Proc.devRef .tc main_v67) = RefTerm.v67 (argsOfV V) := by
  rw [binary_step (opsP (F := Ideal)) Ws hW V 131 main_v66 main_arg11 main_v67 _ _ _ _ rfl rfl (by decide) (by decide) (by decide),
    val_v66 V,
    val_arg11 V]
  rfl

theorem val_v68 (V : Valuation τ sig (Elt Ideal)) :
    after (opsP (F := Ideal)) V (Proc.devRef .tc main_v68) = RefTerm.v68 (argsOfV V) := by
  rw [unary_step (opsP (F := Ideal)) Ws hW V 132 main_arg12 main_v68 _ _ _ rfl rfl (by decide) (by decide),
    val_arg12 V]
  rfl

theorem val_v69 (V : Valuation τ sig (Elt Ideal)) :
    after (opsP (F := Ideal)) V (Proc.devRef .tc main_v69) = RefTerm.v69 (argsOfV V) := by
  rw [unary_step (opsP (F := Ideal)) Ws hW V 133 main_v68 main_v69 _ _ _ rfl rfl (by decide) (by decide),
    val_v68 V]
  rfl

theorem val_v70 (V : Valuation τ sig (Elt Ideal)) :
    after (opsP (F := Ideal)) V (Proc.devRef .tc main_v70) = RefTerm.v70 (argsOfV V) := by
  rw [binary_step (opsP (F := Ideal)) Ws hW V 134 main_v67 main_v69 main_v70 _ _ _ _ rfl rfl (by decide) (by decide) (by decide),
    val_v67 V,
    val_v69 V]
  rfl

theorem val_call7_cst (V : Valuation τ sig (Elt Ideal)) :
    after (opsP (F := Ideal)) V (Proc.devRef .tc main_call7_cst) = RefTerm.call7_cst := by
  rw [nullary_step (opsP (F := Ideal)) Ws hW V 135 main_call7_cst _ _ rfl rfl (by decide)]
  rfl

theorem val_call7_v0 (V : Valuation τ sig (Elt Ideal)) :
    after (opsP (F := Ideal)) V (Proc.devRef .tc main_call7_v0) = RefTerm.call7_v0 := by
  rw [unary_step (opsP (F := Ideal)) Ws hW V 136 main_call7_cst main_call7_v0 _ _ _ rfl rfl (by decide) (by decide),
    val_call7_cst V]
  rfl

theorem val_v71 (V : Valuation τ sig (Elt Ideal)) :
    after (opsP (F := Ideal)) V (Proc.devRef .tc main_v71) = RefTerm.v71 (argsOfV V) := by
  rw [binary_step (opsP (F := Ideal)) Ws hW V 137 main_v70 main_call7_v0 main_v71 _ _ _ _ rfl rfl (by decide) (by decide) (by decide),
    val_v70 V,
    val_call7_v0 V]
  rfl

theorem val_v72 (V : Valuation τ sig (Elt Ideal)) :
    after (opsP (F := Ideal)) V (Proc.devRef .tc main_v72) = RefTerm.v72 (argsOfV V) := by
  rw [binary_step (opsP (F := Ideal)) Ws hW V 138 main_v71 main_arg13 main_v72 _ _ _ _ rfl rfl (by decide) (by decide) (by decide),
    val_v71 V,
    val_arg13 V]
  rfl

theorem val_v73 (V : Valuation τ sig (Elt Ideal)) :
    after (opsP (F := Ideal)) V (Proc.devRef .tc main_v73) = RefTerm.v73 (argsOfV V) := by
  rw [unary_step (opsP (F := Ideal)) Ws hW V 139 main_arg14 main_v73 _ _ _ rfl rfl (by decide) (by decide),
    val_arg14 V]
  rfl

theorem val_v74 (V : Valuation τ sig (Elt Ideal)) :
    after (opsP (F := Ideal)) V (Proc.devRef .tc main_v74) = RefTerm.v74 (argsOfV V) := by
  rw [unary_step (opsP (F := Ideal)) Ws hW V 140 main_v73 main_v74 _ _ _ rfl rfl (by decide) (by decide),
    val_v73 V]
  rfl

theorem val_v75 (V : Valuation τ sig (Elt Ideal)) :
    after (opsP (F := Ideal)) V (Proc.devRef .tc main_v75) = RefTerm.v75 (argsOfV V) := by
  rw [binary_step (opsP (F := Ideal)) Ws hW V 141 main_v72 main_v74 main_v75 _ _ _ _ rfl rfl (by decide) (by decide) (by decide),
    val_v72 V,
    val_v74 V]
  rfl

theorem val_call8_cst (V : Valuation τ sig (Elt Ideal)) :
    after (opsP (F := Ideal)) V (Proc.devRef .tc main_call8_cst) = RefTerm.call8_cst := by
  rw [nullary_step (opsP (F := Ideal)) Ws hW V 142 main_call8_cst _ _ rfl rfl (by decide)]
  rfl

theorem val_call8_v0 (V : Valuation τ sig (Elt Ideal)) :
    after (opsP (F := Ideal)) V (Proc.devRef .tc main_call8_v0) = RefTerm.call8_v0 := by
  rw [unary_step (opsP (F := Ideal)) Ws hW V 143 main_call8_cst main_call8_v0 _ _ _ rfl rfl (by decide) (by decide),
    val_call8_cst V]
  rfl

theorem val_v76 (V : Valuation τ sig (Elt Ideal)) :
    after (opsP (F := Ideal)) V (Proc.devRef .tc main_v76) = RefTerm.v76 (argsOfV V) := by
  rw [binary_step (opsP (F := Ideal)) Ws hW V 144 main_v75 main_call8_v0 main_v76 _ _ _ _ rfl rfl (by decide) (by decide) (by decide),
    val_v75 V,
    val_call8_v0 V]
  rfl

theorem val_v77 (V : Valuation τ sig (Elt Ideal)) :
    after (opsP (F := Ideal)) V (Proc.devRef .tc main_v77) = RefTerm.v77 (argsOfV V) := by
  rw [binary_step (opsP (F := Ideal)) Ws hW V 145 main_v76 main_arg15 main_v77 _ _ _ _ rfl rfl (by decide) (by decide) (by decide),
    val_v76 V,
    val_arg15 V]
  rfl

theorem val_v78 (V : Valuation τ sig (Elt Ideal)) :
    after (opsP (F := Ideal)) V (Proc.devRef .tc main_v78) = RefTerm.v78 (argsOfV V) := by
  rw [unary_step (opsP (F := Ideal)) Ws hW V 146 main_arg16 main_v78 _ _ _ rfl rfl (by decide) (by decide),
    val_arg16 V]
  rfl

theorem val_v79 (V : Valuation τ sig (Elt Ideal)) :
    after (opsP (F := Ideal)) V (Proc.devRef .tc main_v79) = RefTerm.v79 (argsOfV V) := by
  rw [unary_step (opsP (F := Ideal)) Ws hW V 147 main_v78 main_v79 _ _ _ rfl rfl (by decide) (by decide),
    val_v78 V]
  rfl

theorem val_v80 (V : Valuation τ sig (Elt Ideal)) :
    after (opsP (F := Ideal)) V (Proc.devRef .tc main_v80) = RefTerm.v80 (argsOfV V) := by
  rw [binary_step (opsP (F := Ideal)) Ws hW V 148 main_v77 main_v79 main_v80 _ _ _ _ rfl rfl (by decide) (by decide) (by decide),
    val_v77 V,
    val_v79 V]
  rfl

theorem val_v81 (V : Valuation τ sig (Elt Ideal)) :
    after (opsP (F := Ideal)) V (Proc.devRef .tc main_v81) = RefTerm.v81 (argsOfV V) := by
  rw [reshape_step (opsP (F := Ideal)) Ws hW V 149 main_arg2 main_v81 _ _ _ _ rfl rfl (by decide) (by decide),
    val_arg2 V]
  rfl

theorem val_v82 (V : Valuation τ sig (Elt Ideal)) :
    after (opsP (F := Ideal)) V (Proc.devRef .tc main_v82) = RefTerm.v82 (argsOfV V) := by
  rw [binary_step (opsP (F := Ideal)) Ws hW V 150 main_v80 main_v81 main_v82 _ _ _ _ rfl rfl (by decide) (by decide) (by decide),
    val_v80 V,
    val_v81 V]
  rfl

end Cert.ReferenceIdeal.RefRun

end
-- ==== Proof.RefRun.lean ====
import proofs.«106343_g48172353192219_fold_wed_c4_272_4_alg».proof.Proof.RefRunVal3

/-!
# The reference program's run

From any memory with zero counters every weakly fair execution of the reference's `@main` terminates, and in every
final state the result buffer holds the value `RefTerm.term` of the seventeen argument arrays as the launch memory
holds them, and every argument buffer holds what it held.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The seventeen argument arrays as device `c`'s buffers hold them in the memory `m`. -/
def argsOf (m : (ℓ : Loc nD τ sig) → Buf (Elt Ideal) ℓ) (c : Dev nD) : Cert.Gcn.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)

theorem argsOf_eq (m : (ℓ : Loc nD τ sig) → Buf (Elt Ideal) ℓ) (c : Dev nD) :
    argsOf m c = argsOfV (launchContents m c) := rfl

/-- On every device, from any memory with zero counters: every weakly fair execution of `@main` terminates with the
    result buffer at `RefTerm.term` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v82) = Cert.ReferenceIdeal.RefTerm.term (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v82).trans ((val_v82 (launchContents m c)).trans (by rw [argsOf_eq]; rfl)),
      (h c main_arg0).trans (val_arg0 (launchContents m c)),
      (h c main_arg1).trans (val_arg1 (launchContents m c)),
      (h c main_arg2).trans (val_arg2 (launchContents m c)),
      (h c main_arg3).trans (val_arg3 (launchContents m c)),
      (h c main_arg4).trans (val_arg4 (launchContents m c)),
      (h c main_arg5).trans (val_arg5 (launchContents m c)),
      (h c main_arg6).trans (val_arg6 (launchContents m c)),
      (h c main_arg7).trans (val_arg7 (launchContents m c)),
      (h c main_arg8).trans (val_arg8 (launchContents m c)),
      (h c main_arg9).trans (val_arg9 (launchContents m c)),
      (h c main_arg10).trans (val_arg10 (launchContents m c)),
      (h c main_arg11).trans (val_arg11 (launchContents m c)),
      (h c main_arg12).trans (val_arg12 (launchContents m c)),
      (h c main_arg13).trans (val_arg13 (launchContents m c)),
      (h c main_arg14).trans (val_arg14 (launchContents m c)),
      (h c main_arg15).trans (val_arg15 (launchContents m c)),
      (h c main_arg16).trans (val_arg16 (launchContents m c))⟩)
    (run_seq scopedRefs_eq scopedSems_eq defs main (fun _ => opsP) main_eq (fun _ => opsP_sub) m ρ)

end Cert.ReferenceIdeal.RefRun

end
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.LibTableRead.lean ====
/-
  Reading small integer and float tables at an index.

  The index pairs of a scatter are assembled from vectors: two vectors of length n joined end to end into one of
  length n + n; a vector of length n turned into an n × 1 column; two columns set side by side into an n × 2 table;
  a row of a 2 × n table or a column of an n × 2 table taken out as a vector; a scalar repeated everywhere. Each lemma
  says which entry of the parts an entry of the whole is.
-/
import Idealize.ShloMosaic.Lib.ValueIdx
import Idealize.ShloMosaic.Lib.ValueLayout
import Idealize.ShloMosaic.Lib.Pipeline.Value

namespace Idealize.ShloMosaic.TableRead

open Idealize.ShloMosaic Idealize.ShloMosaic.ValueIdx

variable {α : Type} {n : Nat}

/-- Two vectors of length n joined end to end: an entry among the first n is the first vector's. -/
theorem join_left (A B : (⟨1, ![n]⟩ : Shape).Idx → α)
    (h : Shape.Concatenates [(⟨1, ![n]⟩ : Shape), ⟨1, ![n]⟩] ⟨1, ![n + n]⟩ 0) (j : Fin n) :
    concatenate ⟨1, ![n + n]⟩ 0 [⟨⟨1, ![n]⟩, A⟩, ⟨⟨1, ![n]⟩, B⟩] h (ix1 (Fin.castAdd n j)) = A (ix1 j) :=
  concatenate_pair_apply_left 0 A B h (ix1 (Fin.castAdd n j)) rfl (ix1 j) (fun b => by
    match b with
    | ⟨0, _⟩ => rfl)

/-- Two vectors of length n joined end to end: entry n + j is the second vector's entry j. -/
theorem join_right (A B : (⟨1, ![n]⟩ : Shape).Idx → α)
    (h : Shape.Concatenates [(⟨1, ![n]⟩ : Shape), ⟨1, ![n]⟩] ⟨1, ![n + n]⟩ 0) (j : Fin n) :
    concatenate ⟨1, ![n + n]⟩ 0 [⟨⟨1, ![n]⟩, A⟩, ⟨⟨1, ![n]⟩, B⟩] h (ix1 (Fin.natAdd n j)) = B (ix1 j) :=
  concatenate_pair_apply_right 0 A B h (ix1 (Fin.natAdd n j)) rfl rfl (ix1 j)
    (fun b hb => by
      match b with
      | ⟨0, _⟩ => exact absurd rfl hb)
    (by show j.val + n = n + j.val; omega)

/-- A vector turned into a column: entry (j, ·) is the vector's entry j. -/
theorem column_apply (v : (⟨1, ![n]⟩ : Shape).Idx → α)
    (h : (⟨1, ![n]⟩ : Shape).BroadcastsInDim ⟨2, ![n, 1]⟩ ![0]) (j : Fin n) (u : Fin 1) :
    broadcastInDim ⟨2, ![n, 1]⟩ ![0] h v (ix2 j u) = v (ix1 j) :=
  broadcastInDim_apply ![0] h v (ix2 j u) (ix1 j) (fun a => by
    match a with
    | ⟨0, _⟩ =>
      show j.val = if n = 1 then 0 else j.val
      split
      · have := j.isLt; omega
      · rfl)

/-- Two columns side by side: column 0 of the table is the first. -/
theorem beside_left (A B : (⟨2, ![n, 1]⟩ : Shape).Idx → α)
    (h : Shape.Concatenates [(⟨2, ![n, 1]⟩ : Shape), ⟨2, ![n, 1]⟩] ⟨2, ![n, 2]⟩ 1) (j : Fin n) :
    concatenate ⟨2, ![n, 2]⟩ 1 [⟨⟨2, ![n, 1]⟩, A⟩, ⟨⟨2, ![n, 1]⟩, B⟩] h (ix2 j (0 : Fin 2)) = A (ix2 j (0 : Fin 1)) :=
  concatenate_pair_apply_left 1 A B h (ix2 j (0 : Fin 2)) rfl (ix2 j (0 : Fin 1)) (fun b => by
    match b with
    | ⟨0, _⟩ => rfl
    | ⟨1, _⟩ => rfl)

/-- Two columns side by side: column 1 of the table is the second. -/
theorem beside_right (A B : (⟨2, ![n, 1]⟩ : Shape).Idx → α)
    (h : Shape.Concatenates [(⟨2, ![n, 1]⟩ : Shape), ⟨2, ![n, 1]⟩] ⟨2, ![n, 2]⟩ 1) (j : Fin n) :
    concatenate ⟨2, ![n, 2]⟩ 1 [⟨⟨2, ![n, 1]⟩, A⟩, ⟨⟨2, ![n, 1]⟩, B⟩] h (ix2 j (1 : Fin 2)) = B (ix2 j (0 : Fin 1)) :=
  concatenate_pair_apply_right 1 A B h (ix2 j (1 : Fin 2)) rfl rfl (ix2 j (0 : Fin 1))
    (fun b hb => by
      match b with
      | ⟨0, _⟩ => rfl
      | ⟨1, _⟩ => exact absurd rfl hb)
    rfl

/-- Row r of a 2 × n table taken out as a vector. -/
theorem row_apply (r : Nat) (X : (⟨2, ![2, n]⟩ : Shape).Idx → α)
    (h : (⟨2, ![2, n]⟩ : Shape).Slices ![r, 0] ⟨2, ![1, n]⟩) (h' : (⟨2, ![1, n]⟩ : Shape).ShapeCasts ⟨1, ![n]⟩)
    (j : Fin n) (k : Fin 2) (hk : k.val = r) :
    shapeCast ⟨1, ![n]⟩ (extractStridedSlice ⟨2, ![1, n]⟩ ![r, 0] X h) h' (ix1 j) = X (ix2 k j) :=
  (shapeCast_1a_a_apply _ h' j).trans (slice2_axis0_apply r X h (0 : Fin 1) j k (by rw [hk]; rfl))

/-- Column q of an n × 2 table taken out as a vector. -/
theorem col_apply (q : Nat) (X : (⟨2, ![n, 2]⟩ : Shape).Idx → α)
    (h : (⟨2, ![n, 2]⟩ : Shape).Slices ![0, q] ⟨2, ![n, 1]⟩) (h' : (⟨2, ![n, 1]⟩ : Shape).ShapeCasts ⟨1, ![n]⟩)
    (j : Fin n) (k : Fin 2) (hk : k.val = q) :
    shapeCast ⟨1, ![n]⟩ (extractStridedSlice ⟨2, ![n, 1]⟩ ![0, q] X h) h' (ix1 j) = X (ix2 j k) :=
  (shapeCast_apply _ h' (ix1 j) (ix2 j (0 : Fin 1)) (by
      rw [Shape.rowMajor_val_two, Shape.rowMajor_val_one]
      show j.val * 1 + 0 = j.val
      omega)).trans
    (slice2_axis1_apply q X h j (0 : Fin 1) k (by rw [hk]; rfl))

/-- A scalar repeated over a whole shape reads as that scalar everywhere. -/
theorem splat_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply ![] h x i ix0 (fun a => a.elim0)

end Idealize.ShloMosaic.TableRead
-- ==== Proof.RefDenseStages.lean ====
import proofs.«106343_g48172353192219_fold_wed_c4_272_4_alg».proof.Proof.Spec
import proofs.«106343_g48172353192219_fold_wed_c4_272_4_alg».proof.Proof.LibPlainDot
import proofs.«106343_g48172353192219_fold_wed_c4_272_4_alg».proof.Proof.LibRowBroadcast
import proofs.«106343_g48172353192219_fold_wed_c4_272_4_alg».proof.Proof.LibTableRead
import proofs.«106343_g48172353192219_fold_wed_c4_272_4_alg».proof.Proof.LibColumnCast

/-!
# The host's dense layers read at an index

A dense layer on the host is a matrix product, a bias laid out as one row and repeated down the rows, a sum, and a
maximum against the all-zero array.  Read at entry `(p, q)` it is `max (Σ_k a[p, k] · w[k, q] + b[q]) 0`.
A layer whose input is two `[M, 256]` arrays set side by side reads as the two half sums over the upper and the
lower 256 rows of its `[512, N]` weight.  The last layer has no maximum and is multiplied by a vector recast as a
column.  Every statement is over arbitrary arrays of the stated shapes and uses only `0 + x = x` and the
commutative-monoid laws of the extended reals, so it holds at the infinities too.
-/

noncomputable section

open scoped BigOperators

namespace Cert.ReferenceIdeal.RefValue

open Idealize.ShloMosaic Idealize.ShloMosaic.ValueIdx

/-- The maximum against the all-zero array (a scalar zero repeated over the shape), at an index. -/
theorem relu_apply {s : Shape} (x : FVec Ideal s .f32)
    (h0 : (⟨0, ![]⟩ : Shape).BroadcastsInDim s (![] : Fin 0 → Fin s.rank)) (i : s.Idx) :
    maximumf x (broadcastInDim s ![] h0 (constant (F := Ideal) ⟨0, ![]⟩ .f32 0x00000000#32)) i = max (x i) 0 := by
  rw [maximumf_apply, TableRead.splat_apply, constant_apply, Ideal.ofBits_zero_f32]

section Layer

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- A product plus a bias row, at entry `(p, q)`: `Σ_k a[p, k] · w[k, q] + b[q]`. -/
theorem affine_apply (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral D none a w)
        (broadcastInDim ⟨2, ![M, N]⟩ ![0, 1] h2 (broadcastInDim ⟨2, ![1, N]⟩ ![1] h1 b)) (ix2 p q)
      = (∑ k : Fin K, a (ix2 p k) * w (ix2 k q)) + b (ix1 q) := by
  rw [addf_apply, RowBroadcast.rowsOf_apply b h1 h2 p q]
  exact congrArg (· + b (ix1 q)) (PlainDot.dotGeneral_apply D hlc hrc hln hrn hlb hrb hr hs none .single a w p q)

include hlc hrc hln hrn hlb hrb hr hs in
/-- A dense layer with its maximum against zero, at entry `(p, q)`. -/
theorem layer_apply (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) (p : Fin M) (q : Fin N) :
    maximumf (addf (Host.dotGeneral D none a w)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = max ((∑ k : Fin K, a (ix2 p k) * w (ix2 k q)) + b (ix1 q)) 0 := by
  rw [relu_apply, affine_apply D hlc hrc hln hrn hlb hrb hr hs a w b h1 h2 p q]

end Layer

/-- A dense layer of the specification depends on its input only through its entries. -/
theorem dense_congr {M K N : Nat} (a a' : Fin M → Fin K → EReal) (w : FVec Ideal ⟨2, ![K, N]⟩ .f32)
    (b : FVec Ideal ⟨1, ![N]⟩ .f32) (h : ∀ p k, a p k = a' p k) (p : Fin M) (q : Fin N) :
    Cert.Gcn.dense a w b p q = Cert.Gcn.dense a' w b p q := by
  have : a = a' := funext fun p => funext fun k => h p k
  rw [this]

/-- The specification's dense layer, spelt out. -/
theorem dense_def {M K N : Nat} (a : Fin M → Fin K → EReal) (w : FVec Ideal ⟨2, ![K, N]⟩ .f32)
    (b : FVec Ideal ⟨1, ![N]⟩ .f32) (p : Fin M) (q : Fin N) :
    Cert.Gcn.dense a w b p q = max ((∑ k : Fin K, a p k * w (ix2 k q)) + b (ix1 q)) 0 := rfl

section Beside

variable {α : Type} {a n m : Nat}

/-- Two `[a, n]` arrays side by side: a column among the first `n` is the first array's. -/
theorem beside_apply_left (A B : (⟨2, ![a, n]⟩ : Shape).Idx → α)
    (h : Shape.Concatenates [(⟨2, ![a, n]⟩ : Shape), ⟨2, ![a, n]⟩] ⟨2, ![a, m]⟩ 1) (p : Fin a) (k : Fin m) (j : Fin n)
    (hk : k.val = j.val) :
    concatenate ⟨2, ![a, m]⟩ 1 [⟨⟨2, ![a, n]⟩, A⟩, ⟨⟨2, ![a, n]⟩, B⟩] h (ix2 p k) = A (ix2 p j) :=
  concatenate_pair_apply_left 1 A B h (ix2 p k) rfl (ix2 p j) (fun b => by
    match b with
    | ⟨0, _⟩ => rfl
    | ⟨1, _⟩ => exact hk.symm)

/-- Two `[a, n]` arrays side by side: column `n + j` is the second array's column `j`. -/
theorem beside_apply_right (A B : (⟨2, ![a, n]⟩ : Shape).Idx → α)
    (h : Shape.Concatenates [(⟨2, ![a, n]⟩ : Shape), ⟨2, ![a, n]⟩] ⟨2, ![a, m]⟩ 1) (p : Fin a) (k : Fin m) (j : Fin n)
    (hk : k.val = n + j.val) :
    concatenate ⟨2, ![a, m]⟩ 1 [⟨⟨2, ![a, n]⟩, A⟩, ⟨⟨2, ![a, n]⟩, B⟩] h (ix2 p k) = B (ix2 p j) :=
  concatenate_pair_apply_right 1 A B h (ix2 p k) rfl rfl (ix2 p j)
    (fun b hb => by
      match b with
      | ⟨0, _⟩ => rfl
      | ⟨1, _⟩ => exact absurd rfl hb)
    (by show j.val + n = k.val; omega)

end Beside

/-- A sum over 512 rows is the sum over the upper 256 plus the sum over the lower 256. -/
theorem sum_lo_hi (f : Fin 512 → EReal) :
    ∑ k : Fin 512, f k = (∑ k : Fin 256, f (Cert.Gcn.lo k)) + ∑ k : Fin 256, f (Cert.Gcn.hi k) := by
  have h := Fin.sum_univ_add (M := EReal) (a := 256) (b := 256) f
  refine h.trans ?_
  congr 1

end Cert.ReferenceIdeal.RefValue

end
-- ==== Proof.RefDenseHeadStages.lean ====
import proofs.«106343_g48172353192219_fold_wed_c4_272_4_alg».proof.Proof.RefDenseStages

/-!
# The layer on two arrays set side by side, and the masked read-out, read at an index

The layer after the graph layers takes `[x_graph, x]`, two `[1024, 256]` arrays side by side, against a
`[512, 128]` weight: its contraction over 512 splits at 256 into the part against the weight's upper rows and the
part against its lower rows.  The read-out is a product with a `[K, 1]` weight plus a one-entry bias, multiplied
entrywise by a vector recast as a column.
-/

noncomputable section

open scoped BigOperators

namespace Cert.ReferenceIdeal.RefValue

open Idealize.ShloMosaic Idealize.ShloMosaic.ValueIdx

section Joined

variable (D : DotDims ⟨2, ![1024, 512]⟩ ⟨2, ![512, 128]⟩ ⟨2, ![1024, 128]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = 512)

include hlc hrc hln hrn hlb hrb hr hs in
/-- The dense layer on two arrays side by side, at entry `(p, q)`: the two half sums, the bias, the maximum. -/
theorem joined_layer_apply (xg x : FVec Ideal ⟨2, ![1024, 256]⟩ .f32) (w : FVec Ideal ⟨2, ![512, 128]⟩ .f32)
    (b : FVec Ideal ⟨1, ![128]⟩ .f32)
    (hc : Shape.Concatenates [(⟨2, ![1024, 256]⟩ : Shape), ⟨2, ![1024, 256]⟩] ⟨2, ![1024, 512]⟩ 1)
    (h1 : (⟨1, ![128]⟩ : Shape).BroadcastsInDim ⟨2, ![1, 128]⟩ ![1])
    (h2 : (⟨2, ![1, 128]⟩ : Shape).BroadcastsInDim ⟨2, ![1024, 128]⟩ ![0, 1])
    (h0 : (⟨0, ![]⟩ : Shape).BroadcastsInDim ⟨2, ![1024, 128]⟩ (![] : Fin 0 → Fin 2)) (p : Fin 1024) (q : Fin 128) :
    maximumf (addf (Host.dotGeneral D none
            (concatenate ⟨2, ![1024, 512]⟩ 1 [⟨⟨2, ![1024, 256]⟩, xg⟩, ⟨⟨2, ![1024, 256]⟩, x⟩] hc) w)
          (broadcastInDim ⟨2, ![1024, 128]⟩ ![0, 1] h2 (broadcastInDim ⟨2, ![1, 128]⟩ ![1] h1 b)))
        (broadcastInDim ⟨2, ![1024, 128]⟩ ![] h0 (constant (F := Ideal) ⟨0, ![]⟩ .f32 0x00000000#32)) (ix2 p q)
      = max (((∑ k : Fin 256, xg (ix2 p k) * w (ix2 (Cert.Gcn.lo k) q))
              + (∑ k : Fin 256, x (ix2 p k) * w (ix2 (Cert.Gcn.hi k) q))) + b (ix1 q)) 0 := by
  rw [layer_apply D hlc hrc hln hrn hlb hrb hr hs _ w b h1 h2 h0 p q, sum_lo_hi]
  have e1 : ∀ k : Fin 256, concatenate ⟨2, ![1024, 512]⟩ 1 [⟨⟨2, ![1024, 256]⟩, xg⟩, ⟨⟨2, ![1024, 256]⟩, x⟩] hc
      (ix2 p (Cert.Gcn.lo k)) = xg (ix2 p k) := fun k => beside_apply_left xg x hc p (Cert.Gcn.lo k) k rfl
  have e2 : ∀ k : Fin 256, concatenate ⟨2, ![1024, 512]⟩ 1 [⟨⟨2, ![1024, 256]⟩, xg⟩, ⟨⟨2, ![1024, 256]⟩, x⟩] hc
      (ix2 p (Cert.Gcn.hi k)) = x (ix2 p k) := fun k => beside_apply_right xg x hc p (Cert.Gcn.hi k) k rfl
  simp only [e1, e2]

end Joined

section Readout

variable {M K : Nat} (D : DotDims ⟨2, ![M, K]⟩ ⟨2, ![K, 1]⟩ ⟨2, ![M, 1]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The read-out to one column times the mask column, at entry `(p, z)`. -/
theorem readout_apply (a : FVec Ideal ⟨2, ![M, K]⟩ .f32) (w : FVec Ideal ⟨2, ![K, 1]⟩ .f32) (b : FVec Ideal ⟨1, ![1]⟩ .f32)
    (mask : FVec Ideal ⟨1, ![M]⟩ .f32)
    (h1 : (⟨1, ![1]⟩ : Shape).BroadcastsInDim ⟨2, ![1, 1]⟩ ![1])
    (h2 : (⟨2, ![1, 1]⟩ : Shape).BroadcastsInDim ⟨2, ![M, 1]⟩ ![0, 1])
    (hm : (⟨1, ![M]⟩ : Shape).ShapeCasts ⟨2, ![M, 1]⟩) (p : Fin M) (z : Fin 1) :
    mulf (addf (Host.dotGeneral D none a w)
          (broadcastInDim ⟨2, ![M, 1]⟩ ![0, 1] h2 (broadcastInDim ⟨2, ![1, 1]⟩ ![1] h1 b)))
        (shapeCast ⟨2, ![M, 1]⟩ mask hm) (ix2 p z)
      = ((∑ k : Fin K, a (ix2 p k) * w (ix2 k z)) + b (ix1 z)) * mask (ix1 p) := by
  rw [mulf_apply, affine_apply D hlc hrc hln hrn hlb hrb hr hs a w b h1 h2 p z,
    LibColumnCast.shapeCast_col_apply hm mask p z]

end Readout

end Cert.ReferenceIdeal.RefValue

end
-- ==== Proof.RefDense.lean ====
import proofs.«106343_g48172353192219_fold_wed_c4_272_4_alg».proof.Proof.RefTerm
import proofs.«106343_g48172353192219_fold_wed_c4_272_4_alg».proof.Proof.RefDenseHeadStages

/-!
# The reference's dense layers are the specification's

The encoder of the reference (its values up to `v9`) is the specification's `enc`; and whatever array `h2` the
second hop's output `v55` reads as, the layers after it (`v56` … `v82`) give the specification's `head` of
`h2` and the encoder's output, laid out as a column.
-/

noncomputable section

open scoped BigOperators

namespace Cert.ReferenceIdeal.RefValue

open Idealize.ShloMosaic Idealize.ShloMosaic.ValueIdx Cert.ReferenceIdeal

variable [Facts]

/-- The encoder's first layer. -/
theorem v4_eq (A : Cert.Gcn.Args) (p : Fin 1024) (q : Fin 64) :
    RefTerm.v4 A (ix2 p q) = Cert.Gcn.dense (fun p k => A.a0 (ix2 p k)) A.a3 A.a4 p q := by
  unfold RefTerm.v4 RefTerm.call0_v0 RefTerm.call0_cst RefTerm.v3 RefTerm.v2 RefTerm.v1 RefTerm.v0
  exact layer_apply dot_S1024x128_S128x64_S1024x64_1_0_0_1_n_n rfl rfl rfl rfl rfl rfl rfl rfl
    A.a0 A.a3 A.a4 _ _ _ p q

/-- The encoder's output. -/
theorem enc_eq (A : Cert.Gcn.Args) (p : Fin 1024) (q : Fin 256) :
    RefTerm.v9 A (ix2 p q) = Cert.Gcn.enc A p q := by
  have h : RefTerm.v9 A (ix2 p q) = Cert.Gcn.dense (fun p k => RefTerm.v4 A (ix2 p k)) A.a5 A.a6 p q := by
    unfold RefTerm.v9 RefTerm.call1_v0 RefTerm.call1_cst RefTerm.v8 RefTerm.v7 RefTerm.v6 RefTerm.v5
    exact layer_apply dot_S1024x64_S64x256_S1024x256_1_0_0_1_n_n rfl rfl rfl rfl rfl rfl rfl rfl
      (RefTerm.v4 A) A.a5 A.a6 _ _ _ p q
  rw [h]
  exact dense_congr _ _ A.a5 A.a6 (fun p k => v4_eq A p k) p q

section Head

variable (A : Cert.Gcn.Args) (h2 : Fin 1024 → Fin 256 → EReal)
  (hh : ∀ n f, RefTerm.v55 A (ix2 n f) = h2 n f)

include hh in
/-- The first layer after the hops. -/
theorem v60_eq (p : Fin 1024) (q : Fin 256) :
    RefTerm.v60 A (ix2 p q) = Cert.Gcn.dense h2 A.a7 A.a8 p q := by
  have h : RefTerm.v60 A (ix2 p q) = Cert.Gcn.dense (fun p k => RefTerm.v55 A (ix2 p k)) A.a7 A.a8 p q := by
    unfold RefTerm.v60 RefTerm.call5_v0 RefTerm.call5_cst RefTerm.v59 RefTerm.v58 RefTerm.v57 RefTerm.v56
    exact layer_apply dot_S1024x256_S256x256_S1024x256_1_0_0_1_n_n rfl rfl rfl rfl rfl rfl rfl rfl
      (RefTerm.v55 A) A.a7 A.a8 _ _ _ p q
  rw [h]
  exact dense_congr _ _ A.a7 A.a8 (fun p k => hh p k) p q

include hh in
/-- The second layer after the hops: the graph features `x_graph`. -/
theorem v65_eq (p : Fin 1024) (q : Fin 256) :
    RefTerm.v65 A (ix2 p q) = Cert.Gcn.dense (Cert.Gcn.dense h2 A.a7 A.a8) A.a9 A.a10 p q := by
  have h : RefTerm.v65 A (ix2 p q) = Cert.Gcn.dense (fun p k => RefTerm.v60 A (ix2 p k)) A.a9 A.a10 p q := by
    unfold RefTerm.v65 RefTerm.call6_v0 RefTerm.call6_cst RefTerm.v64 RefTerm.v63 RefTerm.v62 RefTerm.v61
    exact layer_apply dot_S1024x256_S256x256_S1024x256_1_0_0_1_n_n rfl rfl rfl rfl rfl rfl rfl rfl
      (RefTerm.v60 A) A.a9 A.a10 _ _ _ p q
  rw [h]
  exact dense_congr _ _ A.a9 A.a10 (fun p k => v60_eq A h2 hh p k) p q

/-- The layer on `[x_graph, x]`, as the specification's `head` spells it. -/
def p1 (x : Fin 1024 → Fin 256 → EReal) : Fin 1024 → Fin 128 → EReal := fun p q =>
  max (((∑ k : Fin 256, Cert.Gcn.dense (Cert.Gcn.dense h2 A.a7 A.a8) A.a9 A.a10 p k * A.a11 (ix2 (Cert.Gcn.lo k) q))
      + (∑ k : Fin 256, x p k * A.a11 (ix2 (Cert.Gcn.hi k) q))) + A.a12 (ix1 q)) 0

include hh in
/-- The layer on `[x_graph, x]`. -/
theorem v71_eq (p : Fin 1024) (q : Fin 128) :
    RefTerm.v71 A (ix2 p q) = p1 A h2 (Cert.Gcn.enc A) p q := by
  have h : RefTerm.v71 A (ix2 p q)
      = max (((∑ k : Fin 256, RefTerm.v65 A (ix2 p k) * A.a11 (ix2 (Cert.Gcn.lo k) q))
          + (∑ k : Fin 256, RefTerm.v9 A (ix2 p k) * A.a11 (ix2 (Cert.Gcn.hi k) q))) + A.a12 (ix1 q)) 0 := by
    unfold RefTerm.v71 RefTerm.call7_v0 RefTerm.call7_cst RefTerm.v70 RefTerm.v69 RefTerm.v68 RefTerm.v67 RefTerm.v66
    exact joined_layer_apply dot_S1024x512_S512x128_S1024x128_1_0_0_1_n_n rfl rfl rfl rfl rfl rfl rfl rfl
      (RefTerm.v65 A) (RefTerm.v9 A) A.a11 A.a12 _ _ _ _ p q
  rw [h]
  simp only [v65_eq A h2 hh, enc_eq A]
  rfl

include hh in
/-- The layer after it. -/
theorem v76_eq (p : Fin 1024) (q : Fin 128) :
    RefTerm.v76 A (ix2 p q) = Cert.Gcn.dense (p1 A h2 (Cert.Gcn.enc A)) A.a13 A.a14 p q := by
  have h : RefTerm.v76 A (ix2 p q) = Cert.Gcn.dense (fun p k => RefTerm.v71 A (ix2 p k)) A.a13 A.a14 p q := by
    unfold RefTerm.v76 RefTerm.call8_v0 RefTerm.call8_cst RefTerm.v75 RefTerm.v74 RefTerm.v73 RefTerm.v72
    exact layer_apply dot_S1024x128_S128x128_S1024x128_1_0_0_1_n_n rfl rfl rfl rfl rfl rfl rfl rfl
      (RefTerm.v71 A) A.a13 A.a14 _ _ _ p q
  rw [h]
  exact dense_congr _ _ A.a13 A.a14 (fun p k => v71_eq A h2 hh p k) p q

include hh in
/-- The layers after the second hop are the specification's `head`, laid out as a column. -/
theorem head_eq : RefTerm.term A = Cert.Gcn.asColumn (Cert.Gcn.head A h2 (Cert.Gcn.enc A)) := by
  funext i
  obtain ⟨p, z, rfl⟩ : ∃ (p : Fin 1024) (z : Fin 1), i = ix2 p z := ⟨i 0, i 1, eq_ix2 i⟩
  have hz : z = 0 := Subsingleton.elim _ _
  subst hz
  have h : RefTerm.term A (ix2 p (0 : Fin 1))
      = ((∑ k : Fin 128, RefTerm.v76 A (ix2 p k) * A.a15 (ix2 k (0 : Fin 1))) + A.a16 (ix1 (0 : Fin 1)))
          * A.a2 (ix1 p) := by
    unfold RefTerm.term RefTerm.v82 RefTerm.v81 RefTerm.v80 RefTerm.v79 RefTerm.v78 RefTerm.v77
    exact readout_apply dot_S1024x128_S128x1_S1024x1_1_0_0_1_n_n rfl rfl rfl rfl rfl rfl rfl rfl
      (RefTerm.v76 A) A.a15 A.a16 A.a2 _ _ _ p 0
  rw [h]
  simp only [v76_eq A h2 hh]
  rfl

end Head

end Cert.ReferenceIdeal.RefValue

end
-- ==== Proof.RefGraphSum.lean ====
import Idealize.ShloMosaic.Lib.ValueIdx

/-!
# The complete edge list, and a sum over the edges into one node

The reference lists every ordered pair of the 1024 nodes as an edge: edge number `e = i · 1024 + j` goes
from source `i` to target `j`.  The edges are therefore the pairs `(i, j)`, and a sum over the edges
whose target is a fixed node `n` is the sum over the sources `i` of the term at edge `i · 1024 + n`.
Only commutativity and associativity of the addition are used.
-/

noncomputable section

open scoped BigOperators

namespace Cert.ReferenceIdeal.RefValue

/-- Edge number `i · 1024 + j` of the complete edge list: source `i`, target `j`. -/
def edge (i j : Fin 1024) : Fin 1048576 :=
  ⟨i.val * 1024 + j.val, by have := i.isLt; have := j.isLt; omega⟩

theorem edge_val (i j : Fin 1024) : (edge i j).val = i.val * 1024 + j.val := rfl

/-- The edges are the pairs (source, target): `e ↦ (e / 1024, e % 1024)` inverts `(i, j) ↦ i · 1024 + j`. -/
def edgeEquiv : Fin 1024 × Fin 1024 ≃ Fin 1048576 where
  toFun p := edge p.1 p.2
  invFun e := (⟨e.val / 1024, by have := e.isLt; omega⟩, ⟨e.val % 1024, by omega⟩)
  left_inv p := by
    rcases p with ⟨i, j⟩
    have hi := i.isLt
    have hj := j.isLt
    refine Prod.ext (Fin.ext ?_) (Fin.ext ?_)
    · show (i.val * 1024 + j.val) / 1024 = i.val
      omega
    · show (i.val * 1024 + j.val) % 1024 = j.val
      omega
  right_inv e := Fin.ext (by
    show e.val / 1024 * 1024 + e.val % 1024 = e.val
    omega)

theorem edgeEquiv_apply (i j : Fin 1024) : edgeEquiv (i, j) = edge i j := rfl

/-- **A sum over the edges into node `n` is the sum over the sources.**  If a property of edges holds
of edge `i · 1024 + j` exactly when `j = n`, the sum of `g` over the edges with the property is
`Σ_i g (i · 1024 + n)`. -/
theorem sum_filter_edge {M : Type*} [AddCommMonoid M] (P : Fin 1048576 → Prop) [DecidablePred P]
    (n : Fin 1024) (hP : ∀ i j, P (edge i j) ↔ j = n) (g : Fin 1048576 → M) :
    ∑ e ∈ Finset.univ.filter P, g e = ∑ i : Fin 1024, g (edge i n) := by
  rw [Finset.sum_filter, ← Equiv.sum_comp edgeEquiv, Fintype.sum_prod_type]
  refine Finset.sum_congr rfl (fun i _ => ?_)
  show ∑ j : Fin 1024, (if P (edge i j) then g (edge i j) else 0) = g (edge i n)
  rw [Finset.sum_eq_single n]
  · rw [if_pos ((hP i n).mpr rfl)]
  · intro j _ hj
    rw [if_neg (fun h => hj ((hP i j).mp h))]
  · intro h
    exact absurd (Finset.mem_univ n) h

end Cert.ReferenceIdeal.RefValue

end
-- ==== Proof.RefGraphIdx.lean ====
import proofs.«106343_g48172353192219_fold_wed_c4_272_4_alg».proof.ReferenceIdeal
import proofs.«106343_g48172353192219_fold_wed_c4_272_4_alg».proof.Proof.LibGatherScatterRead
import proofs.«106343_g48172353192219_fold_wed_c4_272_4_alg».proof.Proof.LibTableRead
import proofs.«106343_g48172353192219_fold_wed_c4_272_4_alg».proof.Proof.RefGraphSum
import Idealize.ShloMosaic.Lib.WordArith
import Idealize.ShloMosaic.Lib.IdealHost
import Idealize.ShloMosaic.Lib.Pipeline.Value

/-!
# The edge list's index tables, read at an edge

Node numbers travel as 32-bit words.  The source table of the complete edge list holds, at edge
`i · 1024 + j`, the word of `i`; the target table holds the word of `j`.  Both are non-negative and
below 1024, so the negative-index normalisation leaves them unchanged, a gather by them reads exactly
row `i` (or `j`), and a scatter by the target table lands edge `i · 1024 + j` in row `j`.
-/

noncomputable section

open scoped BigOperators

namespace Cert.ReferenceIdeal.RefValue

open Idealize.ShloMosaic Idealize.ShloMosaic.ValueIdx Cert.ReferenceIdeal

/-! ## Node numbers as words -/

/-- A node number as a 32-bit word. -/
def nodeWord (i : Fin 1024) : BitVec 32 := BitVec.ofNat 32 i.val

/-- Read as a signed integer, the word of node `i` is `i`. -/
theorem nodeWord_toInt (i : Fin 1024) : (nodeWord i).toInt = (i.val : Int) :=
  WordArith.toInt_ofNat_small i.val (by have := i.isLt; omega)

/-- A scatter lands the word of node `j` in row `n` exactly when `j = n`. -/
theorem scatterRowOf?_nodeWord (j n : Fin 1024) :
    LibGatherScatterRead.scatterRowOf? 1024 (nodeWord j) = some n ↔ j = n := by
  rw [LibGatherScatterRead.scatterRowOf?_eq_some_iff, nodeWord_toInt]
  constructor
  · intro h
    exact Fin.ext (by omega)
  · intro h
    rw [h]

/-- A gather by the word of node `i` reads row `i`. -/
theorem gatherRowOf_nodeWord (hN : 0 < 1024) (i : Fin 1024) :
    LibGatherScatterRead.gatherRowOf 1024 hN (nodeWord i) = i := by
  refine Fin.ext ?_
  rw [LibGatherScatterRead.gatherRowOf_val, nodeWord_toInt]
  have := i.isLt
  omega

/-- The negative-index normalisation leaves the word of a node unchanged. -/
theorem normalise_nodeWord (i : Fin 1024) (c : BitVec 32) :
    Scalar.select (IntOp.cmpi .slt (nodeWord i) 0#32) (IntOp.addi (nodeWord i) c) (nodeWord i) = nodeWord i :=
  LibGatherScatterRead.normalise_of_nonneg _ _ (by rw [nodeWord_toInt]; omega)

/-! ## The flattened `[1024, 1024]` arrays at an edge -/

section Tables
variable {α : Type}

/-- A `[1024, 1024]` array flattened to `[1048576]`, read at edge `i · 1024 + j`, is its entry `(i, j)`. -/
theorem flatten_apply (x : S1024x1024.Idx → α) (h : S1024x1024.ShapeCasts S1048576) (i j : Fin 1024) :
    shapeCast S1048576 x h (ix1 (edge i j)) = x (ix2 i j) := by
  refine shapeCast_apply x h (ix1 (edge i j)) (ix2 i j) ?_
  rw [Shape.rowMajor_val_two, Shape.rowMajor_val_one]
  rfl

/-- The source table: the node numbers laid down the rows, flattened; at edge `i · 1024 + j` it
holds the word of `i`. -/
theorem srcTable_apply (hb : S1024.BroadcastsInDim S1024x1024 (![0] : Fin 1 → Fin S1024x1024.rank))
    (hc : S1024x1024.ShapeCasts S1048576) (i j : Fin 1024) :
    shapeCast S1048576 (broadcastInDim S1024x1024 ![0] hb (iotaInDim S1024 32 0)) hc (ix1 (edge i j))
      = nodeWord i := by
  rw [flatten_apply]
  refine (broadcastInDim_apply ![0] hb _ (ix2 i j) (ix1 i) (fun a => ?_)).trans rfl
  match a with
  | ⟨0, _⟩ =>
    show i.val = if (1024 : Nat) = 1 then 0 else i.val
    rw [if_neg (by decide)]

/-- The target table: the node numbers laid along the columns, flattened; at edge `i · 1024 + j` it
holds the word of `j`. -/
theorem dstTable_apply (hs : S1024.ShapeCasts S1x1024)
    (hb : S1x1024.BroadcastsInDim S1024x1024 (![0, 1] : Fin 2 → Fin S1024x1024.rank))
    (hc : S1024x1024.ShapeCasts S1048576) (i j : Fin 1024) :
    shapeCast S1048576 (broadcastInDim S1024x1024 ![0, 1] hb (shapeCast S1x1024 (iotaInDim S1024 32 0) hs)) hc
        (ix1 (edge i j))
      = nodeWord j := by
  rw [flatten_apply]
  refine (broadcastInDim_apply ![0, 1] hb _ (ix2 i j) (ix2 (0 : Fin 1) j) (fun a => ?_)).trans ?_
  · match a with
    | ⟨0, _⟩ =>
      show (0 : Nat) = if (1 : Nat) = 1 then 0 else i.val
      rw [if_pos rfl]
    | ⟨1, _⟩ =>
      show j.val = if (1024 : Nat) = 1 then 0 else j.val
      rw [if_neg (by decide)]
  · refine (shapeCast_apply _ hs (ix2 (0 : Fin 1) j) (ix1 j) ?_).trans rfl
    rw [Shape.rowMajor_val_one, Shape.rowMajor_val_two]
    show j.val = 0 * 1024 + j.val
    omega

end Tables

/-! ## Normalisation, and the index column -/

/-- A scalar word repeated over a shape reads as that word everywhere. -/
theorem splatI_apply {s : Shape} {w : Nat} (b : BitVec w)
    (h : S_.BroadcastsInDim s (![] : Fin 0 → Fin s.rank)) (i : s.Idx) :
    broadcastInDim s ![] h (constantI S_ w b) i = b :=
  broadcastInDim_scalar_apply h _ i

/-- The negative-index normalisation `select (t <ₛ 0) (t + c) t` of an index table, at an entry that
holds the word of a node, holds that word. -/
theorem normalise_apply (tbl zero c : IVec S1048576 32) (e : Fin 1048576) (k : Fin 1024)
    (ht : tbl (ix1 e) = nodeWord k) (hz : zero (ix1 e) = 0#32) :
    select (cmpi .slt tbl zero) (addi tbl c) tbl (ix1 e) = nodeWord k := by
  show Scalar.select (IntOp.cmpi .slt (tbl (ix1 e)) (zero (ix1 e))) (IntOp.addi (tbl (ix1 e)) (c (ix1 e)))
    (tbl (ix1 e)) = nodeWord k
  rw [hz, ht]
  exact normalise_nodeWord k _

/-- The index vector as a column: entry `(e, 0)` is the vector's entry `e`. -/
theorem column_apply {α : Type} (v : S1048576.Idx → α)
    (h : S1048576.BroadcastsInDim S1048576x1 (![0] : Fin 1 → Fin S1048576x1.rank)) (e : Fin 1048576) (u : Fin 1) :
    broadcastInDim S1048576x1 ![0] h v (ix2 e u) = v (ix1 e) :=
  TableRead.column_apply v h e u

/-! ## The two gathers -/

variable [Facts₀]

/-- A gather of entries of a `[1024]` vector by an index column whose entry `(e, 0)` holds the word of
node `k` reads, at `e`, the vector's entry `k`. -/
theorem gatherFlat_apply {α : Type} (x : S1024.Idx → α) (idx : IVec S1048576x1 32) (e : Fin 1048576) (k : Fin 1024)
    (hi : idx (ix2 e (0 : Fin 1)) = nodeWord k) :
    Host.gather gather_S1024_S1048576x1_S1048576_n_0_n_n_0_1_1 x idx (ix1 e) = x (ix1 k) := by
  rw [LibGatherScatterRead.gather_flat_apply (by decide : 0 < 1024) _ rfl rfl rfl rfl rfl rfl rfl x idx e, hi,
    gatherRowOf_nodeWord]

/-- A gather of rows of a `[1024, 256]` table by an index column whose entry `(e, 0)` holds the word of
node `k` reads, at `(e, f)`, the table's entry `(k, f)`. -/
theorem gatherRows_apply {α : Type} (x : S1024x256.Idx → α) (idx : IVec S1048576x1 32) (e : Fin 1048576) (k : Fin 1024)
    (f : Fin 256) (hi : idx (ix2 e (0 : Fin 1)) = nodeWord k) :
    Host.gather gather_S1024x256_S1048576x1_S1048576x256_1_0_n_n_0_1_1256 x idx (ix2 e f) = x (ix2 k f) := by
  rw [LibGatherScatterRead.gather_rows_apply (by decide : 0 < 1024) _ rfl rfl rfl rfl rfl rfl rfl x idx e f, hi,
    gatherRowOf_nodeWord]

end Cert.ReferenceIdeal.RefValue

end
-- ==== Proof.RefGraphDeg.lean ====
import proofs.«106343_g48172353192219_fold_wed_c4_272_4_alg».proof.Proof.RefGraphIdx
import proofs.«106343_g48172353192219_fold_wed_c4_272_4_alg».proof.Proof.Consts

/-!
# Scatter-adds over the complete edge list as sums over the sources, and the degree weight

A scatter-add by the target table lands edge `i · 1024 + j` in row `j`, so row `n` of the result is
the operand's row `n` plus the sum over the sources `i` of the update at edge `i · 1024 + n`.
With the flattened adjacency as updates this is the column sum, the degree.  The degree weight is
written `deg ^ (-1/2)` under a selection on `deg > 0`; there it is `1/√deg`: for a real `deg > 0`
the power with exponent `-1/2` is the inverse of the square root, at `+∞` both are `0`, and
elsewhere the selection takes its other branch.
-/

noncomputable section

open scoped BigOperators

namespace Cert.ReferenceIdeal.RefValue

open Idealize.ShloMosaic Idealize.ShloMosaic.ValueIdx Cert.ReferenceIdeal

/-! ## Float constants repeated over a shape -/

/-- A scalar float constant repeated over a shape reads as the value of its pattern everywhere. -/
theorem splatF_apply {s : Shape} (b : BitVec 32)
    (h : S_.BroadcastsInDim s (![] : Fin 0 → Fin s.rank)) (i : s.Idx) :
    broadcastInDim s ![] h (constant (F := Ideal) S_ .f32 b) i = Ideal.ofBits .f32 b :=
  broadcastInDim_scalar_apply h _ i

/-- The zero pattern repeated over a shape reads as `0` everywhere. -/
theorem splatF_zero_apply {s : Shape}
    (h : S_.BroadcastsInDim s (![] : Fin 0 → Fin s.rank)) (i : s.Idx) :
    broadcastInDim s ![] h (constant (F := Ideal) S_ .f32 0x00000000#32) i = 0 :=
  (splatF_apply _ h i).trans Ideal.ofBits_zero_f32

/-! ## The two scatter-adds by the target table -/

section Scatter
variable [Facts₀]

/-- **A scatter-add of edge entries by the target table.**  If the index column holds, at edge
`i · 1024 + j`, the word of `j`, entry `n` of the result is the operand's entry `n` plus
`Σ_i upd (i · 1024 + n)`. -/
theorem scatterFlat_sum (x : FVec Ideal S1024 .f32) (idx : IVec S1048576x1 32) (upd : FVec Ideal S1048576 .f32)
    (hidx : ∀ i j, idx (ix2 (edge i j) (0 : Fin 1)) = nodeWord j) (n : Fin 1024) :
    Host.scatterAdd (F := Ideal) scatter_S1024_S1048576x1_S1048576_n_0_0_1 x idx upd (ix1 n)
      = x (ix1 n) + ∑ i : Fin 1024, upd (ix1 (edge i n)) := by
  refine (LibGatherScatterRead.scatterAdd_flat_apply scatter_S1024_S1048576x1_S1048576_n_0_0_1
    rfl rfl rfl rfl x idx upd n).trans ?_
  exact congrArg (fun t => x (ix1 n) + t)
    (sum_filter_edge _ n (fun i j => by rw [hidx i j]; exact scatterRowOf?_nodeWord j n)
      (fun e => upd (ix1 e)))

/-- **A scatter-add of edge rows by the target table.**  If the index column holds, at edge
`i · 1024 + j`, the word of `j`, element `(n, f)` of the result is the operand's element `(n, f)` plus
`Σ_i upd (i · 1024 + n, f)`. -/
theorem scatterRows_sum (x : FVec Ideal S1024x256 .f32) (idx : IVec S1048576x1 32)
    (upd : FVec Ideal S1048576x256 .f32)
    (hidx : ∀ i j, idx (ix2 (edge i j) (0 : Fin 1)) = nodeWord j) (n : Fin 1024) (f : Fin 256) :
    Host.scatterAdd (F := Ideal) scatter_S1024x256_S1048576x1_S1048576x256_1_0_0_1 x idx upd (ix2 n f)
      = x (ix2 n f) + ∑ i : Fin 1024, upd (ix2 (edge i n) f) := by
  refine (LibGatherScatterRead.scatterAdd_rows_apply scatter_S1024x256_S1048576x1_S1048576x256_1_0_0_1
    rfl rfl rfl rfl x idx upd n f).trans ?_
  exact congrArg (fun t => x (ix2 n f) + t)
    (sum_filter_edge _ n (fun i j => by rw [hidx i j]; exact scatterRowOf?_nodeWord j n)
      (fun e => upd (ix2 e f)))

end Scatter

/-! ## The degree weight -/

/-- A comparison `d > 0` that fails gives the zero bit. -/
theorem cmp_ogt_zero_of_not_pos (d : EReal) (h : ¬ 0 < d) : Ideal.cmp .ogt d 0 = 0#1 := by
  show BitVec.ofBool (decide ((0 : EReal) < d)) = 0#1
  rw [decide_eq_false h]
  rfl

/-- For a real `r > 0`, `r ^ (-1/2) = 1/√r`. -/
theorem pow_neg_half_eq_rsqrt_of_pos (r : ℝ) (hr : 0 < r) :
    Ideal.pow (r : EReal) ((-(1/2) : ℝ) : EReal) = Ideal.rsqrt (r : EReal) := by
  rw [Ideal.pow_coe_coe, Ideal.rsqrt_coe, if_neg (not_lt.mpr hr.le), if_neg hr.ne']
  congr 1
  show r ^ (-(1/2) : ℝ) = (Real.sqrt r)⁻¹
  rw [Real.sqrt_eq_rpow, Real.rpow_neg hr.le]

/-- **Under the selection on `d > 0`, the power `d ^ (-1/2)` is `1/√d`.** -/
theorem select_pow_eq_rsqrt (d : EReal) :
    Scalar.select (Ideal.cmp .ogt d 0) (Ideal.pow d ((-(1/2) : ℝ) : EReal)) 0
      = Scalar.select (Ideal.cmp .ogt d 0) (Ideal.rsqrt d) 0 := by
  induction d using EReal.rec with
  | bot =>
    rw [cmp_ogt_zero_of_not_pos ⊥ (by simp), select_zero, select_zero]
  | top =>
    have hp : Ideal.pow (⊤ : EReal) ((-(1/2) : ℝ) : EReal) = 0 := by
      rw [Ideal.pow_top, if_neg (by rw [EReal.coe_pos]; norm_num),
        if_neg (by rw [EReal.coe_eq_zero]; norm_num)]
    rw [hp, Ideal.rsqrt_top]
  | coe r =>
    by_cases hr : 0 < r
    · rw [pow_neg_half_eq_rsqrt_of_pos r hr]
    · rw [cmp_ogt_zero_of_not_pos (r : EReal) (by rw [EReal.coe_pos]; exact hr), select_zero, select_zero]

/-- **The degree weight, read at a node.**  With `d` the degrees, `z` and `w` arrays that read `0` at
node `n` and `p` one that reads `-1/2` there, `select (d > z) (d ^ p) w` at `n` is `1/√(d n)` where
`d n > 0` and `0` elsewhere. -/
theorem dinvStage (d z p w : FVec Ideal S1024 .f32) (n : Fin 1024)
    (hz : z (ix1 n) = 0) (hp : p (ix1 n) = ((-(1/2) : ℝ) : EReal)) (hw : w (ix1 n) = 0) :
    select (cmpf (F := Ideal) .ogt d z) (Host.powf (F := Ideal) d p) w (ix1 n)
      = Scalar.select (Ideal.cmp .ogt (d (ix1 n)) 0) (Ideal.rsqrt (d (ix1 n))) 0 := by
  show Scalar.select (Ideal.cmp .ogt (d (ix1 n)) (z (ix1 n))) (Ideal.pow (d (ix1 n)) (p (ix1 n))) (w (ix1 n)) = _
  rw [hz, hp, hw]
  exact select_pow_eq_rsqrt _

end Cert.ReferenceIdeal.RefValue

end
-- ==== Proof.RefGraphTake.lean ====
import proofs.«106343_g48172353192219_fold_wed_c4_272_4_alg».proof.Proof.RefGraphIdx
import Idealize.ShloMosaic.PureOps.Reduce
import Idealize.ShloMosaic.Lib.Affine

/-!
# Taking the rows of the node features along the edges

The reference takes, for every edge, the feature row of the edge's source.  Its take guards the
gather by a mask: an edge's row is kept when its index is in `[0, 1023]` (a conjunction over the one
entry of the index column's row) and replaced by a fill value otherwise.  The source table's words are
node numbers, so the mask is one at every edge, the fill value is never read, and the taken row of
edge `i · 1024 + j` is row `i` of the features.
-/

noncomputable section

open scoped BigOperators

namespace Cert.ReferenceIdeal.RefValue

open Idealize.ShloMosaic Idealize.ShloMosaic.ValueIdx Cert.ReferenceIdeal

/-- A conjunction of one-bit words that are all one, taken from one, is one. -/
theorem fold_andi_one {ι : Type} (s : Finset ι) (f : ι → BitVec 1) (hf : ∀ x ∈ s, f x = 1#1) :
    Finset.fold IntOp.andi (1#1) f s = 1#1 := by
  classical
  revert hf
  refine Finset.induction_on s ?_ ?_
  · intro _
    rfl
  · intro a s ha ih hf
    rw [Finset.fold_insert ha, hf a (Finset.mem_insert_self a s),
      ih (fun x hx => hf x (Finset.mem_insert_of_mem hx))]
    rfl

/-- **The take's in-range mask is one at an edge whose index is a node number.**  With `v5` the index
column, `lo` and `hi` columns that read `0` and `1023` at row `e`, and the conjunction started from
one, the conjunction over row `e` of `(v5 ≥ lo) ∧ (v5 ≤ hi)` is one when `v5 (e, 0)` is the word of a
node. -/
theorem takeMask_apply (v5 lo hi : IVec S1048576x1 32) (init : IVec S_ 1)
    (h' : S1048576x1.ReducesTo [1] S1048576) (hu : 0 < S_.numel)
    (e : Fin 1048576) (k : Fin 1024)
    (h5 : v5 (ix2 e (0 : Fin 1)) = nodeWord k) (hlo : lo (ix2 e (0 : Fin 1)) = 0#32)
    (hhi : hi (ix2 e (0 : Fin 1)) = 1023#32) (hinit : ∀ i, init i = 1#1) :
    Host.reduce IntOp.andi (andi (cmpi .sge v5 lo) (cmpi .sle v5 hi)) init h' hu (ix1 e) = 1#1 := by
  have hR : S1048576x1.Reduces [(1 : Fin 2)] S1048576 := by decide
  rw [Host.reduce_eq_fold_single IntOp.andi _ init h' hR hu (ix1 e), hinit]
  refine fold_andi_one _ _ (fun x _ => ?_)
  have hx : x.val < 1 := x.isLt
  have hl : hR.lift (ix1 e) x = ix2 e (0 : Fin 1) := by
    funext c
    refine Fin.ext ?_
    match c with
    | ⟨0, _⟩ => rfl
    | ⟨1, _⟩ =>
      show x.val = 0
      omega
  show IntOp.andi (IntOp.cmpi .sge (v5 (hR.lift (ix1 e) x)) (lo (hR.lift (ix1 e) x)))
    (IntOp.cmpi .sle (v5 (hR.lift (ix1 e) x)) (hi (hR.lift (ix1 e) x))) = 1#1
  rw [hl, h5, hlo, hhi]
  have hge : IntOp.cmpi .sge (nodeWord k) 0#32 = 1#1 :=
    IntOp.cmpi_sge.mpr (by rw [nodeWord_toInt]; simp)
  have hle : IntOp.cmpi .sle (nodeWord k) 1023#32 = 1#1 :=
    IntOp.cmpi_sle.mpr (by rw [nodeWord_toInt]; have := k.isLt; simp; omega)
  rw [hge, hle]
  rfl

section Broadcasts
variable {α : Type}

/-- A per-edge vector repeated along the 256 features: element `(e, f)` is the vector's entry `e`. -/
theorem edgeRows_apply (v : S1048576.Idx → α)
    (h : S1048576.BroadcastsInDim S1048576x256 (![0] : Fin 1 → Fin S1048576x256.rank))
    (e : Fin 1048576) (f : Fin 256) :
    broadcastInDim S1048576x256 ![0] h v (ix2 e f) = v (ix1 e) :=
  broadcastInDim_apply ![0] h v (ix2 e f) (ix1 e) (fun a => by
    match a with
    | ⟨0, _⟩ =>
      show e.val = if (1048576 : Nat) = 1 then 0 else e.val
      rw [if_neg (by decide)])

/-- A per-edge column repeated along the 256 features: element `(e, f)` is the column's entry `(e, 0)`. -/
theorem edgeColumnRows_apply (v : S1048576x1.Idx → α)
    (h : S1048576x1.BroadcastsInDim S1048576x256 (![0, 1] : Fin 2 → Fin S1048576x256.rank))
    (e : Fin 1048576) (f : Fin 256) :
    broadcastInDim S1048576x256 ![0, 1] h v (ix2 e f) = v (ix2 e (0 : Fin 1)) :=
  broadcastInDim_apply ![0, 1] h v (ix2 e f) (ix2 e (0 : Fin 1)) (fun a => by
    match a with
    | ⟨0, _⟩ =>
      show e.val = if (1048576 : Nat) = 1 then 0 else e.val
      rw [if_neg (by decide)]
    | ⟨1, _⟩ =>
      show (0 : Nat) = if (1 : Nat) = 1 then 0 else f.val
      rw [if_pos rfl])

/-- The `[1]` constant as a `[1, 1]` array, repeated down a column: every entry is the constant's. -/
theorem unitColumn_apply (v : S1.Idx → α)
    (h8 : S1.BroadcastsInDim S1x1 (![1] : Fin 1 → Fin S1x1.rank))
    (h9 : S1x1.BroadcastsInDim S1048576x1 (![0, 1] : Fin 2 → Fin S1048576x1.rank))
    (e : Fin 1048576) (u : Fin 1) :
    broadcastInDim S1048576x1 ![0, 1] h9 (broadcastInDim S1x1 ![1] h8 v) (ix2 e u) = v (ix1 (0 : Fin 1)) := by
  refine (broadcastInDim_apply ![0, 1] h9 _ (ix2 e u) (ix2 (0 : Fin 1) (0 : Fin 1)) (fun a => ?_)).trans ?_
  · match a with
    | ⟨0, _⟩ =>
      show (0 : Nat) = if (1 : Nat) = 1 then 0 else e.val
      rw [if_pos rfl]
    | ⟨1, _⟩ =>
      show (0 : Nat) = if (1 : Nat) = 1 then 0 else u.val
      rw [if_pos rfl]
  · refine broadcastInDim_apply ![1] h8 v (ix2 (0 : Fin 1) (0 : Fin 1)) (ix1 (0 : Fin 1)) (fun a => ?_)
    match a with
    | ⟨0, _⟩ =>
      show (0 : Nat) = if (1 : Nat) = 1 then 0 else 0
      rw [if_pos rfl]

end Broadcasts

/-- **A masked row, where the mask is one, is the row.** -/
theorem takeSelect_apply {α : Type} (m : IVec S1048576 1) (g fill : S1048576x256.Idx → α)
    (h : S1048576.BroadcastsInDim S1048576x256 (![0] : Fin 1 → Fin S1048576x256.rank))
    (e : Fin 1048576) (f : Fin 256) (hm : m (ix1 e) = 1#1) :
    select (broadcastInDim S1048576x256 ![0] h m) g fill (ix2 e f) = g (ix2 e f) := by
  show Scalar.select (broadcastInDim S1048576x256 ![0] h m (ix2 e f)) (g (ix2 e f)) (fill (ix2 e f)) = _
  rw [edgeRows_apply, hm, select_one]

end Cert.ReferenceIdeal.RefValue

end
-- ==== Proof.RefGraphHop.lean ====
import proofs.«106343_g48172353192219_fold_wed_c4_272_4_alg».proof.Proof.RefGraphDeg
import proofs.«106343_g48172353192219_fold_wed_c4_272_4_alg».proof.Proof.RefGraphTake

/-!
# One propagation hop of the reference, read at a node and a feature

A hop multiplies, on every edge, the edge's weight (repeated along the features) by the feature row
taken at the edge's source, and scatter-adds the products into zeros by the target table.  At node `n`
and feature `f` the result is therefore `Σ_i w(i, n) · h(i, f)`: the sum over the sources `i` of the
weight of edge `i · 1024 + n` times the source's feature.  Only the reindexing of the finite sum and
`0 + x = x` are used.
-/

noncomputable section

open scoped BigOperators

namespace Cert.ReferenceIdeal.RefValue

open Idealize.ShloMosaic Idealize.ShloMosaic.ValueIdx Cert.ReferenceIdeal

/-- **The weight of an edge**: the adjacency entry times the product of the two gathered degree
weights, read at an edge. -/
theorem edgeWeight_apply (a s t : FVec Ideal S1048576 .f32) (e : Fin 1048576) :
    mulf (F := Ideal) a (mulf (F := Ideal) s t) (ix1 e) = a (ix1 e) * (s (ix1 e) * t (ix1 e)) := rfl

variable [Facts₀]

/-- **One hop, at `(n, f)`.**  `Z` is the array scattered into, `IDX` the index column, `W` the column
of edge weights and `TK` the rows taken along the edges.  If `Z` reads `0` at `(n, f)`, `IDX` holds at edge
`i · 1024 + j` the word of `j`, `W` reads `w i n` at edge `i · 1024 + n`, and `TK` reads `hv i f` at
`(i · 1024 + n, f)`, the scatter-add of `W ⊙ TK` reads `Σ_i w i n · hv i f` at `(n, f)`. -/
theorem hopStage (Z : FVec Ideal S1024x256 .f32) (IDX : IVec S1048576x1 32)
    (W : FVec Ideal S1048576x1 .f32) (TK : FVec Ideal S1048576x256 .f32)
    (hb : S1048576x1.BroadcastsInDim S1048576x256 (![0, 1] : Fin 2 → Fin S1048576x256.rank))
    (w : Fin 1024 → Fin 1024 → EReal) (hv : Fin 1024 → Fin 256 → EReal) (n : Fin 1024) (f : Fin 256)
    (hZ : Z (ix2 n f) = 0)
    (hIDX : ∀ i j, IDX (ix2 (edge i j) (0 : Fin 1)) = nodeWord j)
    (hW : ∀ i, W (ix2 (edge i n) (0 : Fin 1)) = w i n)
    (hTK : ∀ i, TK (ix2 (edge i n) f) = hv i f) :
    Host.scatterAdd (F := Ideal) scatter_S1024x256_S1048576x1_S1048576x256_1_0_0_1 Z IDX
        (mulf (F := Ideal) (broadcastInDim S1048576x256 ![0, 1] hb W) TK) (ix2 n f)
      = ∑ i : Fin 1024, w i n * hv i f := by
  rw [scatterRows_sum Z IDX _ hIDX n f, hZ, zero_add]
  refine Finset.sum_congr rfl (fun i _ => ?_)
  show broadcastInDim S1048576x256 ![0, 1] hb W (ix2 (edge i n) f) * TK (ix2 (edge i n) f) = _
  rw [edgeColumnRows_apply, hW, hTK]

end Cert.ReferenceIdeal.RefValue

end
-- ==== Proof.RefGraphDinv.lean ====
import proofs.«106343_g48172353192219_fold_wed_c4_272_4_alg».proof.Proof.RefTerm
import proofs.«106343_g48172353192219_fold_wed_c4_272_4_alg».proof.Proof.RefGraphHop

/-!
# The reference's index tables, degrees and degree weights, read at an index

The index tables of the complete edge list hold node numbers as words; the degree scatter gives the
column sums of the adjacency; the selected power is `Cert.Gcn.dinv`.
-/

noncomputable section

open scoped BigOperators

namespace Cert.ReferenceIdeal.RefValue

open Idealize.ShloMosaic Idealize.ShloMosaic.ValueIdx Cert.ReferenceIdeal

variable [Facts]

/-! ## The tables -/

/-- The source table holds, at edge `i · 1024 + j`, the word of `i`. -/
theorem v12_apply (i j : Fin 1024) : RefTerm.v12 (ix1 (edge i j)) = nodeWord i := by
  unfold RefTerm.v12 RefTerm.v11 RefTerm.v10
  exact srcTable_apply _ _ i j

/-- The target table holds, at edge `i · 1024 + j`, the word of `j`. -/
theorem v16_apply (i j : Fin 1024) : RefTerm.v16 (ix1 (edge i j)) = nodeWord j := by
  unfold RefTerm.v16 RefTerm.v15 RefTerm.v14 RefTerm.v13
  exact dstTable_apply _ _ _ i j

/-- The flattened adjacency holds, at edge `i · 1024 + j`, the entry `A[i, j]`. -/
theorem v17_apply (A : Cert.Gcn.Args) (i j : Fin 1024) : RefTerm.v17 A (ix1 (edge i j)) = A.a1 (ix2 i j) := by
  unfold RefTerm.v17
  exact flatten_apply _ _ i j

/-- The target table as a column (the index column of the degree scatter). -/
theorem v19_apply (i j : Fin 1024) : RefTerm.v19 (ix2 (edge i j) (0 : Fin 1)) = nodeWord j := by
  unfold RefTerm.v19
  rw [column_apply]
  exact v16_apply i j

/-- The target table as a column (the index column of the first hop's scatter). -/
theorem v47_apply (i j : Fin 1024) : RefTerm.v47 (ix2 (edge i j) (0 : Fin 1)) = nodeWord j := by
  unfold RefTerm.v47
  rw [column_apply]
  exact v16_apply i j

/-- The target table as a column (the index column of the second hop's scatter). -/
theorem v54_apply (i j : Fin 1024) : RefTerm.v54 (ix2 (edge i j) (0 : Fin 1)) = nodeWord j := by
  unfold RefTerm.v54
  rw [column_apply]
  exact v16_apply i j

/-! ## The degrees and the degree weights -/

/-- The degree scatter: entry `n` is the sum of column `n` of the adjacency. -/
theorem v20_apply (A : Cert.Gcn.Args) (n : Fin 1024) : RefTerm.v20 A (ix1 n) = Cert.Gcn.deg A n := by
  unfold RefTerm.v20 Cert.Gcn.deg
  rw [scatterFlat_sum RefTerm.v18 RefTerm.v19 (RefTerm.v17 A) v19_apply n]
  have h0 : RefTerm.v18 (ix1 n) = 0 := by
    unfold RefTerm.v18 RefTerm.cst
    exact splatF_zero_apply _ _
  rw [h0, zero_add]
  exact Finset.sum_congr rfl (fun i _ => v17_apply A i n)

/-- **The reference's degree weight at node `n` is `dinv A n`.** -/
theorem dinv_eq (A : Cert.Gcn.Args) (n : Fin 1024) : RefTerm.v25 A (ix1 n) = Cert.Gcn.dinv A n := by
  unfold RefTerm.v25 RefTerm.v22 RefTerm.v24 Cert.Gcn.dinv
  rw [dinvStage (RefTerm.v20 A) RefTerm.v21 RefTerm.v23 RefTerm.call2_v1 n
    (by unfold RefTerm.v21 RefTerm.cst_0; exact splatF_zero_apply _ _)
    (by unfold RefTerm.v23 RefTerm.cst_1; exact (splatF_apply _ _ _).trans Cert.Gcn.Consts.neg_half_f32)
    (by unfold RefTerm.call2_v1 RefTerm.call2_v0 RefTerm.cst_2; exact splatF_zero_apply _ _),
    v20_apply]

end Cert.ReferenceIdeal.RefValue

end
-- ==== Proof.RefGraphWeight.lean ====
import proofs.«106343_g48172353192219_fold_wed_c4_272_4_alg».proof.Proof.RefGraphDinv

/-!
# The reference's edge weights, read at an edge

The degree weights gathered at the two ends of edge `i · 1024 + j` are `dinv i` and `dinv j`; the edge's
weight is `A[i, j] · (dinv i · dinv j)`.
-/

noncomputable section

open scoped BigOperators

namespace Cert.ReferenceIdeal.RefValue

open Idealize.ShloMosaic Idealize.ShloMosaic.ValueIdx Cert.ReferenceIdeal

variable [Facts]

/-! ## The weights gathered at the two ends of every edge -/

/-- The normalised source table holds, at edge `i · 1024 + j`, the word of `i`. -/
theorem v30_apply (i j : Fin 1024) : RefTerm.v30 (ix1 (edge i j)) = nodeWord i := by
  unfold RefTerm.v30 RefTerm.v27 RefTerm.v29
  exact normalise_apply RefTerm.v12 RefTerm.v26 RefTerm.v28 (edge i j) i (v12_apply i j)
    (by unfold RefTerm.v26 RefTerm.c; exact splatI_apply _ _ _)

/-- As a column, it holds that word at `(i · 1024 + j, 0)`. -/
theorem v31_apply (i j : Fin 1024) : RefTerm.v31 (ix2 (edge i j) (0 : Fin 1)) = nodeWord i := by
  unfold RefTerm.v31
  rw [column_apply]
  exact v30_apply i j

/-- The degree weight gathered at the source of edge `i · 1024 + j` is `dinv A i`. -/
theorem v32_apply (A : Cert.Gcn.Args) (i j : Fin 1024) : RefTerm.v32 A (ix1 (edge i j)) = Cert.Gcn.dinv A i := by
  unfold RefTerm.v32
  rw [gatherFlat_apply (RefTerm.v25 A) RefTerm.v31 (edge i j) i (v31_apply i j)]
  exact dinv_eq A i

/-- The normalised target table holds, at edge `i · 1024 + j`, the word of `j`. -/
theorem v37_apply (i j : Fin 1024) : RefTerm.v37 (ix1 (edge i j)) = nodeWord j := by
  unfold RefTerm.v37 RefTerm.v34 RefTerm.v36
  exact normalise_apply RefTerm.v16 RefTerm.v33 RefTerm.v35 (edge i j) j (v16_apply i j)
    (by unfold RefTerm.v33 RefTerm.c_4; exact splatI_apply _ _ _)

/-- As a column, it holds that word at `(i · 1024 + j, 0)`. -/
theorem v38_apply (i j : Fin 1024) : RefTerm.v38 (ix2 (edge i j) (0 : Fin 1)) = nodeWord j := by
  unfold RefTerm.v38
  rw [column_apply]
  exact v37_apply i j

/-- The degree weight gathered at the target of edge `i · 1024 + j` is `dinv A j`. -/
theorem v39_apply (A : Cert.Gcn.Args) (i j : Fin 1024) : RefTerm.v39 A (ix1 (edge i j)) = Cert.Gcn.dinv A j := by
  unfold RefTerm.v39
  rw [gatherFlat_apply (RefTerm.v25 A) RefTerm.v38 (edge i j) j (v38_apply i j)]
  exact dinv_eq A j

/-- The weight of edge `i · 1024 + j`: `A[i, j] · (dinv i · dinv j)`. -/
theorem v41_apply (A : Cert.Gcn.Args) (i j : Fin 1024) :
    RefTerm.v41 A (ix1 (edge i j)) = A.a1 (ix2 i j) * (Cert.Gcn.dinv A i * Cert.Gcn.dinv A j) := by
  unfold RefTerm.v41 RefTerm.v40
  rw [edgeWeight_apply, v17_apply, v32_apply, v39_apply]

/-- The edge weights as a column (first hop). -/
theorem v42_apply (A : Cert.Gcn.Args) (i j : Fin 1024) :
    RefTerm.v42 A (ix2 (edge i j) (0 : Fin 1)) = A.a1 (ix2 i j) * (Cert.Gcn.dinv A i * Cert.Gcn.dinv A j) := by
  unfold RefTerm.v42
  rw [column_apply]
  exact v41_apply A i j

/-- The edge weights as a column (second hop). -/
theorem v49_apply (A : Cert.Gcn.Args) (i j : Fin 1024) :
    RefTerm.v49 A (ix2 (edge i j) (0 : Fin 1)) = A.a1 (ix2 i j) * (Cert.Gcn.dinv A i * Cert.Gcn.dinv A j) := by
  unfold RefTerm.v49
  rw [column_apply]
  exact v41_apply A i j

end Cert.ReferenceIdeal.RefValue

end
-- ==== Proof.RefGraphHop1.lean ====
import proofs.«106343_g48172353192219_fold_wed_c4_272_4_alg».proof.Proof.RefGraphWeight

/-!
# The reference's first hop is `hopR` of the encoder's output

The rows taken along the edges are the sources' feature rows; scattered by the target table with the
edge weights they give `Cert.Gcn.hopR`.
-/

noncomputable section

open scoped BigOperators

namespace Cert.ReferenceIdeal.RefValue

open Idealize.ShloMosaic Idealize.ShloMosaic.ValueIdx Cert.ReferenceIdeal

variable [Facts]

/-! ## The first take -/

/-- The normalised source table inside the take holds, at edge `i · 1024 + j`, the word of `i`. -/
theorem call3_v4_apply (i j : Fin 1024) : RefTerm.call3_v4 (ix1 (edge i j)) = nodeWord i := by
  unfold RefTerm.call3_v4 RefTerm.call3_v1 RefTerm.call3_v3
  exact normalise_apply RefTerm.v12 RefTerm.call3_v0 RefTerm.call3_v2 (edge i j) i (v12_apply i j)
    (by unfold RefTerm.call3_v0 RefTerm.call3_c; exact splatI_apply _ _ _)

/-- As a column, it holds that word at `(i · 1024 + j, 0)`. -/
theorem call3_v5_apply (i j : Fin 1024) : RefTerm.call3_v5 (ix2 (edge i j) (0 : Fin 1)) = nodeWord i := by
  unfold RefTerm.call3_v5
  rw [column_apply]
  exact call3_v4_apply i j

/-- The take's in-range mask is one at every edge. -/
theorem call3_v12_apply (i j : Fin 1024) : RefTerm.call3_v12 (ix1 (edge i j)) = 1#1 := by
  unfold RefTerm.call3_v12 RefTerm.call3_v11 RefTerm.call3_v7 RefTerm.call3_v10
  exact takeMask_apply RefTerm.call3_v5 RefTerm.call3_v6 RefTerm.call3_v9 RefTerm.call3_c_3 _ _ (edge i j) i
    (call3_v5_apply i j)
    (by unfold RefTerm.call3_v6 RefTerm.call3_c_2; exact splatI_apply _ _ _)
    (by unfold RefTerm.call3_v9 RefTerm.call3_v8 RefTerm.call3_c_1; exact (unitColumn_apply _ _ _ _ _).trans rfl)
    (fun _ => rfl)

/-- The row taken at edge `i · 1024 + j` is row `i` of the features. -/
theorem v43_apply (A : Cert.Gcn.Args) (i j : Fin 1024) (f : Fin 256) :
    RefTerm.v43 A (ix2 (edge i j) f) = RefTerm.v9 A (ix2 i f) := by
  unfold RefTerm.v43 RefTerm.call3_v14
  rw [takeSelect_apply RefTerm.call3_v12 (RefTerm.call3_v13 A) RefTerm.call3_v15 _ (edge i j) f (call3_v12_apply i j)]
  unfold RefTerm.call3_v13
  exact gatherRows_apply (RefTerm.v9 A) RefTerm.call3_v5 (edge i j) i f (call3_v5_apply i j)

/-- **The first hop of the reference is `hopR`.** -/
theorem hop1_eq (A : Cert.Gcn.Args) (x : Fin 1024 → Fin 256 → EReal)
    (hx : ∀ i f, RefTerm.v9 A (ix2 i f) = x i f) (n : Fin 1024) (f : Fin 256) :
    RefTerm.v48 A (ix2 n f) = Cert.Gcn.hopR A x n f := by
  unfold RefTerm.v48 RefTerm.v45 RefTerm.v44 Cert.Gcn.hopR
  exact hopStage RefTerm.v46 RefTerm.v47 (RefTerm.v42 A) (RefTerm.v43 A) _
    (fun i n => A.a1 (ix2 i n) * (Cert.Gcn.dinv A i * Cert.Gcn.dinv A n)) x n f
    (by unfold RefTerm.v46 RefTerm.cst_6; exact splatF_zero_apply _ _)
    v47_apply (fun i => v42_apply A i n) (fun i => (v43_apply A i n f).trans (hx i f))

end Cert.ReferenceIdeal.RefValue

end
-- ==== Proof.RefGraphHop2.lean ====
import proofs.«106343_g48172353192219_fold_wed_c4_272_4_alg».proof.Proof.RefGraphHop1

/-!
# The reference's second hop is `hopR` of the first hop's output

The same chain as the first hop, with the first hop's output as the features.
-/

noncomputable section

open scoped BigOperators

namespace Cert.ReferenceIdeal.RefValue

open Idealize.ShloMosaic Idealize.ShloMosaic.ValueIdx Cert.ReferenceIdeal

variable [Facts]

/-! ## The second take -/

/-- The normalised source table inside the take holds, at edge `i · 1024 + j`, the word of `i`. -/
theorem call4_v4_apply (i j : Fin 1024) : RefTerm.call4_v4 (ix1 (edge i j)) = nodeWord i := by
  unfold RefTerm.call4_v4 RefTerm.call4_v1 RefTerm.call4_v3
  exact normalise_apply RefTerm.v12 RefTerm.call4_v0 RefTerm.call4_v2 (edge i j) i (v12_apply i j)
    (by unfold RefTerm.call4_v0 RefTerm.call4_c; exact splatI_apply _ _ _)

/-- As a column, it holds that word at `(i · 1024 + j, 0)`. -/
theorem call4_v5_apply (i j : Fin 1024) : RefTerm.call4_v5 (ix2 (edge i j) (0 : Fin 1)) = nodeWord i := by
  unfold RefTerm.call4_v5
  rw [column_apply]
  exact call4_v4_apply i j

/-- The take's in-range mask is one at every edge. -/
theorem call4_v12_apply (i j : Fin 1024) : RefTerm.call4_v12 (ix1 (edge i j)) = 1#1 := by
  unfold RefTerm.call4_v12 RefTerm.call4_v11 RefTerm.call4_v7 RefTerm.call4_v10
  exact takeMask_apply RefTerm.call4_v5 RefTerm.call4_v6 RefTerm.call4_v9 RefTerm.call4_c_3 _ _ (edge i j) i
    (call4_v5_apply i j)
    (by unfold RefTerm.call4_v6 RefTerm.call4_c_2; exact splatI_apply _ _ _)
    (by unfold RefTerm.call4_v9 RefTerm.call4_v8 RefTerm.call4_c_1; exact (unitColumn_apply _ _ _ _ _).trans rfl)
    (fun _ => rfl)

/-- The row taken at edge `i · 1024 + j` is row `i` of the features. -/
theorem v50_apply (A : Cert.Gcn.Args) (i j : Fin 1024) (f : Fin 256) :
    RefTerm.v50 A (ix2 (edge i j) f) = RefTerm.v48 A (ix2 i f) := by
  unfold RefTerm.v50 RefTerm.call4_v14
  rw [takeSelect_apply RefTerm.call4_v12 (RefTerm.call4_v13 A) RefTerm.call4_v15 _ (edge i j) f (call4_v12_apply i j)]
  unfold RefTerm.call4_v13
  exact gatherRows_apply (RefTerm.v48 A) RefTerm.call4_v5 (edge i j) i f (call4_v5_apply i j)

/-- **The second hop of the reference is `hopR`.** -/
theorem hop2_eq (A : Cert.Gcn.Args) (h : Fin 1024 → Fin 256 → EReal)
    (hh : ∀ i f, RefTerm.v48 A (ix2 i f) = h i f) (n : Fin 1024) (f : Fin 256) :
    RefTerm.v55 A (ix2 n f) = Cert.Gcn.hopR A h n f := by
  unfold RefTerm.v55 RefTerm.v52 RefTerm.v51 Cert.Gcn.hopR
  exact hopStage RefTerm.v53 RefTerm.v54 (RefTerm.v49 A) (RefTerm.v50 A) _
    (fun i n => A.a1 (ix2 i n) * (Cert.Gcn.dinv A i * Cert.Gcn.dinv A n)) h n f
    (by unfold RefTerm.v53 RefTerm.cst_7; exact splatF_zero_apply _ _)
    v54_apply (fun i => v49_apply A i n) (fun i => (v50_apply A i n f).trans (hh i f))

end Cert.ReferenceIdeal.RefValue

end
-- ==== Proof.RefGraph.lean ====
import proofs.«106343_g48172353192219_fold_wed_c4_272_4_alg».proof.Proof.RefGraphHop2

/-!
# The reference's graph part, read at an index

The three facts the rest of the proof uses, proved in the modules this one imports:
`Cert.ReferenceIdeal.RefValue.dinv_eq` (the degree weight at node `n` is `Cert.Gcn.dinv A n`),
`Cert.ReferenceIdeal.RefValue.hop1_eq` and `Cert.ReferenceIdeal.RefValue.hop2_eq` (each hop is
`Cert.Gcn.hopR` of its input).
-/
-- ==== Proof.lean ====
/-
  The Pallas kernel fuses a graph critic model into one call: an encoder of two dense layers, the degree
  weights d = 1/√deg of a dense weighted adjacency A (0 where the degree is not positive), two propagation
  hops h ← d ⊙ (Aᵀ (d ⊙ h)), two dense layers, a dense layer on the concatenation [x_graph, x] written as two
  products with the halves of its weight, one more dense layer, a linear read-out and the node mask.  The
  reference builds the complete edge list (edge i·1024 + j from node i to node j, weight A[i, j]) and
  propagates by gather and segment sum, with both end-point weights on every edge.

  At the ideal instance both results are functions of the argument arrays, index by index (`Cert.Gcn.specK`,
  `Cert.Gcn.specR`).  They differ only in where the target's weight stands in a hop: outside the sum over the
  sources, or inside every summand.  On the extended reals a factor moves across a finite sum when
  everything is a finite real, which the precondition provides (`Cert.Gcn.spec_eq`,
  `Cert.Gcn.Fin.finite_of_pre`).  Rounding to bf16 on the way into the propagation products is the identity
  at the ideal instance, and the kernel's program there is its own text with no rewrite to account for, so
  `preserves` is `True`.
-/
import proofs.«106343_g48172353192219_fold_wed_c4_272_4_alg».proof.Defs
import proofs.«106343_g48172353192219_fold_wed_c4_272_4_alg».proof.Proof.Gen.Kernel
import proofs.«106343_g48172353192219_fold_wed_c4_272_4_alg».proof.Proof.Gen.Kernel.Frame
import proofs.«106343_g48172353192219_fold_wed_c4_272_4_alg».proof.Proof.Gen.KernelIdeal
import proofs.«106343_g48172353192219_fold_wed_c4_272_4_alg».proof.Proof.Gen.KernelIdeal.Frame
import proofs.«106343_g48172353192219_fold_wed_c4_272_4_alg».proof.Proof.Gen.KernelIdeal.Value
import proofs.«106343_g48172353192219_fold_wed_c4_272_4_alg».proof.Proof.Gen.ReferenceIdeal
import proofs.«106343_g48172353192219_fold_wed_c4_272_4_alg».proof.Proof.Gen.Pre_finite_inputs
import proofs.«106343_g48172353192219_fold_wed_c4_272_4_alg».proof.Proof.Spec
import proofs.«106343_g48172353192219_fold_wed_c4_272_4_alg».proof.Proof.Law
import proofs.«106343_g48172353192219_fold_wed_c4_272_4_alg».proof.Proof.Finite
import proofs.«106343_g48172353192219_fold_wed_c4_272_4_alg».proof.Proof.KernelRun
import proofs.«106343_g48172353192219_fold_wed_c4_272_4_alg».proof.Proof.RefRun
import proofs.«106343_g48172353192219_fold_wed_c4_272_4_alg».proof.Proof.RefDense
import proofs.«106343_g48172353192219_fold_wed_c4_272_4_alg».proof.Proof.RefGraph

noncomputable section

namespace Cert.Proof

open Idealize.ShloMosaic Idealize.SL.Sem

/-- The reference's result array is the edge-weighted model of its arguments: the encoder, the two hops and
    the head read at an index. -/
theorem refTerm_eq (A : Cert.Gcn.Args) :
    Cert.ReferenceIdeal.RefTerm.term A = Cert.Gcn.asColumn (Cert.Gcn.specR A) :=
  Cert.ReferenceIdeal.RefValue.head_eq A _ (fun n f =>
    Cert.ReferenceIdeal.RefValue.hop2_eq A _ (fun i g =>
      Cert.ReferenceIdeal.RefValue.hop1_eq A _ (Cert.ReferenceIdeal.RefValue.enc_eq A) i g) n f)

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the same array: the kernel's is `specK` of its arguments, the reference's `specR`
    of the same arguments, and the two agree because the precondition makes every entry a finite real. -/
theorem algebraic : Cert.algebraic_KernelIdeal_ReferenceIdeal := by
  intro m ρ m' ρ' hpre hagree
  refine ⟨fun c => Cert.Gcn.asColumn (Cert.Gcn.specK (Cert.KernelIdeal.KValue.argsOf m c)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  have hargs : Cert.ReferenceIdeal.RefRun.argsOf m' c = Cert.KernelIdeal.KValue.argsOf m c := by
    obtain ⟨e0, e1, e2, e3, e4, e5, e6, e7, e8, e9, e10, e11, e12, e13, e14, e15, e16⟩ := hagree c
    unfold Cert.ReferenceIdeal.RefRun.argsOf Cert.KernelIdeal.KValue.argsOf
    rw [e0, e1, e2, e3, e4, e5, e6, e7, e8, e9, e10, e11, e12, e13, e14, e15, e16]
  have hfin : (Cert.KernelIdeal.KValue.argsOf m c).Finite :=
    Cert.Gcn.Fin.finite_of_pre _ _ _ _ _ _ _ _ _ _ _ _ _ _ _ _ _ (hpre c)
  show Cert.ReferenceIdeal.RefTerm.term (Cert.ReferenceIdeal.RefRun.argsOf m' c)
    = Cert.Gcn.asColumn (Cert.Gcn.specK (Cert.KernelIdeal.KValue.argsOf m c))
  rw [hargs, refTerm_eq, Cert.Gcn.spec_eq _ hfin]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
